-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x2048x256 .f32) (main_arg1 : FVec F S768x256 .f32) (main_arg2 : FVec F S768 .f32) (main_arg3 : FVec F S256x256 .f32) (main_arg4 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S8x2048x256 : Shape := ⟨3, ![8, 2048, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S4x64x256 : Shape := ⟨3, ![4, 64, 256]⟩
abbrev S256x4x64 : Shape := ⟨3, ![256, 4, 64]⟩
abbrev S256x4x192 : Shape := ⟨3, ![256, 4, 192]⟩
abbrev S4x256x192 : Shape := ⟨3, ![4, 256, 192]⟩
abbrev S4x64 : Shape := ⟨2, ![4, 64]⟩
abbrev S4x192 : Shape := ⟨2, ![4, 192]⟩
abbrev S4x1x192 : Shape := ⟨3, ![4, 1, 192]⟩
abbrev S8x4x2048x64 : Shape := ⟨4, ![8, 4, 2048, 64]⟩
abbrev S1x2048x256 : Shape := ⟨3, ![1, 2048, 256]⟩
abbrev S1x256x192 : Shape := ⟨3, ![1, 256, 192]⟩
abbrev S1x1x192 : Shape := ⟨3, ![1, 1, 192]⟩
abbrev S1x1x2048x64 : Shape := ⟨4, ![1, 1, 2048, 64]⟩
abbrev S2048x256 : Shape := ⟨2, ![2048, 256]⟩
abbrev S256x192 : Shape := ⟨2, ![256, 192]⟩
abbrev S2048x192 : Shape := ⟨2, ![2048, 192]⟩
abbrev S1x192 : Shape := ⟨2, ![1, 192]⟩
abbrev S2048x64 : Shape := ⟨2, ![2048, 64]⟩
abbrev S1x256 : Shape := ⟨2, ![1, 256]⟩
abbrev S1x4x256x64 : Shape := ⟨4, ![1, 4, 256, 64]⟩
abbrev S1x4x2048x64 : Shape := ⟨4, ![1, 4, 2048, 64]⟩
abbrev S1x256x256 : Shape := ⟨3, ![1, 256, 256]⟩
abbrev S1x1x256x64 : Shape := ⟨4, ![1, 1, 256, 64]⟩
abbrev S256x64 : Shape := ⟨2, ![256, 64]⟩
abbrev S256x2048 : Shape := ⟨2, ![256, 2048]⟩
abbrev S256x1 : Shape := ⟨2, ![256, 1]⟩

abbrev nBuf : Space → Nat
  | .hbm => 32
  | .vmem => 23
  | .smem => 0
  | _ => 0

abbrev bufTy : (tb : Table) → Fin (tcTables nBuf tb) → BufTy
  | .hbm, ⟨0, _⟩ => ⟨S8x2048x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S4x64x256, .f32⟩
  | .hbm, ⟨9, _⟩ => ⟨S256x4x64, .f32⟩
  | .hbm, ⟨10, _⟩ => ⟨S4x64x256, .f32⟩
  | .hbm, ⟨11, _⟩ => ⟨S256x4x64, .f32⟩
  | .hbm, ⟨12, _⟩ => ⟨S4x64x256, .f32⟩
  | .hbm, ⟨13, _⟩ => ⟨S256x4x64, .f32⟩
  | .hbm, ⟨14, _⟩ => ⟨S256x4x192, .f32⟩
  | .hbm, ⟨15, _⟩ => ⟨S4x256x192, .f32⟩
  | .hbm, ⟨16, _⟩ => ⟨S4x256x192, .bf16⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S4x64, .f32⟩
  | .hbm, ⟨21, _⟩ => ⟨S4x64, .f32⟩
  | .hbm, ⟨22, _⟩ => ⟨S4x64, .f32⟩
  | .hbm, ⟨23, _⟩ => ⟨S4x192, .f32⟩
  | .hbm, ⟨24, _⟩ => ⟨S4x1x192, .f32⟩
  | .hbm, ⟨25, _⟩ => ⟨S8x4x2048x64, .bf16⟩
  | .hbm, ⟨26, _⟩ => ⟨S8x4x2048x64, .bf16⟩
  | .hbm, ⟨27, _⟩ => ⟨S8x4x2048x64, .bf16⟩
  | .hbm, ⟨28, _⟩ => ⟨S256x256, .f32⟩
  | .hbm, ⟨29, _⟩ => ⟨S256x256, .bf16⟩
  | .hbm, ⟨30, _⟩ => ⟨S1x256, .f32⟩
  | .hbm, ⟨31, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256x192, .bf16⟩
  | .local _ .vmem, ⟨3, _⟩ => ⟨S1x256x192, .bf16⟩
  | .local _ .vmem, ⟨4, _⟩ => ⟨S1x1x192, .f32⟩
  | .local _ .vmem, ⟨5, _⟩ => ⟨S1x1x192, .f32⟩
  | .local _ .vmem, ⟨6, _⟩ => ⟨S1x1x2048x64, .bf16⟩
  | .local _ .vmem, ⟨7, _⟩ => ⟨S1x1x2048x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x4x256x64, .bf16⟩
  | .local _ .vmem, ⟨13, _⟩ => ⟨S1x4x256x64, .bf16⟩
  | .local _ .vmem, ⟨14, _⟩ => ⟨S1x4x2048x64, .bf16⟩
  | .local _ .vmem, ⟨15, _⟩ => ⟨S1x4x2048x64, .bf16⟩
  | .local _ .vmem, ⟨16, _⟩ => ⟨S1x4x2048x64, .bf16⟩
  | .local _ .vmem, ⟨17, _⟩ => ⟨S1x4x2048x64, .bf16⟩
  | .local _ .vmem, ⟨18, _⟩ => ⟨S256x256, .bf16⟩
  | .local _ .vmem, ⟨19, _⟩ => ⟨S1x256, .f32⟩
  | .local _ .vmem, ⟨20, _⟩ => ⟨S1x256x256, .f32⟩
  | .local _ .vmem, ⟨21, _⟩ => ⟨S1x256x256, .f32⟩
  | .local _ .vmem, ⟨22, _⟩ => ⟨S256x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S256x256_S4x64x256 : S256x256.ShapeCasts S4x64x256
  transposes_S4x64x256_S256x4x64_2_0_1 : S4x64x256.Transposes [2, 0, 1] S256x4x64
  concatenates_S256x4x64_S256x4x64_S256x4x64_S256x4x192_d2 : Shape.Concatenates [S256x4x64, S256x4x64, S256x4x64] S256x4x192 2
  transposes_S256x4x192_S4x256x192_1_0_2 : S256x4x192.Transposes [1, 0, 2] S4x256x192
  bitsLt_bf16_f32 : FTy.bits .bf16 < FTy.bits .f32
  slices_S768_S256_0 : S768.Slices ![0] S256
  slices_S768_S256_256 : S768.Slices ![256] S256
  slices_S768_S256_512 : S768.Slices ![512] S256
  shapeCasts_S256_S4x64 : S256.ShapeCasts S4x64
  concatenates_S4x64_S4x64_S4x64_S4x192_d1 : Shape.Concatenates [S4x64, S4x64, S4x64] S4x192 1
  shapeCasts_S4x192_S4x1x192 : S4x192.ShapeCasts S4x1x192
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x192_S1x256x192_0_0_0 : ∀ a, (![0, 0, 0] : Fin 3 → Nat) a + S1x256x192.size a ≤ S1x256x192.size a
  h_S1x256x192 : 0 < S1x256x192.numel
  shapeCasts_S1x256x192_S256x192 : S1x256x192.ShapeCasts S256x192
  inb_S1x1x192_S1x1x192_0_0_0 : ∀ a, (![0, 0, 0] : Fin 3 → Nat) a + S1x1x192.size a ≤ S1x1x192.size a
  h_S1x1x192 : 0 < S1x1x192.numel
  shapeCasts_S1x1x192_S1x192 : S1x1x192.ShapeCasts S1x192
  broadcasts_S1x192_S2048x192 : S1x192.Broadcasts S2048x192
  slices_S2048x192_o0_0_S2048x64 : S2048x192.Slices ![0, 0] S2048x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S2048x64_S1x1x2048x64 : S2048x64.ShapeCasts S1x1x2048x64
  packedbf16_S1x1x2048x64_S1x1x2048x64_0_0_0_0 : (Rect.unit (s := S1x1x2048x64) ![0, 0, 0, 0] S1x1x2048x64.size inb_S1x1x2048x64_S1x1x2048x64_0_0_0_0).PackedRows (EltTy.packing .bf16)
  slices_S2048x192_o0_64_S2048x64 : S2048x192.Slices ![0, 64] S2048x64
  slices_S2048x192_o0_128_S2048x64 : S2048x192.Slices ![0, 128] S2048x64
  transposes_S256x256_S256x256_1_0 : S256x256.Transposes [1, 0] S256x256
  shapeCasts_S256_S1x256 : S256.ShapeCasts S1x256
  inb_S1x4x256x64_S1x1x256x64_0_0_0_0 : ∀ a, (![0, 0, 0, 0] : Fin 4 → Nat) a + S1x1x256x64.size a ≤ S1x4x256x64.size a
  h_S1x1x256x64 : 0 < S1x1x256x64.numel
  shapeCasts_S1x1x256x64_S256x64 : S1x1x256x64.ShapeCasts S256x64
  inb_S1x4x2048x64_S1x1x2048x64_0_0_0_0 : ∀ a, (![0, 0, 0, 0] : Fin 4 → Nat) a + S1x1x2048x64.size a ≤ S1x4x2048x64.size a
  reduces_S256x2048_S256 : S256x2048.Reduces [1] S256
  shapeCasts_S256_S256x1 : S256.ShapeCasts S256x1
  broadcasts_S256x1_S256x2048 : S256x1.Broadcasts S256x2048
  inb_S256x256_S256x64_0_0 : ∀ a, (![0, 0] : Fin 2 → Nat) a + S256x64.size a ≤ S256x256.size a
  h_S256x64 : 0 < S256x64.numel
  shapeCasts_S256x64_S256x64 : S256x64.ShapeCasts S256x64
  inb_S1x4x256x64_S1x1x256x64_0_1_0_0 : ∀ a, (![0, 1, 0, 0] : Fin 4 → Nat) a + S1x1x256x64.size a ≤ S1x4x256x64.size a
  inb_S1x4x2048x64_S1x1x2048x64_0_1_0_0 : ∀ a, (![0, 1, 0, 0] : Fin 4 → Nat) a + S1x1x2048x64.size a ≤ S1x4x2048x64.size a
  inb_S256x256_S256x64_0_64 : ∀ a, (![0, 64] : Fin 2 → Nat) a + S256x64.size a ≤ S256x256.size a
  inb_S1x4x256x64_S1x1x256x64_0_2_0_0 : ∀ a, (![0, 2, 0, 0] : Fin 4 → Nat) a + S1x1x256x64.size a ≤ S1x4x256x64.size a
  inb_S1x4x2048x64_S1x1x2048x64_0_2_0_0 : ∀ a, (![0, 2, 0, 0] : Fin 4 → Nat) a + S1x1x2048x64.size a ≤ S1x4x2048x64.size a
  inb_S256x256_S256x64_0_128 : ∀ a, (![0, 128] : Fin 2 → Nat) a + S256x64.size a ≤ S256x256.size a
  inb_S1x4x256x64_S1x1x256x64_0_3_0_0 : ∀ a, (![0, 3, 0, 0] : Fin 4 → Nat) a + S1x1x256x64.size a ≤ S1x4x256x64.size a
  inb_S1x4x2048x64_S1x1x2048x64_0_3_0_0 : ∀ a, (![0, 3, 0, 0] : Fin 4 → Nat) a + S1x1x2048x64.size a ≤ S1x4x2048x64.size a
  inb_S256x256_S256x64_0_192 : ∀ a, (![0, 192] : Fin 2 → Nat) a + S256x64.size a ≤ S256x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S2048x256_S256x192_S2048x192_1_0_0_1_n_n_wf : DotDims.WF S2048x256 S256x192 S2048x192 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x192.size a ≤ S4x256x192.size a
  hwx0_1 : ∀ i : grid0.Coords, EltTy.bits .bf16 = 32 ∨ (Rect.block (s := S4x256x192) S1x256x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x192.size a ≤ S4x1x192.size a
  hwx0_2 : ∀ i : grid0.Coords, EltTy.bits .f32 = 32 ∨ (Rect.block (s := S4x1x192) S1x1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x64.size a ≤ S8x4x2048x64.size a
  hwx0_3 : ∀ i : grid0.Coords, EltTy.bits .bf16 = 32 ∨ (Rect.block (s := S8x4x2048x64) S1x1x2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048x64.size a ≤ S8x4x2048x64.size a
  hwx0_4 : ∀ i : grid0.Coords, EltTy.bits .bf16 = 32 ∨ (Rect.block (s := S8x4x2048x64) S1x1x2048x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048x64.size a ≤ S8x4x2048x64.size a
  hwx0_5 : ∀ i : grid0.Coords, EltTy.bits .bf16 = 32 ∨ (Rect.block (s := S8x4x2048x64) S1x1x2048x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x256x64.size a ≤ S8x4x2048x64.size a
  hwx1_0 : ∀ i : grid1.Coords, EltTy.bits .bf16 = 32 ∨ (Rect.block (s := S8x4x2048x64) S1x4x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x2048x64.size a ≤ S8x4x2048x64.size a
  hwx1_1 : ∀ i : grid1.Coords, EltTy.bits .bf16 = 32 ∨ (Rect.block (s := S8x4x2048x64) S1x4x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x2048x64.size a ≤ S8x4x2048x64.size a
  hwx1_2 : ∀ i : grid1.Coords, EltTy.bits .bf16 = 32 ∨ (Rect.block (s := S8x4x2048x64) S1x4x2048x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x256.size a ≤ S8x2048x256.size a
  hwx1_5 : ∀ i : grid1.Coords, EltTy.bits .f32 = 32 ∨ (Rect.block (s := S8x2048x256) S1x256x256.size (cc1_transform_5 i) (hinb1_5 i)).WholeWords (EltTy.packing .f32)

variable [Facts₀]

def dot_S2048x256_S256x192_S2048x192_1_0_0_1_n_n : DotDims S2048x256 S256x192 S2048x192 where
  lhsContracting := [1]
  rhsContracting := [0]
  lhsNonContracting := [0]
  rhsNonContracting := [1]
  lhsBatch := []
  rhsBatch := []
  wf := dot_S2048x256_S256x192_S2048x192_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x256x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S1x1x2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x1x2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_2) S1x1x2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20_0) S1x4x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_1) S1x4x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20_2) S1x4x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x256 : Shape := ⟨3, ![8, 2048, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S8x2048x768 : Shape := ⟨3, ![8, 2048, 768]⟩
abbrev S1x1x768 : Shape := ⟨3, ![1, 1, 768]⟩
abbrev S8x2048x3x4x64 : Shape := ⟨5, ![8, 2048, 3, 4, 64]⟩
abbrev S3x8x4x2048x64 : Shape := ⟨5, ![3, 8, 4, 2048, 64]⟩
abbrev S1x8x4x2048x64 : Shape := ⟨5, ![1, 8, 4, 2048, 64]⟩
abbrev S8x4x2048x64 : Shape := ⟨4, ![8, 4, 2048, 64]⟩
abbrev S8x4x2048x2048 : Shape := ⟨4, ![8, 4, 2048, 2048]⟩
abbrev S_ : Shape := ⟨0, ![]⟩
abbrev S8x4x2048 : Shape := ⟨3, ![8, 4, 2048]⟩
abbrev S8x4x2048x1 : Shape := ⟨4, ![8, 4, 2048, 1]⟩
abbrev S8x2048x4x64 : Shape := ⟨4, ![8, 2048, 4, 64]⟩
abbrev S1x1x256 : Shape := ⟨3, ![1, 1, 256]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S8x2048x768, .f32⟩
  | .hbm, ⟨6, _⟩ => ⟨S1x1x768, .f32⟩
  | .hbm, ⟨7, _⟩ => ⟨S8x2048x768, .f32⟩
  | .hbm, ⟨8, _⟩ => ⟨S8x2048x768, .f32⟩
  | .hbm, ⟨9, _⟩ => ⟨S8x2048x3x4x64, .f32⟩
  | .hbm, ⟨10, _⟩ => ⟨S3x8x4x2048x64, .f32⟩
  | .hbm, ⟨11, _⟩ => ⟨S1x8x4x2048x64, .f32⟩
  | .hbm, ⟨12, _⟩ => ⟨S8x4x2048x64, .f32⟩
  | .hbm, ⟨13, _⟩ => ⟨S1x8x4x2048x64, .f32⟩
  | .hbm, ⟨14, _⟩ => ⟨S8x4x2048x64, .f32⟩
  | .hbm, ⟨15, _⟩ => ⟨S1x8x4x2048x64, .f32⟩
  | .hbm, ⟨16, _⟩ => ⟨S8x4x2048x64, .f32⟩
  | .hbm, ⟨17, _⟩ => ⟨S8x4x2048x2048, .f32⟩
  | .hbm, ⟨18, _⟩ => ⟨S_, .f32⟩
  | .hbm, ⟨19, _⟩ => ⟨S8x4x2048x2048, .f32⟩
  | .hbm, ⟨20, _⟩ => ⟨S8x4x2048x2048, .f32⟩
  | .hbm, ⟨21, _⟩ => ⟨S_, .f32⟩
  | .hbm, ⟨22, _⟩ => ⟨S8x4x2048, .f32⟩
  | .hbm, ⟨23, _⟩ => ⟨S_, .f32⟩
  | .hbm, ⟨24, _⟩ => ⟨S8x4x2048, .f32⟩
  | .hbm, ⟨25, _⟩ => ⟨S8x4x2048, .f32⟩
  | .hbm, ⟨26, _⟩ => ⟨S8x4x2048x1, .f32⟩
  | .hbm, ⟨27, _⟩ => ⟨S8x4x2048x2048, .f32⟩
  | .hbm, ⟨28, _⟩ => ⟨S8x4x2048x2048, .f32⟩
  | .hbm, ⟨29, _⟩ => ⟨S8x4x2048x2048, .f32⟩
  | .hbm, ⟨30, _⟩ => ⟨S_, .f32⟩
  | .hbm, ⟨31, _⟩ => ⟨S8x4x2048, .f32⟩
  | .hbm, ⟨32, _⟩ => ⟨S8x4x2048x1, .f32⟩
  | .hbm, ⟨33, _⟩ => ⟨S8x4x2048x2048, .f32⟩
  | .hbm, ⟨34, _⟩ => ⟨S8x4x2048x2048, .f32⟩
  | .hbm, ⟨35, _⟩ => ⟨S8x4x2048x64, .f32⟩
  | .hbm, ⟨36, _⟩ => ⟨S8x2048x4x64, .f32⟩
  | .hbm, ⟨37, _⟩ => ⟨S8x2048x256, .f32⟩
  | .hbm, ⟨38, _⟩ => ⟨S8x2048x256, .f32⟩
  | .hbm, ⟨39, _⟩ => ⟨S1x1x256, .f32⟩
  | .hbm, ⟨40, _⟩ => ⟨S8x2048x256, .f32⟩
  | .hbm, ⟨41, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  shapeCasts_S8x2048x768_S8x2048x3x4x64 : S8x2048x768.ShapeCasts S8x2048x3x4x64
  transposes_S8x2048x3x4x64_S3x8x4x2048x64_2_0_3_1_4 : S8x2048x3x4x64.Transposes [2, 0, 3, 1, 4] S3x8x4x2048x64
  slices_S3x8x4x2048x64_S1x8x4x2048x64_0_0_0_0_0 : S3x8x4x2048x64.Slices ![0, 0, 0, 0, 0] S1x8x4x2048x64
  shapeCasts_S1x8x4x2048x64_S8x4x2048x64 : S1x8x4x2048x64.ShapeCasts S8x4x2048x64
  slices_S3x8x4x2048x64_S1x8x4x2048x64_1_0_0_0_0 : S3x8x4x2048x64.Slices ![1, 0, 0, 0, 0] S1x8x4x2048x64
  slices_S3x8x4x2048x64_S1x8x4x2048x64_2_0_0_0_0 : S3x8x4x2048x64.Slices ![2, 0, 0, 0, 0] S1x8x4x2048x64
  bcast_S_S8x4x2048x2048 : S_.BroadcastsInDim S8x4x2048x2048 (![] : Fin 0 → Fin S8x4x2048x2048.rank)
  reducesTo_S8x4x2048x2048_S8x4x2048_d3 : S8x4x2048x2048.ReducesTo [3] S8x4x2048
  h_S_ : 0 < S_.numel
  bcast_S_S8x4x2048 : S_.BroadcastsInDim S8x4x2048 (![] : Fin 0 → Fin S8x4x2048.rank)
  bcast_S8x4x2048_S8x4x2048x1_0_1_2 : S8x4x2048.BroadcastsInDim S8x4x2048x1 (![0, 1, 2] : Fin 3 → Fin S8x4x2048x1.rank)
  bcast_S8x4x2048x1_S8x4x2048x2048_0_1_2_3 : S8x4x2048x1.BroadcastsInDim S8x4x2048x2048 (![0, 1, 2, 3] : Fin 4 → Fin S8x4x2048x2048.rank)
  transposes_S8x4x2048x64_S8x2048x4x64_0_2_1_3 : S8x4x2048x64.Transposes [0, 2, 1, 3] S8x2048x4x64
  shapeCasts_S8x2048x4x64_S8x2048x256 : S8x2048x4x64.ShapeCasts S8x2048x256
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  dot_S8x2048x256_S768x256_S8x2048x768_2_1_01_0_n_n_wf : DotDims.WF S8x2048x256 S768x256 S8x2048x768 [2] [1] [0, 1] [0] [] []
  dot_S8x4x2048x64_S8x4x2048x64_S8x4x2048x2048_3_3_2_2_01_01_wf : DotDims.WF S8x4x2048x64 S8x4x2048x64 S8x4x2048x2048 [3] [3] [2] [2] [0, 1] [0, 1]
  dot_S8x4x2048x2048_S8x4x2048x64_S8x4x2048x64_3_2_2_3_01_01_wf : DotDims.WF S8x4x2048x2048 S8x4x2048x64 S8x4x2048x64 [3] [2] [2] [3] [0, 1] [0, 1]
  dot_S8x2048x256_S256x256_S8x2048x256_2_1_01_0_n_n_wf : DotDims.WF S8x2048x256 S256x256 S8x2048x256 [2] [1] [0, 1] [0] [] []

variable [Facts₀]

def dot_S8x2048x256_S768x256_S8x2048x768_2_1_01_0_n_n : DotDims S8x2048x256 S768x256 S8x2048x768 where
  lhsContracting := [2]
  rhsContracting := [1]
  lhsNonContracting := [0, 1]
  rhsNonContracting := [0]
  lhsBatch := []
  rhsBatch := []
  wf := dot_S8x2048x256_S768x256_S8x2048x768_2_1_01_0_n_n_wf
def dot_S8x4x2048x64_S8x4x2048x64_S8x4x2048x2048_3_3_2_2_01_01 : DotDims S8x4x2048x64 S8x4x2048x64 S8x4x2048x2048 where
  lhsContracting := [3]
  rhsContracting := [3]
  lhsNonContracting := [2]
  rhsNonContracting := [2]
  lhsBatch := [0, 1]
  rhsBatch := [0, 1]
  wf := dot_S8x4x2048x64_S8x4x2048x64_S8x4x2048x2048_3_3_2_2_01_01_wf
def dot_S8x4x2048x2048_S8x4x2048x64_S8x4x2048x64_3_2_2_3_01_01 : DotDims S8x4x2048x2048 S8x4x2048x64 S8x4x2048x64 where
  lhsContracting := [3]
  rhsContracting := [2]
  lhsNonContracting := [2]
  rhsNonContracting := [3]
  lhsBatch := [0, 1]
  rhsBatch := [0, 1]
  wf := dot_S8x4x2048x2048_S8x4x2048x64_S8x4x2048x64_3_2_2_3_01_01_wf
def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf

class Facts : Prop extends Facts₀ where

variable [Facts]
-- ==== Proof.KB.Body0.lean ====
/-
  The projection kernel, one grid point at a time.

  At a point the body reads its three input blocks whole — a [2048, 256] slab of tokens, one head's [256, 192] weight
  block and its [1, 192] bias row —, forms their product plus the bias, and stores the three 64-column thirds of the
  result into the three output blocks, each store covering its block.  So after the body each output buffer holds one
  pure function of the three input blocks, whatever it held before, and the inputs are left as found.  The proof data
  of the launch say exactly that at every grid point, for any contents of the arrays when the region is entered.
-/
import proofs.«153646_j81466939670561_2_alg».proof.Proof.Gen.Kernel.Launch
import proofs.«153646_j81466939670561_2_alg».proof.Proof.Gen.Kernel.Skeleton
import proofs.«153646_j81466939670561_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not: between
    two fetches the block index does not move and the body leaves the buffer as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes its buffer whole -/

abbrev rx0 : Rect S1x2048x256 := Rect.unit (s := S1x2048x256) ![0, 0, 0] S1x2048x256.size inb_S1x2048x256_S1x2048x256_0_0_0
abbrev rw0 : Rect S1x256x192 := Rect.unit (s := S1x256x192) ![0, 0, 0] S1x256x192.size inb_S1x256x192_S1x256x192_0_0_0
abbrev rb0 : Rect S1x1x192 := Rect.unit (s := S1x1x192) ![0, 0, 0] S1x1x192.size inb_S1x1x192_S1x1x192_0_0_0
abbrev ro0 : Rect S1x1x2048x64 := Rect.unit (s := S1x1x2048x64) ![0, 0, 0, 0] S1x1x2048x64.size inb_S1x1x2048x64_S1x1x2048x64_0_0_0_0

/-! ## What the body leaves in each output buffer -/

/-- The query block: the first 64 columns of the projected slab. -/
def out0_3 (x0 : Vec F S1x2048x256 .f32) (x1 : Vec F S1x256x192 .bf16) (x2 : Vec F S1x1x192 .f32) : Vec F S1x1x2048x64 .bf16 :=
  View.canon [⟨ro0, k0_pay2 (View.ld x0 rx0) (View.ld x1 rw0) (View.ld x2 rb0)⟩]
/-- The key block: the middle 64 columns. -/
def out0_4 (x0 : Vec F S1x2048x256 .f32) (x1 : Vec F S1x256x192 .bf16) (x2 : Vec F S1x1x192 .f32) : Vec F S1x1x2048x64 .bf16 :=
  View.canon [⟨ro0, k0_pay3 (View.ld x0 rx0) (View.ld x1 rw0) (View.ld x2 rb0)⟩]
/-- The value block: the last 64 columns. -/
def out0_5 (x0 : Vec F S1x2048x256 .f32) (x1 : Vec F S1x256x192 .bf16) (x2 : Vec F S1x1x192 .f32) : Vec F S1x1x2048x64 .bf16 :=
  View.canon [⟨ro0, k0_pay4 (View.ld x0 rx0) (View.ld x1 rw0) (View.ld x2 rb0)⟩]

/-- One whole-buffer store covers the buffer. -/
theorem cover0_o (p0 : Vec F S1x1x2048x64 .bf16) (y : S1x1x2048x64.Idx) :
    ∃ pc ∈ ([⟨ro0, p0⟩] : List (View.Piece (Elt F) S1x1x2048x64 .bf16)), y ∈ pc.1.set :=
  View.cover_of_tiled [⟨ro0, p0⟩] S1x1x2048x64.size (by rfl) y

/-! ## The body's triple -/

set_option maxHeartbeats 4000000 in
/-- On whole buffers, the inputs' at contents `x0 x1 x2` and the outputs' at anything, the body runs to its end
    leaving the inputs as they were and each output at its function of the inputs. -/
theorem sound_kernel0 (c : Dev nD) (E : Set ℕ) (i : grid0.Coords)
    (arg2 : Memref sig .tc .vmem S1x2048x256 .f32) (harg2 : arg2.IsWhole) (arg3 : Memref sig .tc .vmem S1x256x192 .bf16) (harg3 : arg3.IsWhole)
    (arg4 : Memref sig .tc .vmem S1x1x192 .f32) (harg4 : arg4.IsWhole) (arg5 : Memref sig .tc .vmem S1x1x2048x64 .bf16) (harg5 : arg5.IsWhole)
    (arg6 : Memref sig .tc .vmem S1x1x2048x64 .bf16) (harg6 : arg6.IsWhole) (arg7 : Memref sig .tc .vmem S1x1x2048x64 .bf16) (harg7 : arg7.IsWhole)
    (x0 : Vec F S1x2048x256 .f32) (x1 : Vec F S1x256x192 .bf16) (x2 : Vec F S1x1x192 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__qkv_heads_kernel i arg2 harg2 arg3 harg3 arg4 harg4 arg5 harg5 arg6 harg6 arg7 harg7) K := by
  simp only [cc0__qkv_heads_kernel_eq_skeleton]; unfold cc0__qkv_heads_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The proof data -/

/-- The arrays as the region finds them; after the body at point `t` each input buffer at its block and each output
    buffer at its function of the three input blocks; the invariant the scoped rest and the generator register, which
    the body does not touch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
/-
  The attention kernel, one grid point at a time.

  At a point the body holds a [4, 256, 64] block of queries (the four heads of one tile of 256 positions), the whole
  [4, 2048, 64] keys and values of the batch, the output-projection weight and its bias row.  Head by head it forms
  the tile's attention output, a [256, 64] table, and stores it into columns 64h … 64h+63 of a [256, 256] scratch
  buffer; the four stores tile the scratch, so the whole-buffer load that follows reads one function of the input
  blocks, whatever the scratch held before.  That table times the weight, plus the bias, is stored over the whole
  output block.  So after the body the output buffer holds one pure function of the five input blocks, the inputs are
  left as found, and the scratch — which the body reads before it writes — is handed back at some contents.
-/
import proofs.«153646_j81466939670561_2_alg».proof.Proof.Gen.Kernel.Launch
import proofs.«153646_j81466939670561_2_alg».proof.Proof.Gen.Kernel.Skeleton
import proofs.«153646_j81466939670561_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- head h's [256, 64] table inside the query block, and its [2048, 64] table inside the key and value blocks
abbrev rq0 : Rect S1x4x256x64 := Rect.unit (s := S1x4x256x64) ![0, 0, 0, 0] S1x1x256x64.size inb_S1x4x256x64_S1x1x256x64_0_0_0_0
abbrev rk0 : Rect S1x4x2048x64 := Rect.unit (s := S1x4x2048x64) ![0, 0, 0, 0] S1x1x2048x64.size inb_S1x4x2048x64_S1x1x2048x64_0_0_0_0
abbrev rs0 : Rect S256x256 := Rect.unit (s := S256x256) ![0, 0] S256x64.size inb_S256x256_S256x64_0_0
abbrev rq1 : Rect S1x4x256x64 := Rect.unit (s := S1x4x256x64) ![0, 1, 0, 0] S1x1x256x64.size inb_S1x4x256x64_S1x1x256x64_0_1_0_0
abbrev rk1 : Rect S1x4x2048x64 := Rect.unit (s := S1x4x2048x64) ![0, 1, 0, 0] S1x1x2048x64.size inb_S1x4x2048x64_S1x1x2048x64_0_1_0_0
abbrev rs1 : Rect S256x256 := Rect.unit (s := S256x256) ![0, 64] S256x64.size inb_S256x256_S256x64_0_64
abbrev rq2 : Rect S1x4x256x64 := Rect.unit (s := S1x4x256x64) ![0, 2, 0, 0] S1x1x256x64.size inb_S1x4x256x64_S1x1x256x64_0_2_0_0
abbrev rk2 : Rect S1x4x2048x64 := Rect.unit (s := S1x4x2048x64) ![0, 2, 0, 0] S1x1x2048x64.size inb_S1x4x2048x64_S1x1x2048x64_0_2_0_0
abbrev rs2 : Rect S256x256 := Rect.unit (s := S256x256) ![0, 128] S256x64.size inb_S256x256_S256x64_0_128
abbrev rq3 : Rect S1x4x256x64 := Rect.unit (s := S1x4x256x64) ![0, 3, 0, 0] S1x1x256x64.size inb_S1x4x256x64_S1x1x256x64_0_3_0_0
abbrev rk3 : Rect S1x4x2048x64 := Rect.unit (s := S1x4x2048x64) ![0, 3, 0, 0] S1x1x2048x64.size inb_S1x4x2048x64_S1x1x2048x64_0_3_0_0
abbrev rs3 : Rect S256x256 := Rect.unit (s := S256x256) ![0, 192] S256x64.size inb_S256x256_S256x64_0_192
-- whole buffers: the [256, 256] scratch and weight, the [1, 256] bias row, the [1, 256, 256] output block
abbrev rsw : Rect S256x256 := Rect.unit (s := S256x256) ![0, 0] S256x256.size inb_S256x256_S256x256_0_0
abbrev rbb : Rect S1x256 := Rect.unit (s := S1x256) ![0, 0] S1x256.size inb_S1x256_S1x256_0_0
abbrev roo : Rect S1x256x256 := Rect.unit (s := S1x256x256) ![0, 0, 0] S1x256x256.size inb_S1x256x256_S1x256x256_0_0_0

/-! ## What the body leaves -/

/-- The four heads' stores into the scratch, last first: head h's attention output into columns 64h … 64h+63. -/
def accPieces (x0 : Vec F S1x4x256x64 .bf16) (x1 x2 : Vec F S1x4x2048x64 .bf16) : List (View.Piece (Elt F) S256x256 .f32) :=
  [⟨rs3, k1_pay10 (View.ld x0 rq3) (View.ld x1 rk3) (View.ld x2 rk3)⟩,
   ⟨rs2, k1_pay9 (k1_pay6 (View.ld x2 rk2)) (k1_pay7 (View.ld x0 rq2) (View.ld x1 rk2)) (k1_pay8 (View.ld x0 rq2) (View.ld x1 rk2))⟩,
   ⟨rs1, k1_pay5 (k1_pay3 (View.ld x0 rq1)) (k1_pay4 (View.ld x1 rk1)) (View.ld x2 rk1)⟩,
   ⟨rs0, k1_pay2 (View.ld x0 rq0) (View.ld x1 rk0) (View.ld x2 rk0)⟩]

/-- The scratch as the whole-buffer load finds it: the heads' tables side by side. -/
def acc1 (x0 : Vec F S1x4x256x64 .bf16) (x1 x2 : Vec F S1x4x2048x64 .bf16) : Vec F S256x256 .f32 :=
  View.ld (View.canon (accPieces x0 x1 x2)) rsw

/-- The output block: the merged heads times the weight, plus the bias. -/
def out1_5 (x0 : Vec F S1x4x256x64 .bf16) (x1 x2 : Vec F S1x4x2048x64 .bf16) (x3 : Vec F S256x256 .bf16) (x4 : Vec F S1x256 .f32) : Vec F S1x256x256 .f32 :=
  View.canon [⟨roo, k1_pay1 (k1_pay11 (acc1 x0 x1 x2)) (View.ld x3 rsw) (View.ld x4 rbb)⟩]

/-- The four column stores tile the scratch. -/
theorem cover1_s (p0 p1 p2 p3 : Vec F S256x64 .f32) (y : S256x256.Idx) :
    ∃ pc ∈ ([⟨rs3, p3⟩, ⟨rs2, p2⟩, ⟨rs1, p1⟩, ⟨rs0, p0⟩] : List (View.Piece (Elt F) S256x256 .f32)), y ∈ pc.1.set :=
  View.cover_of_tiled [⟨rs3, p3⟩, ⟨rs2, p2⟩, ⟨rs1, p1⟩, ⟨rs0, p0⟩] S256x64.size (by rfl) y
/-- One whole-buffer store covers the output block. -/
theorem cover1_o (p0 : Vec F S1x256x256 .f32) (y : S1x256x256.Idx) :
    ∃ pc ∈ ([⟨roo, p0⟩] : List (View.Piece (Elt F) S1x256x256 .f32)), y ∈ pc.1.set :=
  View.cover_of_tiled [⟨roo, p0⟩] S1x256x256.size (by rfl) y

/-! ## The body's triple -/

set_option maxHeartbeats 8000000 in
/-- On whole buffers, the five inputs' at contents `x0 … x4`, the output's and the scratch's at anything, the body runs
    to its end leaving the inputs as they were, the output at its function of the inputs, the scratch at something. -/
theorem sound_kernel1 (c : Dev nD) (E : Set ℕ) (i : grid1.Coords)
    (arg2 : Memref sig .tc .vmem S1x4x256x64 .bf16) (harg2 : arg2.IsWhole) (arg3 : Memref sig .tc .vmem S1x4x2048x64 .bf16) (harg3 : arg3.IsWhole)
    (arg4 : Memref sig .tc .vmem S1x4x2048x64 .bf16) (harg4 : arg4.IsWhole) (arg5 : Memref sig .tc .vmem S256x256 .bf16) (harg5 : arg5.IsWhole)
    (arg6 : Memref sig .tc .vmem S1x256 .f32) (harg6 : arg6.IsWhole) (arg7 : Memref sig .tc .vmem S1x256x256 .f32) (harg7 : arg7.IsWhole)
    (arg8 : Memref sig .tc .vmem S256x256 .f32) (harg8 : arg8.IsWhole)
    (x0 : Vec F S1x4x256x64 .bf16) (x1 x2 : Vec F S1x4x2048x64 .bf16) (x3 : Vec F S256x256 .bf16) (x4 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4) ∗ (∃ d, owns (c : Thread nD τ) arg8 fullShare d)) -∗ K ⟨⟩))
      ⊢ wp frame (wpE (defs₀ (F := F)) Variants.none c none) E (cc1__attn_proj_kernel i arg2 harg2 arg3 harg3 arg4 harg4 arg5 harg5 arg6 harg6 arg7 harg7 arg8 harg8) K := by
  simp only [cc1__attn_proj_kernel_eq_skeleton]; unfold cc1__attn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_o _)).trans ?_
    unfold out1_5 acc1 accPieces
    sl_unfold_run_names
    rw [View.readCov_eq_canon_ld _ _ _ (cover1_s _ _ _ _)]
    rfl
  iexists _; iexists _; isplitr
  swap; · iexact H8
  ipureintro; rfl

/-! ## The proof data -/

/-- The arrays as the region finds them; after the body at point `t` each input buffer at its block and the output
    buffer at its function of the five input blocks; the invariant the scoped rest — the scratch among it — and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The invariant with the scratch named -/

/-- The scratch the kernel keeps beside its windows: a whole scoped buffer. -/
abbrev scM1 : Memref sig .tc .vmem S256x256 .f32 := Memref.whole cc1_scratch0

/-- The region's invariant spelt out: the other kernel's staging buffers, each whole at some contents, the scratch owned
    whole at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks and the scratch comes out of the invariant, so the
    triple applies; afterwards the scratch goes back into the invariant; what the core owes passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, PhiA1_eq]
  iintro ⟨⟨⟨Hb0, Hb1, Hb2, Hb3, Hb4, Hb5, Hb6, Hb7, Hb8, Hb9, Hb10, Hb11, Hs⟩, Hp⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]; · iexact Hs
  iintro ⟨H0, H1, H2, H3, H4, H5, Hs⟩
  isplitl [Hb0 Hb1 Hb2 Hb3 Hb4 Hb5 Hb6 Hb7 Hb8 Hb9 Hb10 Hb11 Hs Hp]
  · isplitr [Hp]
    swap; · iexact Hp
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    iexact Hs
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The whole run of the program: twenty host operations, the projection kernel over its 32 grid points, three host
  operations, the attention kernel over its 64 grid points.

  The contents of every unscoped buffer at each boundary are a fold from the launch memory: a stretch of host
  operations applies them; a kernel region leaves its arrays at what its write-backs leave and every other buffer as it
  was.  No host operation and no write-back touches an argument array, so each ends as launched; the result array ends
  at what the attention kernel's write-backs leave in it.  Every weakly fair execution terminates with exactly these
  contents.
-/
import proofs.«153646_j81466939670561_2_alg».proof.Proof.KB.Body0
import proofs.«153646_j81466939670561_2_alg».proof.Proof.KB.Body1
import proofs.«153646_j81466939670561_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations: what the projection kernel is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the attention kernel is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention kernel. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched, and the result is the last region's array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- The result array ends at what the attention kernel's write-backs leave in it. -/
theorem W4_main_v24 (c : Dev nD) : W4 m ρ c (Proc.devRef .tc main_v24) = (dat1 (V3 m ρ) c).arrAt 5 cfg1.N :=
  W4_arr m ρ c 5

/-! ## The proof data family and the thread state -/

abbrev adm : (p : Fin 2) → (pcfgs (F := F) p).Adm := fun p => (cfgs p).toPCfg_adm
/-- Each kernel's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with them at the
    contents after it. Its arrays are split out of the unscoped buffers and put back at what the write-backs leave; the
    generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers and put back at what the write-backs leave; the
    generator register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The run with the result named: the result array at the attention kernel's last write-backs, the arguments as launched. -/
theorem run_value : θ_run defs (onTc (τ := τ) (main (F := F))) ⟨m, fun _ => 0, ρ⟩ (fun r => ∀ c : Dev nD,
      r.2.mem ((c.tc : Thread nD τ).loc main_v24) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v24 (by decide))).trans (W4_main_v24 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Hand

end
-- ==== Proof.KI.Body0.lean ====
/-
  The projection kernel, one grid point at a time.

  At a point the body reads its three input blocks whole — a [2048, 256] slab of tokens, one head's [256, 192] weight
  block and its [1, 192] bias row —, forms their product plus the bias, and stores the three 64-column thirds of the
  result into the three output blocks, each store covering its block.  So after the body each output buffer holds one
  pure function of the three input blocks, whatever it held before, and the inputs are left as found.  The proof data
  of the launch say exactly that at every grid point, for any contents of the arrays when the region is entered.
-/
import proofs.«153646_j81466939670561_2_alg».proof.Proof.Gen.KernelIdeal.Launch
import proofs.«153646_j81466939670561_2_alg».proof.Proof.Gen.KernelIdeal.Skeleton
import proofs.«153646_j81466939670561_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not: between
    two fetches the block index does not move and the body leaves the buffer as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes its buffer whole -/

abbrev rx0 : Rect S1x2048x256 := Rect.unit (s := S1x2048x256) ![0, 0, 0] S1x2048x256.size inb_S1x2048x256_S1x2048x256_0_0_0
abbrev rw0 : Rect S1x256x192 := Rect.unit (s := S1x256x192) ![0, 0, 0] S1x256x192.size inb_S1x256x192_S1x256x192_0_0_0
abbrev rb0 : Rect S1x1x192 := Rect.unit (s := S1x1x192) ![0, 0, 0] S1x1x192.size inb_S1x1x192_S1x1x192_0_0_0
abbrev ro0 : Rect S1x1x2048x64 := Rect.unit (s := S1x1x2048x64) ![0, 0, 0, 0] S1x1x2048x64.size inb_S1x1x2048x64_S1x1x2048x64_0_0_0_0

/-! ## What the body leaves in each output buffer -/

/-- The query block: the first 64 columns of the projected slab. -/
def out0_3 (x0 : Vec F S1x2048x256 .f32) (x1 : Vec F S1x256x192 .bf16) (x2 : Vec F S1x1x192 .f32) : Vec F S1x1x2048x64 .bf16 :=
  View.canon [⟨ro0, k0_pay2 (View.ld x0 rx0) (View.ld x1 rw0) (View.ld x2 rb0)⟩]
/-- The key block: the middle 64 columns. -/
def out0_4 (x0 : Vec F S1x2048x256 .f32) (x1 : Vec F S1x256x192 .bf16) (x2 : Vec F S1x1x192 .f32) : Vec F S1x1x2048x64 .bf16 :=
  View.canon [⟨ro0, k0_pay3 (View.ld x0 rx0) (View.ld x1 rw0) (View.ld x2 rb0)⟩]
/-- The value block: the last 64 columns. -/
def out0_5 (x0 : Vec F S1x2048x256 .f32) (x1 : Vec F S1x256x192 .bf16) (x2 : Vec F S1x1x192 .f32) : Vec F S1x1x2048x64 .bf16 :=
  View.canon [⟨ro0, k0_pay4 (View.ld x0 rx0) (View.ld x1 rw0) (View.ld x2 rb0)⟩]

/-- One whole-buffer store covers the buffer. -/
theorem cover0_o (p0 : Vec F S1x1x2048x64 .bf16) (y : S1x1x2048x64.Idx) :
    ∃ pc ∈ ([⟨ro0, p0⟩] : List (View.Piece (Elt F) S1x1x2048x64 .bf16)), y ∈ pc.1.set :=
  View.cover_of_tiled [⟨ro0, p0⟩] S1x1x2048x64.size (by rfl) y

/-! ## The body's triple -/

set_option maxHeartbeats 4000000 in
/-- On whole buffers, the inputs' at contents `x0 x1 x2` and the outputs' at anything, the body runs to its end
    leaving the inputs as they were and each output at its function of the inputs. -/
theorem sound_kernel0 (c : Dev nD) (E : Set ℕ) (i : grid0.Coords)
    (arg2 : Memref sig .tc .vmem S1x2048x256 .f32) (harg2 : arg2.IsWhole) (arg3 : Memref sig .tc .vmem S1x256x192 .bf16) (harg3 : arg3.IsWhole)
    (arg4 : Memref sig .tc .vmem S1x1x192 .f32) (harg4 : arg4.IsWhole) (arg5 : Memref sig .tc .vmem S1x1x2048x64 .bf16) (harg5 : arg5.IsWhole)
    (arg6 : Memref sig .tc .vmem S1x1x2048x64 .bf16) (harg6 : arg6.IsWhole) (arg7 : Memref sig .tc .vmem S1x1x2048x64 .bf16) (harg7 : arg7.IsWhole)
    (x0 : Vec F S1x2048x256 .f32) (x1 : Vec F S1x256x192 .bf16) (x2 : Vec F S1x1x192 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__qkv_heads_kernel i arg2 harg2 arg3 harg3 arg4 harg4 arg5 harg5 arg6 harg6 arg7 harg7) K := by
  simp only [cc0__qkv_heads_kernel_eq_skeleton]; unfold cc0__qkv_heads_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The proof data -/

/-- The arrays as the region finds them; after the body at point `t` each input buffer at its block and each output
    buffer at its function of the three input blocks; the invariant the scoped rest and the generator register, which
    the body does not touch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The attention kernel, one grid point at a time.

  At a point the body holds a [4, 256, 64] block of queries (the four heads of one tile of 256 positions), the whole
  [4, 2048, 64] keys and values of the batch, the output-projection weight and its bias row.  Head by head it forms
  the tile's attention output, a [256, 64] table, and stores it into columns 64h … 64h+63 of a [256, 256] scratch
  buffer; the four stores tile the scratch, so the whole-buffer load that follows reads one function of the input
  blocks, whatever the scratch held before.  That table times the weight, plus the bias, is stored over the whole
  output block.  So after the body the output buffer holds one pure function of the five input blocks, the inputs are
  left as found, and the scratch — which the body reads before it writes — is handed back at some contents.
-/
import proofs.«153646_j81466939670561_2_alg».proof.Proof.Gen.KernelIdeal.Launch
import proofs.«153646_j81466939670561_2_alg».proof.Proof.Gen.KernelIdeal.Skeleton
import proofs.«153646_j81466939670561_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- head h's [256, 64] table inside the query block, and its [2048, 64] table inside the key and value blocks
abbrev rq0 : Rect S1x4x256x64 := Rect.unit (s := S1x4x256x64) ![0, 0, 0, 0] S1x1x256x64.size inb_S1x4x256x64_S1x1x256x64_0_0_0_0
abbrev rk0 : Rect S1x4x2048x64 := Rect.unit (s := S1x4x2048x64) ![0, 0, 0, 0] S1x1x2048x64.size inb_S1x4x2048x64_S1x1x2048x64_0_0_0_0
abbrev rs0 : Rect S256x256 := Rect.unit (s := S256x256) ![0, 0] S256x64.size inb_S256x256_S256x64_0_0
abbrev rq1 : Rect S1x4x256x64 := Rect.unit (s := S1x4x256x64) ![0, 1, 0, 0] S1x1x256x64.size inb_S1x4x256x64_S1x1x256x64_0_1_0_0
abbrev rk1 : Rect S1x4x2048x64 := Rect.unit (s := S1x4x2048x64) ![0, 1, 0, 0] S1x1x2048x64.size inb_S1x4x2048x64_S1x1x2048x64_0_1_0_0
abbrev rs1 : Rect S256x256 := Rect.unit (s := S256x256) ![0, 64] S256x64.size inb_S256x256_S256x64_0_64
abbrev rq2 : Rect S1x4x256x64 := Rect.unit (s := S1x4x256x64) ![0, 2, 0, 0] S1x1x256x64.size inb_S1x4x256x64_S1x1x256x64_0_2_0_0
abbrev rk2 : Rect S1x4x2048x64 := Rect.unit (s := S1x4x2048x64) ![0, 2, 0, 0] S1x1x2048x64.size inb_S1x4x2048x64_S1x1x2048x64_0_2_0_0
abbrev rs2 : Rect S256x256 := Rect.unit (s := S256x256) ![0, 128] S256x64.size inb_S256x256_S256x64_0_128
abbrev rq3 : Rect S1x4x256x64 := Rect.unit (s := S1x4x256x64) ![0, 3, 0, 0] S1x1x256x64.size inb_S1x4x256x64_S1x1x256x64_0_3_0_0
abbrev rk3 : Rect S1x4x2048x64 := Rect.unit (s := S1x4x2048x64) ![0, 3, 0, 0] S1x1x2048x64.size inb_S1x4x2048x64_S1x1x2048x64_0_3_0_0
abbrev rs3 : Rect S256x256 := Rect.unit (s := S256x256) ![0, 192] S256x64.size inb_S256x256_S256x64_0_192
-- whole buffers: the [256, 256] scratch and weight, the [1, 256] bias row, the [1, 256, 256] output block
abbrev rsw : Rect S256x256 := Rect.unit (s := S256x256) ![0, 0] S256x256.size inb_S256x256_S256x256_0_0
abbrev rbb : Rect S1x256 := Rect.unit (s := S1x256) ![0, 0] S1x256.size inb_S1x256_S1x256_0_0
abbrev roo : Rect S1x256x256 := Rect.unit (s := S1x256x256) ![0, 0, 0] S1x256x256.size inb_S1x256x256_S1x256x256_0_0_0

/-! ## What the body leaves -/

/-- The four heads' stores into the scratch, last first: head h's attention output into columns 64h … 64h+63. -/
def accPieces (x0 : Vec F S1x4x256x64 .bf16) (x1 x2 : Vec F S1x4x2048x64 .bf16) : List (View.Piece (Elt F) S256x256 .f32) :=
  [⟨rs3, k1_pay10 (View.ld x0 rq3) (View.ld x1 rk3) (View.ld x2 rk3)⟩,
   ⟨rs2, k1_pay9 (k1_pay6 (View.ld x2 rk2)) (k1_pay7 (View.ld x0 rq2) (View.ld x1 rk2)) (k1_pay8 (View.ld x0 rq2) (View.ld x1 rk2))⟩,
   ⟨rs1, k1_pay5 (k1_pay3 (View.ld x0 rq1)) (k1_pay4 (View.ld x1 rk1)) (View.ld x2 rk1)⟩,
   ⟨rs0, k1_pay2 (View.ld x0 rq0) (View.ld x1 rk0) (View.ld x2 rk0)⟩]

/-- The scratch as the whole-buffer load finds it: the heads' tables side by side. -/
def acc1 (x0 : Vec F S1x4x256x64 .bf16) (x1 x2 : Vec F S1x4x2048x64 .bf16) : Vec F S256x256 .f32 :=
  View.ld (View.canon (accPieces x0 x1 x2)) rsw

/-- The output block: the merged heads times the weight, plus the bias. -/
def out1_5 (x0 : Vec F S1x4x256x64 .bf16) (x1 x2 : Vec F S1x4x2048x64 .bf16) (x3 : Vec F S256x256 .bf16) (x4 : Vec F S1x256 .f32) : Vec F S1x256x256 .f32 :=
  View.canon [⟨roo, k1_pay1 (k1_pay11 (acc1 x0 x1 x2)) (View.ld x3 rsw) (View.ld x4 rbb)⟩]

/-- The four column stores tile the scratch. -/
theorem cover1_s (p0 p1 p2 p3 : Vec F S256x64 .f32) (y : S256x256.Idx) :
    ∃ pc ∈ ([⟨rs3, p3⟩, ⟨rs2, p2⟩, ⟨rs1, p1⟩, ⟨rs0, p0⟩] : List (View.Piece (Elt F) S256x256 .f32)), y ∈ pc.1.set :=
  View.cover_of_tiled [⟨rs3, p3⟩, ⟨rs2, p2⟩, ⟨rs1, p1⟩, ⟨rs0, p0⟩] S256x64.size (by rfl) y
/-- One whole-buffer store covers the output block. -/
theorem cover1_o (p0 : Vec F S1x256x256 .f32) (y : S1x256x256.Idx) :
    ∃ pc ∈ ([⟨roo, p0⟩] : List (View.Piece (Elt F) S1x256x256 .f32)), y ∈ pc.1.set :=
  View.cover_of_tiled [⟨roo, p0⟩] S1x256x256.size (by rfl) y

/-! ## The body's triple -/

set_option maxHeartbeats 8000000 in
/-- On whole buffers, the five inputs' at contents `x0 … x4`, the output's and the scratch's at anything, the body runs
    to its end leaving the inputs as they were, the output at its function of the inputs, the scratch at something. -/
theorem sound_kernel1 (c : Dev nD) (E : Set ℕ) (i : grid1.Coords)
    (arg2 : Memref sig .tc .vmem S1x4x256x64 .bf16) (harg2 : arg2.IsWhole) (arg3 : Memref sig .tc .vmem S1x4x2048x64 .bf16) (harg3 : arg3.IsWhole)
    (arg4 : Memref sig .tc .vmem S1x4x2048x64 .bf16) (harg4 : arg4.IsWhole) (arg5 : Memref sig .tc .vmem S256x256 .bf16) (harg5 : arg5.IsWhole)
    (arg6 : Memref sig .tc .vmem S1x256 .f32) (harg6 : arg6.IsWhole) (arg7 : Memref sig .tc .vmem S1x256x256 .f32) (harg7 : arg7.IsWhole)
    (arg8 : Memref sig .tc .vmem S256x256 .f32) (harg8 : arg8.IsWhole)
    (x0 : Vec F S1x4x256x64 .bf16) (x1 x2 : Vec F S1x4x2048x64 .bf16) (x3 : Vec F S256x256 .bf16) (x4 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4) ∗ (∃ d, owns (c : Thread nD τ) arg8 fullShare d)) -∗ K ⟨⟩))
      ⊢ wp frame (wpE (defs₀ (F := F)) Variants.none c none) E (cc1__attn_proj_kernel i arg2 harg2 arg3 harg3 arg4 harg4 arg5 harg5 arg6 harg6 arg7 harg7 arg8 harg8) K := by
  simp only [cc1__attn_proj_kernel_eq_skeleton]; unfold cc1__attn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_o _)).trans ?_
    unfold out1_5 acc1 accPieces
    sl_unfold_run_names
    rw [View.readCov_eq_canon_ld _ _ _ (cover1_s _ _ _ _)]
    rfl
  iexists _; iexists _; isplitr
  swap; · iexact H8
  ipureintro; rfl

/-! ## The proof data -/

/-- The arrays as the region finds them; after the body at point `t` each input buffer at its block and the output
    buffer at its function of the five input blocks; the invariant the scoped rest — the scratch among it — and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The invariant with the scratch named -/

/-- The scratch the kernel keeps beside its windows: a whole scoped buffer. -/
abbrev scM1 : Memref sig .tc .vmem S256x256 .f32 := Memref.whole cc1_scratch0

/-- The region's invariant spelt out: the other kernel's staging buffers, each whole at some contents, the scratch owned
    whole at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks and the scratch comes out of the invariant, so the
    triple applies; afterwards the scratch goes back into the invariant; what the core owes passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, PhiA1_eq]
  iintro ⟨⟨⟨Hb0, Hb1, Hb2, Hb3, Hb4, Hb5, Hb6, Hb7, Hb8, Hb9, Hb10, Hb11, Hs⟩, Hp⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]; · iexact Hs
  iintro ⟨H0, H1, H2, H3, H4, H5, Hs⟩
  isplitl [Hb0 Hb1 Hb2 Hb3 Hb4 Hb5 Hb6 Hb7 Hb8 Hb9 Hb10 Hb11 Hs Hp]
  · isplitr [Hp]
    swap; · iexact Hp
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    iexact Hs
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the program: twenty host operations, the projection kernel over its 32 grid points, three host
  operations, the attention kernel over its 64 grid points.

  The contents of every unscoped buffer at each boundary are a fold from the launch memory: a stretch of host
  operations applies them; a kernel region leaves its arrays at what its write-backs leave and every other buffer as it
  was.  No host operation and no write-back touches an argument array, so each ends as launched; the result array ends
  at what the attention kernel's write-backs leave in it.  Every weakly fair execution terminates with exactly these
  contents.
-/
import proofs.«153646_j81466939670561_2_alg».proof.Proof.KI.Body0
import proofs.«153646_j81466939670561_2_alg».proof.Proof.KI.Body1
import proofs.«153646_j81466939670561_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations: what the projection kernel is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the attention kernel is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention kernel. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched, and the result is the last region's array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- The result array ends at what the attention kernel's write-backs leave in it. -/
theorem W4_main_v24 (c : Dev nD) : W4 m ρ c (Proc.devRef .tc main_v24) = (dat1 (V3 m ρ) c).arrAt 5 cfg1.N :=
  W4_arr m ρ c 5

/-! ## The proof data family and the thread state -/

abbrev adm : (p : Fin 2) → (pcfgs (F := F) p).Adm := fun p => (cfgs p).toPCfg_adm
/-- Each kernel's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with them at the
    contents after it. Its arrays are split out of the unscoped buffers and put back at what the write-backs leave; the
    generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers and put back at what the write-backs leave; the
    generator register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The run with the result named: the result array at the attention kernel's last write-backs, the arguments as launched. -/
theorem run_value : θ_run defs (onTc (τ := τ) (main (F := F))) ⟨m, fun _ => 0, ρ⟩ (fun r => ∀ c : Dev nD,
      r.2.mem ((c.tc : Thread nD τ).loc main_v24) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v24 (by decide))).trans (W4_main_v24 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.Spec.lean ====
/-
  The mathematics both programs compute, stated once over the extended reals with explicit coordinates.

  Multi-head self-attention with a fused input projection and an output projection:
  * the fused projection sends a token row x[b, n, :] to 768 channels, channel o = s·256 + h·64 + d being
    component d of head h of the query (s = 0), key (s = 1) or value (s = 2):
      proj b n o = (∑_c x[b, n, c] · W[o, c]) + bq[o];
  * for one head and one query row, with keys k and values v over the 2048 positions,
      score m = (∑_d q[d] · k[m, d]) · 1/8,   mx = max_m score m (taken from −∞),
      e m = exp (score m − mx),   z = ∑_m e m,   attnRow d = ∑_m (e m / z) · v[m, d];
  * the heads' rows are laid side by side, lane c = h·64 + d, and the output projection is
      out b n o = (∑_c ctx[b, n, c] · Wp[o, c]) + bp[o].
  Every sum ranges over a literal `Fin`; the constants 1/8, −∞ and 0 stay as their binary words.
-/
import Idealize.ShloMosaic.PureOps.Ideal
import Idealize.ShloMosaic.Lib.ValueIdx

noncomputable section

namespace Cert.AttnSpec

open Idealize.ShloMosaic Idealize.ShloMosaic.ValueIdx

/-- Channel of the fused projection: part `s` (query, key, value), head `h`, component `d`. -/
def chan (s : Fin 3) (h : Fin 4) (d : Fin 64) : Fin 768 := ⟨s.val * 256 + h.val * 64 + d.val, by omega⟩

/-- Lane of the merged heads: head `h`, component `d`. -/
def lane (h : Fin 4) (d : Fin 64) : Fin 256 := ⟨h.val * 64 + d.val, by omega⟩

/-- The head of a lane and the component inside it. -/
def laneHead (c : Fin 256) : Fin 4 := ⟨c.val / 64, by omega⟩
def laneComp (c : Fin 256) : Fin 64 := ⟨c.val % 64, Nat.mod_lt _ (by decide)⟩

/-- A row times a column: the sum of the products. -/
def dotRow {K : Nat} (a b : Fin K → EReal) : EReal := ∑ c : Fin K, a c * b c

/-- The softmax scale 1/8 and the maximum's starting value −∞, as the programs spell them. -/
def scale : EReal := Ideal.ofBits .f32 0x3E000000#32
def negInf : EReal := Ideal.ofBits .f32 0xFF800000#32

/-- The scaled score of one query row against key position `m`. -/
def scoreRow (q : Fin 64 → EReal) (k : Fin 2048 → Fin 64 → EReal) (m : Fin 2048) : EReal :=
  dotRow q (k m) * scale

/-- The row's maximum score, folded from −∞. -/
def rowMax (q : Fin 64 → EReal) (k : Fin 2048 → Fin 64 → EReal) : EReal :=
  (Finset.univ : Finset (Fin 2048)).fold max negInf (scoreRow q k)

/-- The shifted exponentials and their sum. -/
def expRow (q : Fin 64 → EReal) (k : Fin 2048 → Fin 64 → EReal) (m : Fin 2048) : EReal :=
  Ideal.exp (scoreRow q k m - rowMax q k)
def expSum (q : Fin 64 → EReal) (k : Fin 2048 → Fin 64 → EReal) : EReal := ∑ m : Fin 2048, expRow q k m

/-- One head's attention output for one query row: the softmax weights times the values. -/
def attnRow (q : Fin 64 → EReal) (k v : Fin 2048 → Fin 64 → EReal) (d : Fin 64) : EReal :=
  ∑ m : Fin 2048, Ideal.div (expRow q k m) (expSum q k) * v m d

section Whole

variable (x : (⟨3, ![8, 2048, 256]⟩ : Shape).Idx → EReal) (W : (⟨2, ![768, 256]⟩ : Shape).Idx → EReal)
  (bq : (⟨1, ![768]⟩ : Shape).Idx → EReal) (Wp : (⟨2, ![256, 256]⟩ : Shape).Idx → EReal)
  (bp : (⟨1, ![256]⟩ : Shape).Idx → EReal)

/-- The fused projection of token `n` of batch `b` at channel `o`. -/
def proj (b : Fin 8) (n : Fin 2048) (o : Fin 768) : EReal :=
  dotRow (fun c : Fin 256 => x (ix3 b n c)) (fun c => W (ix2 o c)) + bq (ix1 o)

/-- Part `s` of head `h` as a positions × components table. -/
def part (s : Fin 3) (b : Fin 8) (h : Fin 4) (n : Fin 2048) (d : Fin 64) : EReal := proj x W bq b n (chan s h d)

/-- The attention output of head `h` for token `n`. -/
def ctx (b : Fin 8) (n : Fin 2048) (h : Fin 4) (d : Fin 64) : EReal :=
  attnRow (part x W bq 0 b h n) (part x W bq 1 b h) (part x W bq 2 b h) d

/-- The heads merged along the lanes. -/
def ctxRow (b : Fin 8) (n : Fin 2048) (c : Fin 256) : EReal := ctx x W bq b n (laneHead c) (laneComp c)

/-- The output projection. -/
def out (b : Fin 8) (n : Fin 2048) (o : Fin 256) : EReal :=
  dotRow (ctxRow x W bq b n) (fun c => Wp (ix2 o c)) + bp (ix1 o)

/-- The whole result, index by index. -/
def G : (⟨3, ![8, 2048, 256]⟩ : Shape).Idx → EReal := fun i => out x W bq Wp bp (i 0) (i 1) (i 2)

theorem G_ix3 (b : Fin 8) (n : Fin 2048) (o : Fin 256) : G x W bq Wp bp (ix3 b n o) = out x W bq Wp bp b n o := rfl

end Whole

end Cert.AttnSpec

end
-- ==== Proof.PayLib.lean ====
import proofs.«153646_j81466939670561_2_alg».proof.Proof.Gen.KernelIdeal.Skeleton
import proofs.«153646_j81466939670561_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.AttnPay

open Idealize.ShloMosaic Idealize.ShloMosaic.ValueIdx Cert.KernelIdeal Cert.KernelIdeal.Gen Cert.AttnSpec

/-! ## The four products read at an index -/

theorem dotProj_apply_l0 (i : S2048x192.Idx) (q : dot_S2048x256_S256x192_S2048x192_1_0_0_1_n_n.contr.Idx) : (dot_S2048x256_S256x192_S2048x192_1_0_0_1_n_n.lhsIdx i q 0).val = (i 0).val := by
  unfold DotDims.lhsIdx
  rw [dif_neg (show ¬(0 : Fin S2048x256.rank) ∈ dot_S2048x256_S256x192_S2048x192_1_0_0_1_n_n.lhsBatch by decide), dif_pos (show (0 : Fin S2048x256.rank) ∈ dot_S2048x256_S256x192_S2048x192_1_0_0_1_n_n.lhsNonContracting by decide)]
  rfl
theorem dotProj_apply_r1 (i : S2048x192.Idx) (q : dot_S2048x256_S256x192_S2048x192_1_0_0_1_n_n.contr.Idx) : (dot_S2048x256_S256x192_S2048x192_1_0_0_1_n_n.rhsIdx i q 1).val = (i 1).val := by
  unfold DotDims.rhsIdx
  rw [dif_neg (show ¬(1 : Fin S256x192.rank) ∈ dot_S2048x256_S256x192_S2048x192_1_0_0_1_n_n.rhsBatch by decide), dif_pos (show (1 : Fin S256x192.rank) ∈ dot_S2048x256_S256x192_S2048x192_1_0_0_1_n_n.rhsNonContracting by decide)]
  rfl

/-- The product `[2048, 256]` by `[256, 192]` into the zero splat, read at `(m, n)`: the sum over the 256 contraction
    coordinates of the operands' products. -/
theorem dotProj_apply {φ₁ φ₂ : FTy} (lhs : FVec Ideal S2048x256 φ₁) (rhs : FVec Ideal S256x192 φ₂) (m : Fin 2048) (n : Fin 192) :
    matmul dot_S2048x256_S256x192_S2048x192_1_0_0_1_n_n none lhs rhs (constant (F := Ideal) _ .f32 0x00000000#32) (ix2 m n)
      = ∑ k : Fin 256, lhs (ix2 m k) * rhs (ix2 k n) := by
  refine (Ideal.matmul_constant_zero_apply dot_S2048x256_S256x192_S2048x192_1_0_0_1_n_n none lhs rhs (ix2 m n)).trans ?_
  rw [← Equiv.sum_comp (contrEquiv1 dot_S2048x256_S256x192_S2048x192_1_0_0_1_n_n 256 rfl rfl).symm]
  refine Finset.sum_congr rfl fun k _ => ?_
  have hk := contrEquiv1_symm_val dot_S2048x256_S256x192_S2048x192_1_0_0_1_n_n 256 rfl rfl k
  have el : dot_S2048x256_S256x192_S2048x192_1_0_0_1_n_n.lhsIdx (ix2 m n) ((contrEquiv1 dot_S2048x256_S256x192_S2048x192_1_0_0_1_n_n 256 rfl rfl).symm k) = ix2 m k := funext fun a => Fin.ext (by
    match a with
    | ⟨0, _⟩ => exact dotProj_apply_l0 _ _
    | ⟨1, _⟩ => exact (dot_S2048x256_S256x192_S2048x192_1_0_0_1_n_n.lhsIdx_val_of_single (cl := 1) rfl _ _).trans hk)
  have er : dot_S2048x256_S256x192_S2048x192_1_0_0_1_n_n.rhsIdx (ix2 m n) ((contrEquiv1 dot_S2048x256_S256x192_S2048x192_1_0_0_1_n_n 256 rfl rfl).symm k) = ix2 k n := funext fun a => Fin.ext (by
    match a with
    | ⟨1, _⟩ => exact dotProj_apply_r1 _ _
    | ⟨0, _⟩ => exact (dot_S2048x256_S256x192_S2048x192_1_0_0_1_n_n.rhsIdx_val_of_single (cr := 0) rfl _ _).trans hk)
  rw [el, er]

theorem dotQK_apply_l0 (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem dotQK_apply_r0 (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl

/-- The product `[256, 64]` by `[2048, 64]` into the zero splat, read at `(m, n)`: the sum over the 64 contraction
    coordinates of the operands' products. -/
theorem dotQK_apply {φ₁ φ₂ : FTy} (lhs : FVec Ideal S256x64 φ₁) (rhs : FVec Ideal S2048x64 φ₂) (m : Fin 256) (n : Fin 2048) :
    matmul dot_S256x64_S2048x64_S256x2048_1_1_0_0_n_n none lhs rhs (constant (F := Ideal) _ .f32 0x00000000#32) (ix2 m n)
      = ∑ k : Fin 64, lhs (ix2 m k) * rhs (ix2 n k) := by
  refine (Ideal.matmul_constant_zero_apply dot_S256x64_S2048x64_S256x2048_1_1_0_0_n_n none lhs rhs (ix2 m n)).trans ?_
  rw [← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 m n) ((contrEquiv1 dot_S256x64_S2048x64_S256x2048_1_1_0_0_n_n 64 rfl rfl).symm k) = ix2 m k := funext fun a => Fin.ext (by
    match a with
    | ⟨0, _⟩ => exact dotQK_apply_l0 _ _
    | ⟨1, _⟩ => exact (dot_S256x64_S2048x64_S256x2048_1_1_0_0_n_n.lhsIdx_val_of_single (cl := 1) rfl _ _).trans hk)
  have er : dot_S256x64_S2048x64_S256x2048_1_1_0_0_n_n.rhsIdx (ix2 m n) ((contrEquiv1 dot_S256x64_S2048x64_S256x2048_1_1_0_0_n_n 64 rfl rfl).symm k) = ix2 n k := funext fun a => Fin.ext (by
    match a with
    | ⟨0, _⟩ => exact dotQK_apply_r0 _ _
    | ⟨1, _⟩ => exact (dot_S256x64_S2048x64_S256x2048_1_1_0_0_n_n.rhsIdx_val_of_single (cr := 1) rfl _ _).trans hk)
  rw [el, er]

theorem dotPV_apply_l0 (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem dotPV_apply_r1 (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The product `[256, 2048]` by `[2048, 64]` into the zero splat, read at `(m, n)`: the sum over the 2048 contraction
    coordinates of the operands' products. -/
theorem dotPV_apply {φ₁ φ₂ : FTy} (lhs : FVec Ideal S256x2048 φ₁) (rhs : FVec Ideal S2048x64 φ₂) (m : Fin 256) (n : Fin 64) :
    matmul dot_S256x2048_S2048x64_S256x64_1_0_0_1_n_n none lhs rhs (constant (F := Ideal) _ .f32 0x00000000#32) (ix2 m n)
      = ∑ k : Fin 2048, lhs (ix2 m k) * rhs (ix2 k n) := by
  refine (Ideal.matmul_constant_zero_apply dot_S256x2048_S2048x64_S256x64_1_0_0_1_n_n none lhs rhs (ix2 m n)).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 m n) ((contrEquiv1 dot_S256x2048_S2048x64_S256x64_1_0_0_1_n_n 2048 rfl rfl).symm k) = ix2 m k := funext fun a => Fin.ext (by
    match a with
    | ⟨0, _⟩ => exact dotPV_apply_l0 _ _
    | ⟨1, _⟩ => exact (dot_S256x2048_S2048x64_S256x64_1_0_0_1_n_n.lhsIdx_val_of_single (cl := 1) rfl _ _).trans hk)
  have er : dot_S256x2048_S2048x64_S256x64_1_0_0_1_n_n.rhsIdx (ix2 m n) ((contrEquiv1 dot_S256x2048_S2048x64_S256x64_1_0_0_1_n_n 2048 rfl rfl).symm k) = ix2 k n := funext fun a => Fin.ext (by
    match a with
    | ⟨1, _⟩ => exact dotPV_apply_r1 _ _
    | ⟨0, _⟩ => exact (dot_S256x2048_S2048x64_S256x64_1_0_0_1_n_n.rhsIdx_val_of_single (cr := 0) rfl _ _).trans hk)
  rw [el, er]

theorem dotOut_apply_l0 (i : S256x256.Idx) (q : dot_S256x256_S256x256_S256x256_1_0_0_1_n_n.contr.Idx) : (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem dotOut_apply_r1 (i : S256x256.Idx) (q : dot_S256x256_S256x256_S256x256_1_0_0_1_n_n.contr.Idx) : (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The product `[256, 256]` by `[256, 256]` into the zero splat, read at `(m, n)`: the sum over the 256 contraction
    coordinates of the operands' products. -/
theorem dotOut_apply {φ₁ φ₂ : FTy} (lhs : FVec Ideal S256x256 φ₁) (rhs : FVec Ideal S256x256 φ₂) (m : Fin 256) (n : Fin 256) :
    matmul dot_S256x256_S256x256_S256x256_1_0_0_1_n_n none lhs rhs (constant (F := Ideal) _ .f32 0x00000000#32) (ix2 m n)
      = ∑ k : Fin 256, lhs (ix2 m k) * rhs (ix2 k n) := by
  refine (Ideal.matmul_constant_zero_apply dot_S256x256_S256x256_S256x256_1_0_0_1_n_n none lhs rhs (ix2 m n)).trans ?_
  rw [← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 m n) ((contrEquiv1 dot_S256x256_S256x256_S256x256_1_0_0_1_n_n 256 rfl rfl).symm k) = ix2 m k := funext fun a => Fin.ext (by
    match a with
    | ⟨0, _⟩ => exact dotOut_apply_l0 _ _
    | ⟨1, _⟩ => exact (dot_S256x256_S256x256_S256x256_1_0_0_1_n_n.lhsIdx_val_of_single (cl := 1) rfl _ _).trans hk)
  have er : dot_S256x256_S256x256_S256x256_1_0_0_1_n_n.rhsIdx (ix2 m n) ((contrEquiv1 dot_S256x256_S256x256_S256x256_1_0_0_1_n_n 256 rfl rfl).symm k) = ix2 k n := funext fun a => Fin.ext (by
    match a with
    | ⟨1, _⟩ => exact dotOut_apply_r1 _ _
    | ⟨0, _⟩ => exact (dot_S256x256_S256x256_S256x256_1_0_0_1_n_n.rhsIdx_val_of_single (cr := 0) rfl _ _).trans hk)
  rw [el, er]

/-! ## Shape casts and broadcasts the library does not have, read at an index -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions read at a row -/

/-- The index a lane reduction reads: row `r`, lane `m`. -/
theorem lift_row (h : S256x2048.Reduces [1] S256) (r : Fin 256) (m : Fin 2048) : h.lift (ix1 r) m = ix2 r m := by
  funext a
  match a with
  | ⟨0, _⟩ => rfl
  | ⟨1, _⟩ => rfl

/-- A lane sum from zero, at row `r`: the sum over the 2048 lanes. -/
theorem rowSum_apply (src : FVec Ideal S256x2048 .f32) (h : S256x2048.Reduces [1] S256) (hφ : FKind.Formats .f32)
    (hacc : (0x00000000#32 : BitVec 32) = 0x00000000#32) (r : Fin 256) :
    multiReduction .add [1] S256 src 0x00000000#32 h hφ hacc (ix1 r) = ∑ m : Fin 2048, src (ix2 r m) := by
  refine (Ideal.multiReduction_add_single src 0x00000000#32 h hφ hacc (ix1 r)).trans ?_
  exact Finset.sum_congr rfl fun m _ => congrArg src (lift_row h r m)

/-- A lane maximum from `−∞`, at row `r`: the fold of `max` over the 2048 lanes. -/
theorem rowMax_apply (src : FVec Ideal S256x2048 .f32) (h : S256x2048.Reduces [1] S256) (hφ : FKind.Formats .f32)
    (hacc : (0xFF800000#32 : BitVec 32) = 0xFF800000#32) (r : Fin 256) :
    multiReduction .maximumf [1] S256 src 0xFF800000#32 h hφ hacc (ix1 r)
      = (Finset.univ : Finset (Fin 2048)).fold max negInf (fun m => src (ix2 r m)) := by
  refine (Ideal.multiReduction_maximumf_single src 0xFF800000#32 h hφ hacc (ix1 r)).trans ?_
  exact congrArg (fun f => (Finset.univ : Finset (Fin 2048)).fold max negInf f) (funext fun m => congrArg src (lift_row h r m))

end Cert.AttnPay

end
-- ==== Proof.PayQkv.lean ====
import proofs.«153646_j81466939670561_2_alg».proof.Proof.PayLib

noncomputable section

namespace Cert.AttnPay

open Idealize.ShloMosaic Idealize.ShloMosaic.ValueIdx Cert.KernelIdeal Cert.KernelIdeal.Gen Cert.AttnSpec

/-! ## The fused projection kernel's payloads read at an index -/

/-- The projection block at token row `n`, channel `j`: the row of the activations times column `j` of the weight
    block, plus the bias. -/
theorem pay_qkv (v0 : Vec Ideal S1x2048x256 .f32) (v3 : Vec Ideal S1x256x192 .bf16) (v6 : Vec Ideal S1x1x192 .f32)
    (n : Fin 2048) (j : Fin 192) :
    k0_pay1 (F := Ideal) v0 v3 v6 (ix2 n j)
      = dotRow (fun c : Fin 256 => v0 (ix3 (0 : Fin 1) n c)) (fun c => v3 (ix3 (0 : Fin 1) c j)) + v6 (ix3 (0 : Fin 1) (0 : Fin 1) j) := by
  unfold k0_pay1
  refine (truncf_apply (ψ := .bf16) _ bitsLt_bf16_f32 _).trans ?_
  refine (addf_apply _ _ _).trans ?_
  refine congrArg₂ (· + ·) ?_ ?_
  · refine (dotProj_apply _ _ n j).trans ?_
    refine Finset.sum_congr rfl fun c _ => congrArg₂ (· * ·) ?_ ?_
    · exact shapeCast_1ab_ab_apply v0 _ n c
    · exact shapeCast_1ab_ab_apply v3 _ c j
  · refine (broadcastTo_1b_ab_apply _ _ n j).trans ?_
    exact shapeCast_1ab_ab_apply v6 _ (0 : Fin 1) j

/-- The query block is columns 0–63 of the projection block. -/
theorem pay_q (v0 : Vec Ideal S1x2048x256 .f32) (v3 : Vec Ideal S1x256x192 .bf16) (v6 : Vec Ideal S1x1x192 .f32)
    (n : Fin 2048) (d : Fin 64) :
    k0_pay2 (F := Ideal) v0 v3 v6 (ix4 (0 : Fin 1) (0 : Fin 1) n d) = k0_pay1 (F := Ideal) v0 v3 v6 (ix2 n ⟨d.val, by omega⟩) := by
  unfold k0_pay2
  refine (shapeCast_ab_11ab_apply _ _ (0 : Fin 1) (0 : Fin 1) n d).trans ?_
  exact slice2_axis1_apply 0 _ _ n d ⟨d.val, by omega⟩ (Nat.zero_add _).symm

/-- The key block is columns 64–127 of the projection block. -/
theorem pay_k (v0 : Vec Ideal S1x2048x256 .f32) (v3 : Vec Ideal S1x256x192 .bf16) (v6 : Vec Ideal S1x1x192 .f32)
    (n : Fin 2048) (d : Fin 64) :
    k0_pay3 (F := Ideal) v0 v3 v6 (ix4 (0 : Fin 1) (0 : Fin 1) n d) = k0_pay1 (F := Ideal) v0 v3 v6 (ix2 n ⟨64 + d.val, by omega⟩) := by
  unfold k0_pay3
  refine (shapeCast_ab_11ab_apply _ _ (0 : Fin 1) (0 : Fin 1) n d).trans ?_
  exact slice2_axis1_apply 64 _ _ n d ⟨64 + d.val, by omega⟩ rfl

/-- The value block is columns 128–191 of the projection block. -/
theorem pay_v (v0 : Vec Ideal S1x2048x256 .f32) (v3 : Vec Ideal S1x256x192 .bf16) (v6 : Vec Ideal S1x1x192 .f32)
    (n : Fin 2048) (d : Fin 64) :
    k0_pay4 (F := Ideal) v0 v3 v6 (ix4 (0 : Fin 1) (0 : Fin 1) n d) = k0_pay1 (F := Ideal) v0 v3 v6 (ix2 n ⟨128 + d.val, by omega⟩) := by
  unfold k0_pay4
  refine (shapeCast_ab_11ab_apply _ _ (0 : Fin 1) (0 : Fin 1) n d).trans ?_
  exact slice2_axis1_apply 128 _ _ n d ⟨128 + d.val, by omega⟩ rfl

end Cert.AttnPay

end
-- ==== Proof.KV0.lean ====
/-
  The projection kernel's three result arrays after the run, as functions of the arrays the region finds.

  The grid has 8 × 4 points; point t works on batch t / 4 and head t % 4.  At a point the token block is batch
  b's [2048, 256] slab, the weight block is head h's [256, 192] block and the bias block its [1, 192] row; the
  body leaves, in each of the three output blocks, 64 columns of the slab's product with the weights plus the bias.
  The output blocks [1, 1, 2048, 64] at block index (b, h, 0, 0) tile the [8, 4, 2048, 64] arrays, so each array
  ends holding, at (b, h, n, d), the projected row n of batch b at column d, 64 + d or 128 + d of head h.
-/
import proofs.«153646_j81466939670561_2_alg».proof.Proof.KI.Body0
import proofs.«153646_j81466939670561_2_alg».proof.Proof.PayQkv
import Idealize.ShloMosaic.Lib.Pipeline.Value
import Idealize.ShloMosaic.Lib.ValueIdx

noncomputable section

namespace Cert.AttnKV

open Idealize.ShloMosaic Idealize.ShloMosaic.TcCoe Idealize.ShloMosaic.ValueIdx Cert.KernelIdeal Cert.KernelIdeal.Gen
  Cert.KernelIdeal.Hand Cert.AttnSpec
open Idealize.ShloMosaic.Pipeline (Dat)

-- the buffers' contents when the region is entered
variable (V : (c : Dev nD) → (b : Ref sig .tc) → Buf (Elt Ideal) ((c : Thread nD τ).loc b))

/-- Row n of batch b of the projected slab at column j of head h, from the region's entry contents. -/
def slab (c : Dev nD) (b : Fin 8) (h : Fin 4) (n : Fin 2048) (j : Fin 192) : EReal :=
  dotRow (fun cc : Fin 256 => (V c main_arg0 : S8x2048x256.Idx → EReal) (ix3 b n cc))
      (fun cc => (V c main_v11 : S4x256x192.Idx → EReal) (ix3 h cc j))
    + (V c main_v19 : S4x1x192.Idx → EReal) (ix3 h (0 : Fin 1) j)

theorem r0_hz3 : (![0, 0, 0] : Fin 3 → Nat) = fun _ => 0 := funext fun a => by fin_cases a <;> rfl
theorem r0_hz4 : (![0, 0, 0, 0] : Fin 4 → Nat) = fun _ => 0 := funext fun a => by fin_cases a <;> rfl

/-- The grid has 32 points. -/
theorem r0_lt32 (t : Fin cfg0.N) : t.val < 32 := lt_of_lt_of_eq t.isLt N_0

/-- The block indices at point t, decided over the grid: the token block moves with t / 4, the weight and bias blocks
    with t % 4, the output blocks with both. -/
theorem r0_idx_facts : ∀ t : Fin cfg0.N,
    (win0_0.index t (0 : Fin 3) = t.val / 4 ∧ win0_0.index t (1 : Fin 3) = 0 ∧ win0_0.index t (2 : Fin 3) = 0)
    ∧ (win0_1.index t (0 : Fin 3) = t.val % 4 ∧ win0_1.index t (1 : Fin 3) = 0 ∧ win0_1.index t (2 : Fin 3) = 0)
    ∧ (win0_2.index t (0 : Fin 3) = t.val % 4 ∧ win0_2.index t (1 : Fin 3) = 0 ∧ win0_2.index t (2 : Fin 3) = 0)
    ∧ (win0_3.index t (0 : Fin 4) = t.val / 4 ∧ win0_3.index t (1 : Fin 4) = t.val % 4 ∧ win0_3.index t (2 : Fin 4) = 0 ∧ win0_3.index t (3 : Fin 4) = 0)
    ∧ (win0_4.index t (0 : Fin 4) = t.val / 4 ∧ win0_4.index t (1 : Fin 4) = t.val % 4 ∧ win0_4.index t (2 : Fin 4) = 0 ∧ win0_4.index t (3 : Fin 4) = 0)
    ∧ (win0_5.index t (0 : Fin 4) = t.val / 4 ∧ win0_5.index t (1 : Fin 4) = t.val % 4 ∧ win0_5.index t (2 : Fin 4) = 0 ∧ win0_5.index t (3 : Fin 4) = 0) :=
  (by decide +kernel : ∀ t : Fin grid0.N, _)

/-! ## The input blocks at a point, read off the arrays -/

/-- The token block at the point of batch b is batch b's slab. -/
theorem r0_iblk_x (c : Dev nD) (t : Fin cfg0.N) (b : Fin 8) (h : Fin 4) (ht : t.val = b.val * 4 + h.val) (n : Fin 2048) (cc : Fin 256) :
    (iblk0 V c 0 t : Vec Ideal S1x2048x256 .f32) (ix3 (0 : Fin 1) n cc) = (V c main_arg0 : S8x2048x256.Idx → EReal) (ix3 b n cc) := by
  obtain ⟨⟨e0, e1, e2⟩, -⟩ := r0_idx_facts t
  have hb := b.isLt; have hh := h.isLt
  unfold iblk0
  show (V c main_arg0 : S8x2048x256.Idx → EReal) _ = _
  refine congrArg _ (funext fun a => Fin.ext ?_)
  match a with
  | ⟨0, _⟩ => show win0_0.index t (0 : Fin 3) * 1 + 1 * 0 = b.val; rw [e0]; omega
  | ⟨1, _⟩ => show win0_0.index t (1 : Fin 3) * 2048 + 1 * n.val = n.val; rw [e1]; omega
  | ⟨2, _⟩ => show win0_0.index t (2 : Fin 3) * 256 + 1 * cc.val = cc.val; rw [e2]; omega

/-- The weight block at the point of head h is head h's block. -/
theorem r0_iblk_w (c : Dev nD) (t : Fin cfg0.N) (b : Fin 8) (h : Fin 4) (ht : t.val = b.val * 4 + h.val) (cc : Fin 256) (j : Fin 192) :
    (iblk0 V c 1 t : Vec Ideal S1x256x192 .bf16) (ix3 (0 : Fin 1) cc j) = (V c main_v11 : S4x256x192.Idx → EReal) (ix3 h cc j) := by
  obtain ⟨-, ⟨e0, e1, e2⟩, -⟩ := r0_idx_facts t
  have hb := b.isLt; have hh := h.isLt
  unfold iblk0
  show (V c main_v11 : S4x256x192.Idx → EReal) _ = _
  refine congrArg _ (funext fun a => Fin.ext ?_)
  match a with
  | ⟨0, _⟩ => show win0_1.index t (0 : Fin 3) * 1 + 1 * 0 = h.val; rw [e0]; omega
  | ⟨1, _⟩ => show win0_1.index t (1 : Fin 3) * 256 + 1 * cc.val = cc.val; rw [e1]; omega
  | ⟨2, _⟩ => show win0_1.index t (2 : Fin 3) * 192 + 1 * j.val = j.val; rw [e2]; omega

/-- The bias block at the point of head h is head h's row. -/
theorem r0_iblk_b (c : Dev nD) (t : Fin cfg0.N) (b : Fin 8) (h : Fin 4) (ht : t.val = b.val * 4 + h.val) (j : Fin 192) :
    (iblk0 V c 2 t : Vec Ideal S1x1x192 .f32) (ix3 (0 : Fin 1) (0 : Fin 1) j) = (V c main_v19 : S4x1x192.Idx → EReal) (ix3 h (0 : Fin 1) j) := by
  obtain ⟨-, -, ⟨e0, e1, e2⟩, -⟩ := r0_idx_facts t
  have hb := b.isLt; have hh := h.isLt
  unfold iblk0
  show (V c main_v19 : S4x1x192.Idx → EReal) _ = _
  refine congrArg _ (funext fun a => Fin.ext ?_)
  match a with
  | ⟨0, _⟩ => show win0_2.index t (0 : Fin 3) * 1 + 1 * 0 = h.val; rw [e0]; omega
  | ⟨1, _⟩ => show win0_2.index t (1 : Fin 3) * 1 + 1 * 0 = 0; rw [e1]
  | ⟨2, _⟩ => show win0_2.index t (2 : Fin 3) * 192 + 1 * j.val = j.val; rw [e2]; omega

/-- The projected slab of the three input blocks of a point, read off the arrays. -/
theorem r0_blocks_slab (c : Dev nD) (t : Fin cfg0.N) (b : Fin 8) (h : Fin 4) (ht : t.val = b.val * 4 + h.val) (n : Fin 2048) (j : Fin 192) :
    dotRow (fun cc : Fin 256 => (iblk0 V c 0 t : Vec Ideal S1x2048x256 .f32) (ix3 (0 : Fin 1) n cc))
        (fun cc => (iblk0 V c 1 t : Vec Ideal S1x256x192 .bf16) (ix3 (0 : Fin 1) cc j))
      + (iblk0 V c 2 t : Vec Ideal S1x1x192 .f32) (ix3 (0 : Fin 1) (0 : Fin 1) j)
    = slab V c b h n j := by
  unfold slab
  simp only [r0_iblk_x V c t b h ht, r0_iblk_w V c t b h ht, r0_iblk_b V c t b h ht]

/-! ## Output window 3: the query array -/

/-- What the query array ends holding, index by index. -/
def r0_G3 (c : Dev nD) : S8x4x2048x64.Idx → EReal := fun i =>
  slab V c (i 0) (i 1) (i 2) ⟨(i 3).val, by have h3 : (i 3).val < 64 := (i 3).isLt; omega⟩

/-- One whole-buffer store of the payload of three whole-buffer loads leaves the payload of the blocks. -/
theorem r0_out0_3_eq (x0 : Vec Ideal S1x2048x256 .f32) (x1 : Vec Ideal S1x256x192 .bf16) (x2 : Vec Ideal S1x1x192 .f32) :
    out0_3 (F := Ideal) x0 x1 x2 = k0_pay2 (F := Ideal) x0 x1 x2 := by
  unfold out0_3
  rw [View.canon_unit_zero r0_hz4, View.ld_unit_zero (S := S1x2048x256) r0_hz3, View.ld_unit_zero (S := S1x256x192) r0_hz3,
    View.ld_unit_zero (S := S1x1x192) r0_hz3]

/-- The query block at (n, d): columns 0–63 of the blocks' projected slab. -/
theorem r0_out0_3_apply (x0 : Vec Ideal S1x2048x256 .f32) (x1 : Vec Ideal S1x256x192 .bf16) (x2 : Vec Ideal S1x1x192 .f32)
    (n : Fin 2048) (d : Fin 64) :
    out0_3 (F := Ideal) x0 x1 x2 (ix4 (0 : Fin 1) (0 : Fin 1) n d)
      = dotRow (fun cc : Fin 256 => x0 (ix3 (0 : Fin 1) n cc)) (fun cc => x1 (ix3 (0 : Fin 1) cc ⟨d.val, by omega⟩))
        + x2 (ix3 (0 : Fin 1) (0 : Fin 1) ⟨d.val, by omega⟩) := by
  rw [r0_out0_3_eq]
  exact (Cert.AttnPay.pay_q x0 x1 x2 n d).trans (Cert.AttnPay.pay_qkv x0 x1 x2 n _)

/-- What point t writes back is block t of `r0_G3`. -/
theorem r0_flushed3_eq (c : Dev nD) (t : Fin cfg0.N) :
    (dat0 (F := Ideal) V c).flushed 3 t = ((cfg0.win 3).blk t).view.read (Elt Ideal) (r0_G3 V c) := by
  show (cfg0.win 3).cut (grid0.coords t) ((dat0 (F := Ideal) V c).after 3 t) = _
  rw [after0_3]
  have ht := r0_lt32 t
  obtain ⟨-, -, -, ⟨e0, e1, e2, e3⟩, -, -⟩ := r0_idx_facts t
  funext y
  obtain ⟨a0, a1, n, d, rfl⟩ : ∃ (a0 : Fin 1) (a1 : Fin 1) (n : Fin 2048) (d : Fin 64), y = ix4 a0 a1 n d :=
    ⟨y 0, y 1, y 2, y 3, eq_ix4 y⟩
  obtain rfl : a0 = 0 := Subsingleton.elim _ _
  obtain rfl : a1 = 0 := Subsingleton.elim _ _
  have hemb : ((cfg0.win 3).blk t).view.emb (ix4 (0 : Fin 1) (0 : Fin 1) n d)
      = (ix4 (⟨t.val / 4, by omega⟩ : Fin 8) (⟨t.val % 4, by omega⟩ : Fin 4) n d : S8x4x2048x64.Idx) := by
    refine funext fun a => Fin.ext ?_
    match a with
    | ⟨0, _⟩ => show win0_3.index t (0 : Fin 4) * 1 + 1 * 0 = t.val / 4; rw [e0]; omega
    | ⟨1, _⟩ => show win0_3.index t (1 : Fin 4) * 1 + 1 * 0 = t.val % 4; rw [e1]; omega
    | ⟨2, _⟩ => show win0_3.index t (2 : Fin 4) * 2048 + 1 * n.val = n.val; rw [e2]; omega
    | ⟨3, _⟩ => show win0_3.index t (3 : Fin 4) * 64 + 1 * d.val = d.val; rw [e3]; omega
  show out0_3 (F := Ideal) (iblk0 V c 0 t) (iblk0 V c 1 t) (iblk0 V c 2 t) (ix4 (0 : Fin 1) (0 : Fin 1) n d)
    = r0_G3 V c (((cfg0.win 3).blk t).view.emb (ix4 (0 : Fin 1) (0 : Fin 1) n d))
  rw [hemb]
  refine (r0_out0_3_apply (iblk0 V c 0 t) (iblk0 V c 1 t) (iblk0 V c 2 t) n d).trans ?_
  exact r0_blocks_slab V c t ⟨t.val / 4, by omega⟩ ⟨t.val % 4, by omega⟩ (by show t.val = t.val / 4 * 4 + t.val % 4; omega) n _

/-- An index of the array is in point t's block iff each coordinate is in the block's range on its axis. -/
theorem r0_mem_blk3 (t : Fin cfg0.N) (i : S8x4x2048x64.Idx) :
    i ∈ ((cfg0.win 3).blk t).view.set ↔ ∀ a : Fin 4, win0_3.index t a * S1x1x2048x64.size a ≤ (i a).val
      ∧ (i a).val < win0_3.index t a * S1x1x2048x64.size a + S1x1x2048x64.size a := by
  show i ∈ ((View.whole main_v20_0).slice (win0_3.rect t)).set ↔ _
  rw [View.set_slice_whole, Rect.mem_set_unit]
  exact Iff.rfl

/-- Every index (b, h, n, d) of the array is in the block of point b·4 + h. -/
theorem r0_cover3 (i : S8x4x2048x64.Idx) :
    ∃ t : Fin cfg0.N, (cfg0.win 3).flush t = true ∧ i ∈ ((cfg0.win 3).blk t).view.set := by
  have h0 : (i 0).val < 8 := (i 0).isLt
  have h1 : (i 1).val < 4 := (i 1).isLt
  have h2 : (i 2).val < 2048 := (i 2).isLt
  have h3 : (i 3).val < 64 := (i 3).isLt
  obtain ⟨t, htv⟩ : ∃ t : Fin cfg0.N, t.val = (i 0).val * 4 + (i 1).val :=
    ⟨⟨(i 0).val * 4 + (i 1).val, lt_of_lt_of_eq (by omega) N_0.symm⟩, rfl⟩
  obtain ⟨-, -, -, ⟨e0, e1, e2, e3⟩, -, -⟩ := r0_idx_facts t
  refine ⟨t, flush0_3 t, ?_⟩
  rw [r0_mem_blk3]
  intro a
  match a with
  | ⟨0, _⟩ => show win0_3.index t (0 : Fin 4) * 1 ≤ (i 0).val ∧ (i 0).val < win0_3.index t (0 : Fin 4) * 1 + 1; rw [e0]; omega
  | ⟨1, _⟩ => show win0_3.index t (1 : Fin 4) * 1 ≤ (i 1).val ∧ (i 1).val < win0_3.index t (1 : Fin 4) * 1 + 1; rw [e1]; omega
  | ⟨2, _⟩ => show win0_3.index t (2 : Fin 4) * 2048 ≤ (i 2).val ∧ (i 2).val < win0_3.index t (2 : Fin 4) * 2048 + 2048; rw [e2]; omega
  | ⟨3, _⟩ => show win0_3.index t (3 : Fin 4) * 64 ≤ (i 3).val ∧ (i 3).val < win0_3.index t (3 : Fin 4) * 64 + 64; rw [e3]; omega

/-- The query array after the run. -/
theorem r0_arr3 (c : Dev nD) : (dat0 (F := Ideal) V c).arrAt 3 cfg0.N = r0_G3 V c :=
  (dat0 (F := Ideal) V c).arrAt_eq_of_cover 3 (r0_G3 V c) (fun t _ => r0_flushed3_eq V c t) (r0_cover3)

/-! ## Output window 4: the key array -/

/-- What the key array ends holding, index by index. -/
def r0_G4 (c : Dev nD) : S8x4x2048x64.Idx → EReal := fun i =>
  slab V c (i 0) (i 1) (i 2) ⟨64 + (i 3).val, by have h3 : (i 3).val < 64 := (i 3).isLt; omega⟩

/-- One whole-buffer store of the payload of three whole-buffer loads leaves the payload of the blocks. -/
theorem r0_out0_4_eq (x0 : Vec Ideal S1x2048x256 .f32) (x1 : Vec Ideal S1x256x192 .bf16) (x2 : Vec Ideal S1x1x192 .f32) :
    out0_4 (F := Ideal) x0 x1 x2 = k0_pay3 (F := Ideal) x0 x1 x2 := by
  unfold out0_4
  rw [View.canon_unit_zero r0_hz4, View.ld_unit_zero (S := S1x2048x256) r0_hz3, View.ld_unit_zero (S := S1x256x192) r0_hz3,
    View.ld_unit_zero (S := S1x1x192) r0_hz3]

/-- The key block at (n, d): columns 64–127 of the blocks' projected slab. -/
theorem r0_out0_4_apply (x0 : Vec Ideal S1x2048x256 .f32) (x1 : Vec Ideal S1x256x192 .bf16) (x2 : Vec Ideal S1x1x192 .f32)
    (n : Fin 2048) (d : Fin 64) :
    out0_4 (F := Ideal) x0 x1 x2 (ix4 (0 : Fin 1) (0 : Fin 1) n d)
      = dotRow (fun cc : Fin 256 => x0 (ix3 (0 : Fin 1) n cc)) (fun cc => x1 (ix3 (0 : Fin 1) cc ⟨64 + d.val, by omega⟩))
        + x2 (ix3 (0 : Fin 1) (0 : Fin 1) ⟨64 + d.val, by omega⟩) := by
  rw [r0_out0_4_eq]
  exact (Cert.AttnPay.pay_k x0 x1 x2 n d).trans (Cert.AttnPay.pay_qkv x0 x1 x2 n _)

/-- What point t writes back is block t of `r0_G4`. -/
theorem r0_flushed4_eq (c : Dev nD) (t : Fin cfg0.N) :
    (dat0 (F := Ideal) V c).flushed 4 t = ((cfg0.win 4).blk t).view.read (Elt Ideal) (r0_G4 V c) := by
  show (cfg0.win 4).cut (grid0.coords t) ((dat0 (F := Ideal) V c).after 4 t) = _
  rw [after0_4]
  have ht := r0_lt32 t
  obtain ⟨-, -, -, -, ⟨e0, e1, e2, e3⟩, -⟩ := r0_idx_facts t
  funext y
  obtain ⟨a0, a1, n, d, rfl⟩ : ∃ (a0 : Fin 1) (a1 : Fin 1) (n : Fin 2048) (d : Fin 64), y = ix4 a0 a1 n d :=
    ⟨y 0, y 1, y 2, y 3, eq_ix4 y⟩
  obtain rfl : a0 = 0 := Subsingleton.elim _ _
  obtain rfl : a1 = 0 := Subsingleton.elim _ _
  have hemb : ((cfg0.win 4).blk t).view.emb (ix4 (0 : Fin 1) (0 : Fin 1) n d)
      = (ix4 (⟨t.val / 4, by omega⟩ : Fin 8) (⟨t.val % 4, by omega⟩ : Fin 4) n d : S8x4x2048x64.Idx) := by
    refine funext fun a => Fin.ext ?_
    match a with
    | ⟨0, _⟩ => show win0_4.index t (0 : Fin 4) * 1 + 1 * 0 = t.val / 4; rw [e0]; omega
    | ⟨1, _⟩ => show win0_4.index t (1 : Fin 4) * 1 + 1 * 0 = t.val % 4; rw [e1]; omega
    | ⟨2, _⟩ => show win0_4.index t (2 : Fin 4) * 2048 + 1 * n.val = n.val; rw [e2]; omega
    | ⟨3, _⟩ => show win0_4.index t (3 : Fin 4) * 64 + 1 * d.val = d.val; rw [e3]; omega
  show out0_4 (F := Ideal) (iblk0 V c 0 t) (iblk0 V c 1 t) (iblk0 V c 2 t) (ix4 (0 : Fin 1) (0 : Fin 1) n d)
    = r0_G4 V c (((cfg0.win 4).blk t).view.emb (ix4 (0 : Fin 1) (0 : Fin 1) n d))
  rw [hemb]
  refine (r0_out0_4_apply (iblk0 V c 0 t) (iblk0 V c 1 t) (iblk0 V c 2 t) n d).trans ?_
  exact r0_blocks_slab V c t ⟨t.val / 4, by omega⟩ ⟨t.val % 4, by omega⟩ (by show t.val = t.val / 4 * 4 + t.val % 4; omega) n _

/-- An index of the array is in point t's block iff each coordinate is in the block's range on its axis. -/
theorem r0_mem_blk4 (t : Fin cfg0.N) (i : S8x4x2048x64.Idx) :
    i ∈ ((cfg0.win 4).blk t).view.set ↔ ∀ a : Fin 4, win0_4.index t a * S1x1x2048x64.size a ≤ (i a).val
      ∧ (i a).val < win0_4.index t a * S1x1x2048x64.size a + S1x1x2048x64.size a := by
  show i ∈ ((View.whole main_v20_1).slice (win0_4.rect t)).set ↔ _
  rw [View.set_slice_whole, Rect.mem_set_unit]
  exact Iff.rfl

/-- Every index (b, h, n, d) of the array is in the block of point b·4 + h. -/
theorem r0_cover4 (i : S8x4x2048x64.Idx) :
    ∃ t : Fin cfg0.N, (cfg0.win 4).flush t = true ∧ i ∈ ((cfg0.win 4).blk t).view.set := by
  have h0 : (i 0).val < 8 := (i 0).isLt
  have h1 : (i 1).val < 4 := (i 1).isLt
  have h2 : (i 2).val < 2048 := (i 2).isLt
  have h3 : (i 3).val < 64 := (i 3).isLt
  obtain ⟨t, htv⟩ : ∃ t : Fin cfg0.N, t.val = (i 0).val * 4 + (i 1).val :=
    ⟨⟨(i 0).val * 4 + (i 1).val, lt_of_lt_of_eq (by omega) N_0.symm⟩, rfl⟩
  obtain ⟨-, -, -, -, ⟨e0, e1, e2, e3⟩, -⟩ := r0_idx_facts t
  refine ⟨t, flush0_4 t, ?_⟩
  rw [r0_mem_blk4]
  intro a
  match a with
  | ⟨0, _⟩ => show win0_4.index t (0 : Fin 4) * 1 ≤ (i 0).val ∧ (i 0).val < win0_4.index t (0 : Fin 4) * 1 + 1; rw [e0]; omega
  | ⟨1, _⟩ => show win0_4.index t (1 : Fin 4) * 1 ≤ (i 1).val ∧ (i 1).val < win0_4.index t (1 : Fin 4) * 1 + 1; rw [e1]; omega
  | ⟨2, _⟩ => show win0_4.index t (2 : Fin 4) * 2048 ≤ (i 2).val ∧ (i 2).val < win0_4.index t (2 : Fin 4) * 2048 + 2048; rw [e2]; omega
  | ⟨3, _⟩ => show win0_4.index t (3 : Fin 4) * 64 ≤ (i 3).val ∧ (i 3).val < win0_4.index t (3 : Fin 4) * 64 + 64; rw [e3]; omega

/-- The key array after the run. -/
theorem r0_arr4 (c : Dev nD) : (dat0 (F := Ideal) V c).arrAt 4 cfg0.N = r0_G4 V c :=
  (dat0 (F := Ideal) V c).arrAt_eq_of_cover 4 (r0_G4 V c) (fun t _ => r0_flushed4_eq V c t) (r0_cover4)

/-! ## Output window 5: the value array -/

/-- What the value array ends holding, index by index. -/
def r0_G5 (c : Dev nD) : S8x4x2048x64.Idx → EReal := fun i =>
  slab V c (i 0) (i 1) (i 2) ⟨128 + (i 3).val, by have h3 : (i 3).val < 64 := (i 3).isLt; omega⟩

/-- One whole-buffer store of the payload of three whole-buffer loads leaves the payload of the blocks. -/
theorem r0_out0_5_eq (x0 : Vec Ideal S1x2048x256 .f32) (x1 : Vec Ideal S1x256x192 .bf16) (x2 : Vec Ideal S1x1x192 .f32) :
    out0_5 (F := Ideal) x0 x1 x2 = k0_pay4 (F := Ideal) x0 x1 x2 := by
  unfold out0_5
  rw [View.canon_unit_zero r0_hz4, View.ld_unit_zero (S := S1x2048x256) r0_hz3, View.ld_unit_zero (S := S1x256x192) r0_hz3,
    View.ld_unit_zero (S := S1x1x192) r0_hz3]

/-- The value block at (n, d): columns 128–191 of the blocks' projected slab. -/
theorem r0_out0_5_apply (x0 : Vec Ideal S1x2048x256 .f32) (x1 : Vec Ideal S1x256x192 .bf16) (x2 : Vec Ideal S1x1x192 .f32)
    (n : Fin 2048) (d : Fin 64) :
    out0_5 (F := Ideal) x0 x1 x2 (ix4 (0 : Fin 1) (0 : Fin 1) n d)
      = dotRow (fun cc : Fin 256 => x0 (ix3 (0 : Fin 1) n cc)) (fun cc => x1 (ix3 (0 : Fin 1) cc ⟨128 + d.val, by omega⟩))
        + x2 (ix3 (0 : Fin 1) (0 : Fin 1) ⟨128 + d.val, by omega⟩) := by
  rw [r0_out0_5_eq]
  exact (Cert.AttnPay.pay_v x0 x1 x2 n d).trans (Cert.AttnPay.pay_qkv x0 x1 x2 n _)

/-- What point t writes back is block t of `r0_G5`. -/
theorem r0_flushed5_eq (c : Dev nD) (t : Fin cfg0.N) :
    (dat0 (F := Ideal) V c).flushed 5 t = ((cfg0.win 5).blk t).view.read (Elt Ideal) (r0_G5 V c) := by
  show (cfg0.win 5).cut (grid0.coords t) ((dat0 (F := Ideal) V c).after 5 t) = _
  rw [after0_5]
  have ht := r0_lt32 t
  obtain ⟨-, -, -, -, -, ⟨e0, e1, e2, e3⟩⟩ := r0_idx_facts t
  funext y
  obtain ⟨a0, a1, n, d, rfl⟩ : ∃ (a0 : Fin 1) (a1 : Fin 1) (n : Fin 2048) (d : Fin 64), y = ix4 a0 a1 n d :=
    ⟨y 0, y 1, y 2, y 3, eq_ix4 y⟩
  obtain rfl : a0 = 0 := Subsingleton.elim _ _
  obtain rfl : a1 = 0 := Subsingleton.elim _ _
  have hemb : ((cfg0.win 5).blk t).view.emb (ix4 (0 : Fin 1) (0 : Fin 1) n d)
      = (ix4 (⟨t.val / 4, by omega⟩ : Fin 8) (⟨t.val % 4, by omega⟩ : Fin 4) n d : S8x4x2048x64.Idx) := by
    refine funext fun a => Fin.ext ?_
    match a with
    | ⟨0, _⟩ => show win0_5.index t (0 : Fin 4) * 1 + 1 * 0 = t.val / 4; rw [e0]; omega
    | ⟨1, _⟩ => show win0_5.index t (1 : Fin 4) * 1 + 1 * 0 = t.val % 4; rw [e1]; omega
    | ⟨2, _⟩ => show win0_5.index t (2 : Fin 4) * 2048 + 1 * n.val = n.val; rw [e2]; omega
    | ⟨3, _⟩ => show win0_5.index t (3 : Fin 4) * 64 + 1 * d.val = d.val; rw [e3]; omega
  show out0_5 (F := Ideal) (iblk0 V c 0 t) (iblk0 V c 1 t) (iblk0 V c 2 t) (ix4 (0 : Fin 1) (0 : Fin 1) n d)
    = r0_G5 V c (((cfg0.win 5).blk t).view.emb (ix4 (0 : Fin 1) (0 : Fin 1) n d))
  rw [hemb]
  refine (r0_out0_5_apply (iblk0 V c 0 t) (iblk0 V c 1 t) (iblk0 V c 2 t) n d).trans ?_
  exact r0_blocks_slab V c t ⟨t.val / 4, by omega⟩ ⟨t.val % 4, by omega⟩ (by show t.val = t.val / 4 * 4 + t.val % 4; omega) n _

/-- An index of the array is in point t's block iff each coordinate is in the block's range on its axis. -/
theorem r0_mem_blk5 (t : Fin cfg0.N) (i : S8x4x2048x64.Idx) :
    i ∈ ((cfg0.win 5).blk t).view.set ↔ ∀ a : Fin 4, win0_5.index t a * S1x1x2048x64.size a ≤ (i a).val
      ∧ (i a).val < win0_5.index t a * S1x1x2048x64.size a + S1x1x2048x64.size a := by
  show i ∈ ((View.whole main_v20_2).slice (win0_5.rect t)).set ↔ _
  rw [View.set_slice_whole, Rect.mem_set_unit]
  exact Iff.rfl

/-- Every index (b, h, n, d) of the array is in the block of point b·4 + h. -/
theorem r0_cover5 (i : S8x4x2048x64.Idx) :
    ∃ t : Fin cfg0.N, (cfg0.win 5).flush t = true ∧ i ∈ ((cfg0.win 5).blk t).view.set := by
  have h0 : (i 0).val < 8 := (i 0).isLt
  have h1 : (i 1).val < 4 := (i 1).isLt
  have h2 : (i 2).val < 2048 := (i 2).isLt
  have h3 : (i 3).val < 64 := (i 3).isLt
  obtain ⟨t, htv⟩ : ∃ t : Fin cfg0.N, t.val = (i 0).val * 4 + (i 1).val :=
    ⟨⟨(i 0).val * 4 + (i 1).val, lt_of_lt_of_eq (by omega) N_0.symm⟩, rfl⟩
  obtain ⟨-, -, -, -, -, ⟨e0, e1, e2, e3⟩⟩ := r0_idx_facts t
  refine ⟨t, flush0_5 t, ?_⟩
  rw [r0_mem_blk5]
  intro a
  match a with
  | ⟨0, _⟩ => show win0_5.index t (0 : Fin 4) * 1 ≤ (i 0).val ∧ (i 0).val < win0_5.index t (0 : Fin 4) * 1 + 1; rw [e0]; omega
  | ⟨1, _⟩ => show win0_5.index t (1 : Fin 4) * 1 ≤ (i 1).val ∧ (i 1).val < win0_5.index t (1 : Fin 4) * 1 + 1; rw [e1]; omega
  | ⟨2, _⟩ => show win0_5.index t (2 : Fin 4) * 2048 ≤ (i 2).val ∧ (i 2).val < win0_5.index t (2 : Fin 4) * 2048 + 2048; rw [e2]; omega
  | ⟨3, _⟩ => show win0_5.index t (3 : Fin 4) * 64 ≤ (i 3).val ∧ (i 3).val < win0_5.index t (3 : Fin 4) * 64 + 64; rw [e3]; omega

/-- The value array after the run. -/
theorem r0_arr5 (c : Dev nD) : (dat0 (F := Ideal) V c).arrAt 5 cfg0.N = r0_G5 V c :=
  (dat0 (F := Ideal) V c).arrAt_eq_of_cover 5 (r0_G5 V c) (fun t _ => r0_flushed5_eq V c t) (r0_cover5)

/-! ## The three arrays, index by index -/

theorem arr0_q (c : Dev nD) (b : Fin 8) (h : Fin 4) (n : Fin 2048) (d : Fin 64) :
    ((dat0 (F := Ideal) V c).arrAt 3 cfg0.N : S8x4x2048x64.Idx → EReal) (ix4 b h n d) = slab V c b h n ⟨d.val, by omega⟩ :=
  congrFun (r0_arr3 V c) (ix4 b h n d)

theorem arr0_k (c : Dev nD) (b : Fin 8) (h : Fin 4) (n : Fin 2048) (d : Fin 64) :
    ((dat0 (F := Ideal) V c).arrAt 4 cfg0.N : S8x4x2048x64.Idx → EReal) (ix4 b h n d) = slab V c b h n ⟨64 + d.val, by omega⟩ :=
  congrFun (r0_arr4 V c) (ix4 b h n d)

theorem arr0_v (c : Dev nD) (b : Fin 8) (h : Fin 4) (n : Fin 2048) (d : Fin 64) :
    ((dat0 (F := Ideal) V c).arrAt 5 cfg0.N : S8x4x2048x64.Idx → EReal) (ix4 b h n d) = slab V c b h n ⟨128 + d.val, by omega⟩ :=
  congrFun (r0_arr5 V c) (ix4 b h n d)

end Cert.AttnKV

end
-- ==== Proof.PayHead.lean ====
import proofs.«153646_j81466939670561_2_alg».proof.Proof.PayLib

noncomputable section

namespace Cert.AttnPay

open Idealize.ShloMosaic Idealize.ShloMosaic.ValueIdx Cert.KernelIdeal Cert.KernelIdeal.Gen Cert.AttnSpec

/-! ## One head's chain of operations, on plain matrices

The attention kernel computes each head by the same chain: the scores `q · kᵀ` scaled by 1/8, the row maximum, the
shifted exponentials, their row sum, the quotient, and its product with the values. The chain is named here once, in
the kernel's own operations, and read at an index; the four heads' payloads are instances of it. -/

/-- The scaled scores. -/
def hScore (q : FVec Ideal S256x64 .bf16) (k : FVec Ideal S2048x64 .bf16) : FVec Ideal S256x2048 .f32 :=
  mulf (matmul dot_S256x64_S2048x64_S256x2048_1_1_0_0_n_n none q k (constant (F := Ideal) S256x2048 .f32 0x00000000#32))
    (broadcast S256x2048 (Scalar.ofBits (F := Ideal) .f32 0x3E000000#32))

/-- The exponentials of the scores less their row maximum. -/
def hExp (q : FVec Ideal S256x64 .bf16) (k : FVec Ideal S2048x64 .bf16) : FVec Ideal S256x2048 .f32 :=
  exp (subf (hScore q k)
    (broadcastTo S256x2048
      (shapeCast S256x1 (multiReduction (F := Ideal) .maximumf [1] S256 (hScore q k) 0xFF800000#32 reduces_S256x2048_S256 (.inl rfl) rfl)
        shapeCasts_S256_S256x1)
      broadcasts_S256x1_S256x2048))

/-- The row sums of a table of exponentials, as a column. -/
def hSum (e : FVec Ideal S256x2048 .f32) : FVec Ideal S256x1 .f32 :=
  shapeCast S256x1 (multiReduction (F := Ideal) .add [1] S256 e 0x00000000#32 reduces_S256x2048_S256 (.inl rfl) rfl) shapeCasts_S256_S256x1

/-- The exponentials divided by their row sums, times the values. -/
def hOut (e : FVec Ideal S256x2048 .f32) (z : FVec Ideal S256x1 .f32) (v : FVec Ideal S2048x64 .bf16) : FVec Ideal S256x64 .f32 :=
  matmul dot_S256x2048_S2048x64_S256x64_1_0_0_1_n_n none
    (truncf .bf16 (divf e (broadcastTo S256x2048 z broadcasts_S256x1_S256x2048)) bitsLt_bf16_f32) v
    (constant (F := Ideal) S256x64 .f32 0x00000000#32)

section Generic
variable (q : FVec Ideal S256x64 .bf16) (k v : FVec Ideal S2048x64 .bf16)

/-- A score is the specification's scaled score of the query row against the key row. -/
theorem hScore_apply (n : Fin 256) (m : Fin 2048) :
    hScore q k (ix2 n m) = scoreRow (fun d' => q (ix2 n d')) (fun m' d' => k (ix2 m' d')) m := by
  unfold hScore
  refine (mulf_apply _ _ _).trans ?_
  exact congrArg (· * scale) (dotQK_apply q k n m)

/-- An exponential is the specification's shifted exponential. -/
theorem hExp_apply (n : Fin 256) (m : Fin 2048) :
    hExp q k (ix2 n m) = expRow (fun d' => q (ix2 n d')) (fun m' d' => k (ix2 m' d')) m := by
  unfold hExp
  show Ideal.exp (hScore q k (ix2 n m) - _) = _
  refine congrArg₂ (fun a b => Ideal.exp (a - b)) (hScore_apply q k n m) ?_
  refine (broadcastTo_a1_ab_apply _ _ n m).trans ?_
  refine (shapeCast_a_a1_apply _ _ n (0 : Fin 1)).trans ?_
  refine (rowMax_apply _ _ _ _ n).trans ?_
  exact congrArg (fun f => (Finset.univ : Finset (Fin 2048)).fold max negInf f) (funext fun m' => hScore_apply q k n m')

/-- A row sum of the exponentials is the specification's. -/
theorem hSum_apply (n : Fin 256) :
    hSum (hExp q k) (ix2 n (0 : Fin 1)) = expSum (fun d' => q (ix2 n d')) (fun m' d' => k (ix2 m' d')) := by
  unfold hSum
  refine (shapeCast_a_a1_apply _ _ n (0 : Fin 1)).trans ?_
  refine (rowSum_apply _ _ _ _ n).trans ?_
  exact Finset.sum_congr rfl fun m _ => hExp_apply q k n m

/-- THE HEAD: the chain read at row `n`, component `d`, is the specification's attention row. -/
theorem headGeneric (n : Fin 256) (d : Fin 64) :
    hOut (hExp q k) (hSum (hExp q k)) v (ix2 n d)
      = attnRow (fun d' => q (ix2 n d')) (fun m d' => k (ix2 m d')) (fun m d' => v (ix2 m d')) d := by
  unfold hOut
  refine (dotPV_apply _ _ n d).trans ?_
  refine Finset.sum_congr rfl fun m _ => congrArg (· * v (ix2 m d)) ?_
  show Ideal.div (hExp q k (ix2 n m)) _ = _
  refine congrArg₂ Ideal.div (hExp_apply q k n m) ?_
  refine (broadcastTo_a1_ab_apply _ _ n m).trans ?_
  exact hSum_apply q k n

end Generic

/-! ## The four heads' payloads -/

/-- A head's three blocks, read as plain matrices, give the specification's row of the blocks. -/
theorem head_blocks (vq : Vec Ideal S1x1x256x64 .bf16) (vk vv : Vec Ideal S1x1x2048x64 .bf16) (n : Fin 256) (d : Fin 64) :
    hOut (hExp (shapeCast S256x64 vq shapeCasts_S1x1x256x64_S256x64) (shapeCast S2048x64 vk shapeCasts_S1x1x2048x64_S2048x64))
        (hSum (hExp (shapeCast S256x64 vq shapeCasts_S1x1x256x64_S256x64) (shapeCast S2048x64 vk shapeCasts_S1x1x2048x64_S2048x64)))
        (shapeCast S2048x64 vv shapeCasts_S1x1x2048x64_S2048x64) (ix2 n d)
      = attnRow (fun d' => vq (ix4 (0 : Fin 1) (0 : Fin 1) n d')) (fun m d' => vk (ix4 (0 : Fin 1) (0 : Fin 1) m d'))
          (fun m d' => vv (ix4 (0 : Fin 1) (0 : Fin 1) m d')) d := by
  refine (headGeneric _ _ _ n d).trans ?_
  have hq : (fun d' : Fin 64 => shapeCast S256x64 vq shapeCasts_S1x1x256x64_S256x64 (ix2 n d'))
      = fun d' => vq (ix4 (0 : Fin 1) (0 : Fin 1) n d') := funext fun d' => shapeCast_11ab_ab_apply vq _ n d'
  have hk : (fun (m : Fin 2048) (d' : Fin 64) => shapeCast S2048x64 vk shapeCasts_S1x1x2048x64_S2048x64 (ix2 m d'))
      = fun m d' => vk (ix4 (0 : Fin 1) (0 : Fin 1) m d') := funext fun m => funext fun d' => shapeCast_11ab_ab_apply vk _ m d'
  have hv : (fun (m : Fin 2048) (d' : Fin 64) => shapeCast S2048x64 vv shapeCasts_S1x1x2048x64_S2048x64 (ix2 m d'))
      = fun m d' => vv (ix4 (0 : Fin 1) (0 : Fin 1) m d') := funext fun m => funext fun d' => shapeCast_11ab_ab_apply vv _ m d'
  rw [hq, hk, hv]

/-- Head 0. -/
theorem pay_head0 (v0 : Vec Ideal S1x1x256x64 .bf16) (v2 v4 : Vec Ideal S1x1x2048x64 .bf16) (n : Fin 256) (d : Fin 64) :
    k1_pay2 (F := Ideal) v0 v2 v4 (ix2 n d)
      = attnRow (fun d' => v0 (ix4 (0 : Fin 1) (0 : Fin 1) n d')) (fun m d' => v2 (ix4 (0 : Fin 1) (0 : Fin 1) m d'))
          (fun m d' => v4 (ix4 (0 : Fin 1) (0 : Fin 1) m d')) d := by
  unfold k1_pay2
  refine (congrFun (shapeCast_self _ _) (ix2 n d)).trans ?_
  exact head_blocks v0 v2 v4 n d

/-- Head 1. -/
theorem pay_head1 (v23 : Vec Ideal S1x1x256x64 .bf16) (v25 v27 : Vec Ideal S1x1x2048x64 .bf16) (n : Fin 256) (d : Fin 64) :
    k1_pay5 (F := Ideal) (k1_pay3 v23) (k1_pay4 v25) v27 (ix2 n d)
      = attnRow (fun d' => v23 (ix4 (0 : Fin 1) (0 : Fin 1) n d')) (fun m d' => v25 (ix4 (0 : Fin 1) (0 : Fin 1) m d'))
          (fun m d' => v27 (ix4 (0 : Fin 1) (0 : Fin 1) m d')) d := by
  unfold k1_pay5 k1_pay3 k1_pay4
  refine (congrFun (shapeCast_self _ _) (ix2 n d)).trans ?_
  exact head_blocks v23 v25 v27 n d

/-- Head 2. -/
theorem pay_head2 (v46 : Vec Ideal S1x1x256x64 .bf16) (v48 v50 : Vec Ideal S1x1x2048x64 .bf16) (n : Fin 256) (d : Fin 64) :
    k1_pay9 (F := Ideal) (k1_pay6 v50) (k1_pay7 v46 v48) (k1_pay8 v46 v48) (ix2 n d)
      = attnRow (fun d' => v46 (ix4 (0 : Fin 1) (0 : Fin 1) n d')) (fun m d' => v48 (ix4 (0 : Fin 1) (0 : Fin 1) m d'))
          (fun m d' => v50 (ix4 (0 : Fin 1) (0 : Fin 1) m d')) d := by
  unfold k1_pay9 k1_pay8 k1_pay7 k1_pay6
  refine (congrFun (shapeCast_self _ _) (ix2 n d)).trans ?_
  exact head_blocks v46 v48 v50 n d

/-- Head 3. -/
theorem pay_head3 (v69 : Vec Ideal S1x1x256x64 .bf16) (v71 v73 : Vec Ideal S1x1x2048x64 .bf16) (n : Fin 256) (d : Fin 64) :
    k1_pay10 (F := Ideal) v69 v71 v73 (ix2 n d)
      = attnRow (fun d' => v69 (ix4 (0 : Fin 1) (0 : Fin 1) n d')) (fun m d' => v71 (ix4 (0 : Fin 1) (0 : Fin 1) m d'))
          (fun m d' => v73 (ix4 (0 : Fin 1) (0 : Fin 1) m d')) d := by
  unfold k1_pay10
  refine (congrFun (shapeCast_self _ _) (ix2 n d)).trans ?_
  exact head_blocks v69 v71 v73 n d

end Cert.AttnPay

end
-- ==== Proof.PayOut.lean ====
import proofs.«153646_j81466939670561_2_alg».proof.Proof.PayLib

noncomputable section

namespace Cert.AttnPay

open Idealize.ShloMosaic Idealize.ShloMosaic.ValueIdx Cert.KernelIdeal Cert.KernelIdeal.Gen Cert.AttnSpec

/-! ## The output projection's payload read at an index -/

/-- The output block at row `n`, channel `o`: the merged heads' row times column `o` of the weight, plus the bias. -/
theorem pay_out (a : Vec Ideal S256x256 .f32) (v94 : Vec Ideal S256x256 .bf16) (v97 : Vec Ideal S1x256 .f32) (n o : Fin 256) :
    k1_pay1 (F := Ideal) (k1_pay11 a) v94 v97 (ix3 (0 : Fin 1) n o)
      = dotRow (fun c : Fin 256 => a (ix2 n c)) (fun c => v94 (ix2 c o)) + v97 (ix2 (0 : Fin 1) o) := by
  unfold k1_pay1 k1_pay11
  refine (shapeCast_ab_1ab_apply _ _ (0 : Fin 1) n o).trans ?_
  refine (addf_apply _ _ _).trans ?_
  refine congrArg₂ (· + ·) ?_ ?_
  · refine (dotOut_apply _ _ n o).trans ?_
    refine Finset.sum_congr rfl fun c _ => congrArg₂ (· * ·) ?_ ?_
    · rfl
    · exact congrFun (shapeCast_self v94 _) (ix2 c o)
  · refine (broadcastTo_1b_ab_apply _ _ n o).trans ?_
    exact congrFun (shapeCast_self v97 _) _

end Cert.AttnPay

end
-- ==== Proof.KV1a.lean ====
import proofs.«153646_j81466939670561_2_alg».proof.Proof.KI.Body1
import proofs.«153646_j81466939670561_2_alg».proof.Proof.PayHead
import proofs.«153646_j81466939670561_2_alg».proof.Proof.PayOut
import Idealize.ShloMosaic.Lib.Pipeline.Value

noncomputable section

namespace Cert.AttnKV

open Idealize.ShloMosaic Idealize.ShloMosaic.TcCoe Idealize.ShloMosaic.ValueIdx Cert.KernelIdeal Cert.KernelIdeal.Gen Cert.KernelIdeal.Hand Cert.AttnSpec Cert.AttnPay

/-! ## One grid point: the output block as a function of the five input blocks

At a point the body holds the query block `x0` (four heads, 256 rows), the key and value blocks `x1`, `x2` (four heads,
2048 rows), the weight `x3` and the bias row `x4`. Head `h`'s attention rows go to columns `64h … 64h+63` of the scratch;
the output block is the scratch times the weight plus the bias. -/

/-- Head `h`'s attention output for row `n` of the query block. -/
def r1_ctxB (x0 : Vec Ideal S1x4x256x64 .bf16) (x1 x2 : Vec Ideal S1x4x2048x64 .bf16) (h : Fin 4) (n : Fin 256) (d : Fin 64) : EReal :=
  attnRow (fun d' => x0 (ix4 (0 : Fin 1) h n d')) (fun m d' => x1 (ix4 (0 : Fin 1) h m d')) (fun m d' => x2 (ix4 (0 : Fin 1) h m d')) d

/-- The attention row depends on its three tables only through their entries. -/
theorem r1_attnRow_congr {q q' : Fin 64 → EReal} {k k' v v' : Fin 2048 → Fin 64 → EReal} (hq : ∀ d, q d = q' d)
    (hk : ∀ m d, k m d = k' m d) (hv : ∀ m d, v m d = v' m d) (d : Fin 64) : attnRow q k v d = attnRow q' k' v' d := by
  obtain rfl : q = q' := funext hq
  obtain rfl : k = k' := funext fun m => funext (hk m)
  obtain rfl : v = v' := funext fun m => funext (hv m)
  rfl

/-! ### A head's table inside a block -/

theorem r1_ld_q0 (x : Vec Ideal S1x4x256x64 .bf16) (n : Fin 256) (d : Fin 64) :
    View.ld x rq0 (ix4 (0 : Fin 1) (0 : Fin 1) n d) = x (ix4 (0 : Fin 1) (0 : Fin 4) n d) :=
  congrArg x (funext fun a => Fin.ext (by
    match a with
    | ⟨0, _⟩ => rfl
    | ⟨1, _⟩ => rfl
    | ⟨2, _⟩ => show 0 + 1 * n.val = n.val; omega
    | ⟨3, _⟩ => show 0 + 1 * d.val = d.val; omega))

theorem r1_ld_q1 (x : Vec Ideal S1x4x256x64 .bf16) (n : Fin 256) (d : Fin 64) :
    View.ld x rq1 (ix4 (0 : Fin 1) (0 : Fin 1) n d) = x (ix4 (0 : Fin 1) (1 : Fin 4) n d) :=
  congrArg x (funext fun a => Fin.ext (by
    match a with
    | ⟨0, _⟩ => rfl
    | ⟨1, _⟩ => rfl
    | ⟨2, _⟩ => show 0 + 1 * n.val = n.val; omega
    | ⟨3, _⟩ => show 0 + 1 * d.val = d.val; omega))

theorem r1_ld_q2 (x : Vec Ideal S1x4x256x64 .bf16) (n : Fin 256) (d : Fin 64) :
    View.ld x rq2 (ix4 (0 : Fin 1) (0 : Fin 1) n d) = x (ix4 (0 : Fin 1) (2 : Fin 4) n d) :=
  congrArg x (funext fun a => Fin.ext (by
    match a with
    | ⟨0, _⟩ => rfl
    | ⟨1, _⟩ => rfl
    | ⟨2, _⟩ => show 0 + 1 * n.val = n.val; omega
    | ⟨3, _⟩ => show 0 + 1 * d.val = d.val; omega))

theorem r1_ld_q3 (x : Vec Ideal S1x4x256x64 .bf16) (n : Fin 256) (d : Fin 64) :
    View.ld x rq3 (ix4 (0 : Fin 1) (0 : Fin 1) n d) = x (ix4 (0 : Fin 1) (3 : Fin 4) n d) :=
  congrArg x (funext fun a => Fin.ext (by
    match a with
    | ⟨0, _⟩ => rfl
    | ⟨1, _⟩ => rfl
    | ⟨2, _⟩ => show 0 + 1 * n.val = n.val; omega
    | ⟨3, _⟩ => show 0 + 1 * d.val = d.val; omega))

theorem r1_ld_k0 (x : Vec Ideal S1x4x2048x64 .bf16) (n : Fin 2048) (d : Fin 64) :
    View.ld x rk0 (ix4 (0 : Fin 1) (0 : Fin 1) n d) = x (ix4 (0 : Fin 1) (0 : Fin 4) n d) :=
  congrArg x (funext fun a => Fin.ext (by
    match a with
    | ⟨0, _⟩ => rfl
    | ⟨1, _⟩ => rfl
    | ⟨2, _⟩ => show 0 + 1 * n.val = n.val; omega
    | ⟨3, _⟩ => show 0 + 1 * d.val = d.val; omega))

theorem r1_ld_k1 (x : Vec Ideal S1x4x2048x64 .bf16) (n : Fin 2048) (d : Fin 64) :
    View.ld x rk1 (ix4 (0 : Fin 1) (0 : Fin 1) n d) = x (ix4 (0 : Fin 1) (1 : Fin 4) n d) :=
  congrArg x (funext fun a => Fin.ext (by
    match a with
    | ⟨0, _⟩ => rfl
    | ⟨1, _⟩ => rfl
    | ⟨2, _⟩ => show 0 + 1 * n.val = n.val; omega
    | ⟨3, _⟩ => show 0 + 1 * d.val = d.val; omega))

theorem r1_ld_k2 (x : Vec Ideal S1x4x2048x64 .bf16) (n : Fin 2048) (d : Fin 64) :
    View.ld x rk2 (ix4 (0 : Fin 1) (0 : Fin 1) n d) = x (ix4 (0 : Fin 1) (2 : Fin 4) n d) :=
  congrArg x (funext fun a => Fin.ext (by
    match a with
    | ⟨0, _⟩ => rfl
    | ⟨1, _⟩ => rfl
    | ⟨2, _⟩ => show 0 + 1 * n.val = n.val; omega
    | ⟨3, _⟩ => show 0 + 1 * d.val = d.val; omega))

theorem r1_ld_k3 (x : Vec Ideal S1x4x2048x64 .bf16) (n : Fin 2048) (d : Fin 64) :
    View.ld x rk3 (ix4 (0 : Fin 1) (0 : Fin 1) n d) = x (ix4 (0 : Fin 1) (3 : Fin 4) n d) :=
  congrArg x (funext fun a => Fin.ext (by
    match a with
    | ⟨0, _⟩ => rfl
    | ⟨1, _⟩ => rfl
    | ⟨2, _⟩ => show 0 + 1 * n.val = n.val; omega
    | ⟨3, _⟩ => show 0 + 1 * d.val = d.val; omega))

/-! ### The four heads' payloads on the blocks -/

theorem r1_head0 (x0 : Vec Ideal S1x4x256x64 .bf16) (x1 x2 : Vec Ideal S1x4x2048x64 .bf16) (n : Fin 256) (d : Fin 64) :
    k1_pay2 (F := Ideal) (View.ld x0 rq0) (View.ld x1 rk0) (View.ld x2 rk0) (ix2 n d) = r1_ctxB x0 x1 x2 (0 : Fin 4) n d :=
  (pay_head0 (View.ld x0 rq0) (View.ld x1 rk0) (View.ld x2 rk0) n d).trans
    (r1_attnRow_congr (fun d' => r1_ld_q0 x0 n d') (fun m d' => r1_ld_k0 x1 m d') (fun m d' => r1_ld_k0 x2 m d') d)

theorem r1_head1 (x0 : Vec Ideal S1x4x256x64 .bf16) (x1 x2 : Vec Ideal S1x4x2048x64 .bf16) (n : Fin 256) (d : Fin 64) :
    k1_pay5 (F := Ideal) (k1_pay3 (View.ld x0 rq1)) (k1_pay4 (View.ld x1 rk1)) (View.ld x2 rk1) (ix2 n d) = r1_ctxB x0 x1 x2 (1 : Fin 4) n d :=
  (pay_head1 (View.ld x0 rq1) (View.ld x1 rk1) (View.ld x2 rk1) n d).trans
    (r1_attnRow_congr (fun d' => r1_ld_q1 x0 n d') (fun m d' => r1_ld_k1 x1 m d') (fun m d' => r1_ld_k1 x2 m d') d)

theorem r1_head2 (x0 : Vec Ideal S1x4x256x64 .bf16) (x1 x2 : Vec Ideal S1x4x2048x64 .bf16) (n : Fin 256) (d : Fin 64) :
    k1_pay9 (F := Ideal) (k1_pay6 (View.ld x2 rk2)) (k1_pay7 (View.ld x0 rq2) (View.ld x1 rk2)) (k1_pay8 (View.ld x0 rq2) (View.ld x1 rk2)) (ix2 n d) = r1_ctxB x0 x1 x2 (2 : Fin 4) n d :=
  (pay_head2 (View.ld x0 rq2) (View.ld x1 rk2) (View.ld x2 rk2) n d).trans
    (r1_attnRow_congr (fun d' => r1_ld_q2 x0 n d') (fun m d' => r1_ld_k2 x1 m d') (fun m d' => r1_ld_k2 x2 m d') d)

theorem r1_head3 (x0 : Vec Ideal S1x4x256x64 .bf16) (x1 x2 : Vec Ideal S1x4x2048x64 .bf16) (n : Fin 256) (d : Fin 64) :
    k1_pay10 (F := Ideal) (View.ld x0 rq3) (View.ld x1 rk3) (View.ld x2 rk3) (ix2 n d) = r1_ctxB x0 x1 x2 (3 : Fin 4) n d :=
  (pay_head3 (View.ld x0 rq3) (View.ld x1 rk3) (View.ld x2 rk3) n d).trans
    (r1_attnRow_congr (fun d' => r1_ld_q3 x0 n d') (fun m d' => r1_ld_k3 x1 m d') (fun m d' => r1_ld_k3 x2 m d') d)

/-! ### The scratch read at an index -/

/-- A table of heads, rows and components depends on its three arguments only through their values. -/
theorem r1_T_congr (T : Fin 4 → Fin 256 → Fin 64 → EReal) {h h' : Fin 4} {n n' : Fin 256} {d d' : Fin 64}
    (eh : h.val = h'.val) (en : n.val = n'.val) (ed : d.val = d'.val) : T h n d = T h' n' d' := by
  obtain rfl := Fin.ext eh
  obtain rfl := Fin.ext en
  obtain rfl := Fin.ext ed
  rfl

/-- The heads' tables laid side by side along the lanes: lane `c` holds component `c % 64` of head `c / 64`. -/
def r1_laneTable (T : Fin 4 → Fin 256 → Fin 64 → EReal) : S256x256.Idx → Elt Ideal .f32 := fun i =>
  T ⟨(i 1).val / 64, by have := idx2_lt1 i; omega⟩ ⟨(i 0).val, idx2_lt0 i⟩ ⟨(i 1).val % 64, Nat.mod_lt _ (by decide)⟩

theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- Four column stores whose payloads are the four heads' tables leave, under the whole-buffer load, the tables side by side. -/
theorem r1_scratch_apply (T : Fin 4 → Fin 256 → Fin 64 → EReal) (p0 p1 p2 p3 : Vec Ideal S256x64 .f32)
    (h0 : ∀ n d, p0 (ix2 n d) = T 0 n d) (h1 : ∀ n d, p1 (ix2 n d) = T 1 n d)
    (h2 : ∀ n d, p2 (ix2 n d) = T 2 n d) (h3 : ∀ n d, p3 (ix2 n d) = T 3 n d) (n cc : Fin 256) :
    View.ld (View.canon ([⟨rs3, p3⟩, ⟨rs2, p2⟩, ⟨rs1, p1⟩, ⟨rs0, p0⟩] : List (View.Piece (Elt Ideal) S256x256 .f32))) rsw (ix2 n cc)
      = T (laneHead cc) n (laneComp cc) := by
  rw [View.ld_unit_zero (S := S256x256) r1_hz2]
  refine (View.canon_apply_of_pieces (r1_laneTable T) _ ?_ (ix2 n cc) (cover1_s p0 p1 p2 p3 _)).trans rfl
  intro p hp x
  simp only [List.mem_cons, List.not_mem_nil, or_false] at hp
  rcases hp with rfl | rfl | rfl | rfl

  · obtain ⟨n', d', rfl⟩ : ∃ (n' : Fin 256) (d' : Fin 64), x = ix2 n' d' := ⟨x 0, x 1, eq_ix2 x⟩
    refine (h3 n' d').trans (r1_T_congr T ?_ ?_ ?_)
    · show 3 = (192 + 1 * d'.val) / 64; omega
    · show n'.val = 0 + 1 * n'.val; omega
    · show d'.val = (192 + 1 * d'.val) % 64; omega
  · obtain ⟨n', d', rfl⟩ : ∃ (n' : Fin 256) (d' : Fin 64), x = ix2 n' d' := ⟨x 0, x 1, eq_ix2 x⟩
    refine (h2 n' d').trans (r1_T_congr T ?_ ?_ ?_)
    · show 2 = (128 + 1 * d'.val) / 64; omega
    · show n'.val = 0 + 1 * n'.val; omega
    · show d'.val = (128 + 1 * d'.val) % 64; omega
  · obtain ⟨n', d', rfl⟩ : ∃ (n' : Fin 256) (d' : Fin 64), x = ix2 n' d' := ⟨x 0, x 1, eq_ix2 x⟩
    refine (h1 n' d').trans (r1_T_congr T ?_ ?_ ?_)
    · show 1 = (64 + 1 * d'.val) / 64; omega
    · show n'.val = 0 + 1 * n'.val; omega
    · show d'.val = (64 + 1 * d'.val) % 64; omega
  · obtain ⟨n', d', rfl⟩ : ∃ (n' : Fin 256) (d' : Fin 64), x = ix2 n' d' := ⟨x 0, x 1, eq_ix2 x⟩
    refine (h0 n' d').trans (r1_T_congr T ?_ ?_ ?_)
    · show 0 = (0 + 1 * d'.val) / 64; omega
    · show n'.val = 0 + 1 * n'.val; omega
    · show d'.val = (0 + 1 * d'.val) % 64; omega

/-- The scratch as the whole-buffer load finds it: lane `c` of row `n` is head `c / 64`'s attention output, component `c % 64`. -/
theorem r1_acc_apply (x0 : Vec Ideal S1x4x256x64 .bf16) (x1 x2 : Vec Ideal S1x4x2048x64 .bf16) (n cc : Fin 256) :
    acc1 (F := Ideal) x0 x1 x2 (ix2 n cc) = r1_ctxB x0 x1 x2 (laneHead cc) n (laneComp cc) := by
  unfold acc1 accPieces
  exact r1_scratch_apply (r1_ctxB x0 x1 x2) _ _ _ _ (r1_head0 x0 x1 x2) (r1_head1 x0 x1 x2) (r1_head2 x0 x1 x2) (r1_head3 x0 x1 x2) n cc

/-- THE OUTPUT BLOCK at row `n`, channel `o`: the merged heads' row times column `o` of the weight, plus the bias. -/
theorem r1_out_apply (x0 : Vec Ideal S1x4x256x64 .bf16) (x1 x2 : Vec Ideal S1x4x2048x64 .bf16) (x3 : Vec Ideal S256x256 .bf16)
    (x4 : Vec Ideal S1x256 .f32) (u : Fin 1) (n o : Fin 256) :
    out1_5 (F := Ideal) x0 x1 x2 x3 x4 (ix3 u n o)
      = dotRow (fun cc : Fin 256 => r1_ctxB x0 x1 x2 (laneHead cc) n (laneComp cc)) (fun cc => x3 (ix2 cc o)) + x4 (ix2 (0 : Fin 1) o) := by
  unfold out1_5
  rw [View.canon_unit_zero r1_hz3]
  simp only [View.ld_unit_zero (S := S256x256) r1_hz2, View.ld_unit_zero (S := S1x256) r1_hz2]
  obtain rfl : u = 0 := Subsingleton.elim _ _
  refine (pay_out (acc1 x0 x1 x2) x3 x4 n o).trans ?_
  refine congrArg (· + x4 (ix2 (0 : Fin 1) o)) ?_
  exact Finset.sum_congr rfl fun cc _ => congrArg (· * x3 (ix2 cc o)) (r1_acc_apply x0 x1 x2 n cc)

end Cert.AttnKV

end
-- ==== Proof.KV1.lean ====
import proofs.«153646_j81466939670561_2_alg».proof.Proof.KV1a

noncomputable section

namespace Cert.AttnKV

open Idealize.ShloMosaic Idealize.ShloMosaic.TcCoe Idealize.ShloMosaic.ValueIdx Cert.KernelIdeal Cert.KernelIdeal.Gen Cert.KernelIdeal.Hand Cert.AttnSpec Cert.AttnPay

open Idealize.ShloMosaic.Pipeline (Dat)

/-! ## From blocks to the whole result array

Point `t` of the 8 × 8 grid works on batch `t / 8` and query tile `t % 8`: its query block is rows `256 (t % 8) …` of
that batch's four heads, its key and value blocks the batch's whole tables, its output block rows `256 (t % 8) …` of
the batch's result. The 64 output blocks tile the result array, so the array ends holding one function of the region's
entry contents. -/

-- the buffers' contents when the region is entered
variable (V : (c : Dev nD) → (b : Ref sig .tc) → Buf (Elt Ideal) ((c : Thread nD τ).loc b))

/-- Head `h`'s attention output for token `n` of batch `b`, from the region's entry contents. -/
def ctxV (c : Dev nD) (b : Fin 8) (n : Fin 2048) (h : Fin 4) (d : Fin 64) : EReal :=
  attnRow (fun d' => (V c main_v20_0 : S8x4x2048x64.Idx → EReal) (ix4 b h n d'))
    (fun m d' => (V c main_v20_1 : S8x4x2048x64.Idx → EReal) (ix4 b h m d'))
    (fun m d' => (V c main_v20_2 : S8x4x2048x64.Idx → EReal) (ix4 b h m d')) d

/-- The result at token `n` of batch `b`, channel `o`: the merged heads' row times the weight's column, plus the bias. -/
def r1_outV (c : Dev nD) (b : Fin 8) (n : Fin 2048) (o : Fin 256) : EReal :=
  dotRow (fun cc : Fin 256 => ctxV V c b n (laneHead cc) (laneComp cc)) (fun cc => (V c main_v22 : S256x256.Idx → EReal) (ix2 cc o))
    + (V c main_v23 : S1x256.Idx → EReal) (ix2 (0 : Fin 1) o)

/-- The whole result array, index by index. -/
def r1_G (c : Dev nD) : S8x2048x256.Idx → EReal := fun i => r1_outV V c (i 0) (i 1) (i 2)

theorem r1_outV_congr (c : Dev nD) {b b' : Fin 8} {n n' : Fin 2048} {o o' : Fin 256}
    (eb : b.val = b'.val) (en : n.val = n'.val) (eo : o.val = o'.val) : r1_outV V c b n o = r1_outV V c b' n' o' := by
  obtain rfl := Fin.ext eb
  obtain rfl := Fin.ext en
  obtain rfl := Fin.ext eo
  rfl

/-! ### The grid's points -/

theorem r1_lt (t : Fin cfg1.N) : t.val < 64 := lt_of_lt_of_eq t.isLt N_1

/-- The batch of point `t`. -/
def r1_pb (t : Fin cfg1.N) : Fin 8 := ⟨t.val / 8, by have := r1_lt t; omega⟩
/-- The token of row `n` of point `t`'s query tile. -/
def r1_row (t : Fin cfg1.N) (n : Fin 256) : Fin 2048 := ⟨t.val % 8 * 256 + n.val, by omega⟩

/-! ### The printed index maps, decided once over the grid -/

theorem r1_idx0 : ∀ t : Fin cfg1.N, win1_0.index t (0 : Fin 4) = t.val / 8 ∧ win1_0.index t (1 : Fin 4) = 0
    ∧ win1_0.index t (2 : Fin 4) = t.val % 8 ∧ win1_0.index t (3 : Fin 4) = 0 :=
  (by decide +kernel : ∀ t : Fin grid1.N, _)

theorem r1_idx1 : ∀ t : Fin cfg1.N, win1_1.index t (0 : Fin 4) = t.val / 8 ∧ win1_1.index t (1 : Fin 4) = 0
    ∧ win1_1.index t (2 : Fin 4) = 0 ∧ win1_1.index t (3 : Fin 4) = 0 :=
  (by decide +kernel : ∀ t : Fin grid1.N, _)

theorem r1_idx2 : ∀ t : Fin cfg1.N, win1_2.index t (0 : Fin 4) = t.val / 8 ∧ win1_2.index t (1 : Fin 4) = 0
    ∧ win1_2.index t (2 : Fin 4) = 0 ∧ win1_2.index t (3 : Fin 4) = 0 :=
  (by decide +kernel : ∀ t : Fin grid1.N, _)
theorem r1_idx3 : ∀ t : Fin cfg1.N, win1_3.index t (0 : Fin 2) = 0 ∧ win1_3.index t (1 : Fin 2) = 0 :=
  (by decide +kernel : ∀ t : Fin grid1.N, _)
theorem r1_idx4 : ∀ t : Fin cfg1.N, win1_4.index t (0 : Fin 2) = 0 ∧ win1_4.index t (1 : Fin 2) = 0 :=
  (by decide +kernel : ∀ t : Fin grid1.N, _)
theorem r1_idx5 : ∀ t : Fin cfg1.N, win1_5.index t (0 : Fin 3) = t.val / 8 ∧ win1_5.index t (1 : Fin 3) = t.val % 8
    ∧ win1_5.index t (2 : Fin 3) = 0 :=
  (by decide +kernel : ∀ t : Fin grid1.N, _)

/-! ### The input blocks read off their arrays -/

/-- Window 0's block at point `t`, read at head `h`, row `n`, component `d`. -/
theorem r1_blk0_apply (c : Dev nD) (t : Fin cfg1.N) (h : Fin 4) (n : Fin 256) (d : Fin 64) :
    (iblk1 V c 0 t : Vec Ideal S1x4x256x64 .bf16) (ix4 (0 : Fin 1) h n d)
      = (V c main_v20_0 : S8x4x2048x64.Idx → Elt Ideal .bf16) (ix4 (r1_pb t) h (r1_row t n) d) := by
  obtain ⟨e0, e1, e2, e3⟩ := r1_idx0 t
  unfold iblk1
  show V c main_v20_0 (((cfg1.win 0).blk t).view.emb (ix4 (0 : Fin 1) h n d)) = _
  refine congrArg (V c main_v20_0 : S8x4x2048x64.Idx → Elt Ideal .bf16) (funext fun a => Fin.ext ?_)
  match a with
  | ⟨0, _⟩ => show win1_0.index t (0 : Fin 4) * 1 + 1 * 0 = t.val / 8; omega
  | ⟨1, _⟩ => show win1_0.index t (1 : Fin 4) * 4 + 1 * h.val = h.val; omega
  | ⟨2, _⟩ => show win1_0.index t (2 : Fin 4) * 256 + 1 * n.val = t.val % 8 * 256 + n.val; omega
  | ⟨3, _⟩ => show win1_0.index t (3 : Fin 4) * 64 + 1 * d.val = d.val; omega

/-- Window 1's block at point `t`, read at head `h`, row `n`, component `d`. -/
theorem r1_blk1_apply (c : Dev nD) (t : Fin cfg1.N) (h : Fin 4) (n : Fin 2048) (d : Fin 64) :
    (iblk1 V c 1 t : Vec Ideal S1x4x2048x64 .bf16) (ix4 (0 : Fin 1) h n d)
      = (V c main_v20_1 : S8x4x2048x64.Idx → Elt Ideal .bf16) (ix4 (r1_pb t) h n d) := by
  obtain ⟨e0, e1, e2, e3⟩ := r1_idx1 t
  unfold iblk1
  show V c main_v20_1 (((cfg1.win 1).blk t).view.emb (ix4 (0 : Fin 1) h n d)) = _
  refine congrArg (V c main_v20_1 : S8x4x2048x64.Idx → Elt Ideal .bf16) (funext fun a => Fin.ext ?_)
  match a with
  | ⟨0, _⟩ => show win1_1.index t (0 : Fin 4) * 1 + 1 * 0 = t.val / 8; omega
  | ⟨1, _⟩ => show win1_1.index t (1 : Fin 4) * 4 + 1 * h.val = h.val; omega
  | ⟨2, _⟩ => show win1_1.index t (2 : Fin 4) * 2048 + 1 * n.val = n.val; omega
  | ⟨3, _⟩ => show win1_1.index t (3 : Fin 4) * 64 + 1 * d.val = d.val; omega

/-- Window 2's block at point `t`, read at head `h`, row `n`, component `d`. -/
theorem r1_blk2_apply (c : Dev nD) (t : Fin cfg1.N) (h : Fin 4) (n : Fin 2048) (d : Fin 64) :
    (iblk1 V c 2 t : Vec Ideal S1x4x2048x64 .bf16) (ix4 (0 : Fin 1) h n d)
      = (V c main_v20_2 : S8x4x2048x64.Idx → Elt Ideal .bf16) (ix4 (r1_pb t) h n d) := by
  obtain ⟨e0, e1, e2, e3⟩ := r1_idx2 t
  unfold iblk1
  show V c main_v20_2 (((cfg1.win 2).blk t).view.emb (ix4 (0 : Fin 1) h n d)) = _
  refine congrArg (V c main_v20_2 : S8x4x2048x64.Idx → Elt Ideal .bf16) (funext fun a => Fin.ext ?_)
  match a with
  | ⟨0, _⟩ => show win1_2.index t (0 : Fin 4) * 1 + 1 * 0 = t.val / 8; omega
  | ⟨1, _⟩ => show win1_2.index t (1 : Fin 4) * 4 + 1 * h.val = h.val; omega
  | ⟨2, _⟩ => show win1_2.index t (2 : Fin 4) * 2048 + 1 * n.val = n.val; omega
  | ⟨3, _⟩ => show win1_2.index t (3 : Fin 4) * 64 + 1 * d.val = d.val; omega

/-- The weight's block is the whole weight. -/
theorem r1_blk3_apply (c : Dev nD) (t : Fin cfg1.N) (p o : Fin 256) :
    (iblk1 V c 3 t : Vec Ideal S256x256 .bf16) (ix2 p o) = (V c main_v22 : S256x256.Idx → Elt Ideal .bf16) (ix2 p o) := by
  obtain ⟨e0, e1⟩ := r1_idx3 t
  unfold iblk1
  show V c main_v22 (((cfg1.win 3).blk t).view.emb (ix2 p o)) = _
  refine congrArg (V c main_v22 : S256x256.Idx → Elt Ideal .bf16) (funext fun a => Fin.ext ?_)
  match a with
  | ⟨0, _⟩ => show win1_3.index t (0 : Fin 2) * 256 + 1 * p.val = p.val; omega
  | ⟨1, _⟩ => show win1_3.index t (1 : Fin 2) * 256 + 1 * o.val = o.val; omega

/-- The bias row's block is the whole row. -/
theorem r1_blk4_apply (c : Dev nD) (t : Fin cfg1.N) (o : Fin 256) :
    (iblk1 V c 4 t : Vec Ideal S1x256 .f32) (ix2 (0 : Fin 1) o) = (V c main_v23 : S1x256.Idx → Elt Ideal .f32) (ix2 (0 : Fin 1) o) := by
  obtain ⟨e0, e1⟩ := r1_idx4 t
  unfold iblk1
  show V c main_v23 (((cfg1.win 4).blk t).view.emb (ix2 (0 : Fin 1) o)) = _
  refine congrArg (V c main_v23 : S1x256.Idx → Elt Ideal .f32) (funext fun a => Fin.ext ?_)
  match a with
  | ⟨0, _⟩ => show win1_4.index t (0 : Fin 2) * 1 + 1 * 0 = 0; omega
  | ⟨1, _⟩ => show win1_4.index t (1 : Fin 2) * 256 + 1 * o.val = o.val; omega

/-! ### What a point writes back -/

/-- The output block of point `t`, index by index, is the result at the point's batch and the tile's tokens. -/
theorem r1_point (c : Dev nD) (t : Fin cfg1.N) (y : S1x256x256.Idx) :
    out1_5 (F := Ideal) (iblk1 V c 0 t) (iblk1 V c 1 t) (iblk1 V c 2 t) (iblk1 V c 3 t) (iblk1 V c 4 t) y
      = r1_outV V c (r1_pb t) (r1_row t (y 1)) (y 2) := by
  obtain ⟨u, n, o, rfl⟩ : ∃ (u : Fin 1) (n o : Fin 256), y = ix3 u n o := ⟨y 0, y 1, y 2, eq_ix3 y⟩
  refine (r1_out_apply (iblk1 V c 0 t) (iblk1 V c 1 t) (iblk1 V c 2 t) (iblk1 V c 3 t) (iblk1 V c 4 t) u n o).trans ?_
  show _ = r1_outV V c (r1_pb t) (r1_row t n) o
  unfold r1_outV
  refine congrArg₂ (· + ·) (Finset.sum_congr rfl fun cc _ => congrArg₂ (· * ·) ?_ ?_) ?_
  · exact r1_attnRow_congr (fun d' => r1_blk0_apply V c t (laneHead cc) n d') (fun m d' => r1_blk1_apply V c t (laneHead cc) m d')
      (fun m d' => r1_blk2_apply V c t (laneHead cc) m d') (laneComp cc)
  · exact r1_blk3_apply V c t cc o
  · exact r1_blk4_apply V c t o

/-- WHAT POINT `t` WRITES BACK is block `t` of the result array. -/
theorem r1_flushed (c : Dev nD) (t : Fin cfg1.N) :
    (dat1 (F := Ideal) V c).flushed 5 t = ((cfg1.win 5).blk t).view.read (Elt Ideal) (r1_G V c) := by
  show (cfg1.win 5).cut (grid1.coords t) ((dat1 (F := Ideal) V c).after 5 t) = _
  rw [after1_5]
  obtain ⟨e0, e1, e2⟩ := r1_idx5 t
  funext j
  refine (r1_point V c t ((cfg1.win 5).xinj (grid1.coords t) j)).trans ?_
  have hj0 : (j 0).val < 1 := (j 0).isLt
  refine r1_outV_congr V c ?_ ?_ ?_
  · show t.val / 8 = win1_5.index t (0 : Fin 3) * 1 + 1 * (j 0).val; omega
  · show t.val % 8 * 256 + (j 1).val = win1_5.index t (1 : Fin 3) * 256 + 1 * (j 1).val; omega
  · show (j 2).val = win1_5.index t (2 : Fin 3) * 256 + 1 * (j 2).val; omega

/-! ### The cover -/

/-- An index of the array is in point `t`'s block iff each coordinate is in the block's range on its axis. -/
theorem r1_mem_blk (t : Fin cfg1.N) (i : S8x2048x256.Idx) :
    i ∈ ((cfg1.win 5).blk t).view.set ↔ ∀ a : Fin 3, win1_5.index t a * S1x256x256.size a ≤ (i a).val
      ∧ (i a).val < win1_5.index t a * S1x256x256.size a + S1x256x256.size a := by
  show i ∈ ((View.whole main_v24).slice (win1_5.rect t)).set ↔ _
  rw [View.set_slice_whole, Rect.mem_set_unit]
  exact Iff.rfl

/-- Every index of the result array is in the block of the point of its batch and tile. -/
theorem r1_cover (i : S8x2048x256.Idx) :
    ∃ t : Fin cfg1.N, (cfg1.win 5).flush t = true ∧ i ∈ ((cfg1.win 5).blk t).view.set := by
  have h0 : (i 0).val < 8 := (i 0).isLt
  have h1 : (i 1).val < 2048 := (i 1).isLt
  have h2 : (i 2).val < 256 := (i 2).isLt
  obtain ⟨t, ht⟩ : ∃ t : Fin cfg1.N, t.val = (i 0).val * 8 + (i 1).val / 256 :=
    ⟨⟨(i 0).val * 8 + (i 1).val / 256, by rw [show cfg1.N = 64 from N_1]; omega⟩, rfl⟩
  obtain ⟨e0, e1, e2⟩ := r1_idx5 t
  refine ⟨t, flush1_5 t, ?_⟩
  rw [r1_mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 256 ≤ (i 2).val ∧ (i 2).val < win1_5.index t (2 : Fin 3) * 256 + 256; omega

/-! ### The array after the region -/

/-- THE RESULT ARRAY after the region's last point is the one function of the entry contents. -/
theorem r1_final (c : Dev nD) : (dat1 (F := Ideal) V c).arrAt 5 cfg1.N = r1_G V c :=
  (dat1 (F := Ideal) V c).arrAt_eq_of_cover 5 (r1_G V c) (fun t _ => r1_flushed V c t) r1_cover

/-- Index by index: token `n` of batch `b`, channel `o`. -/
theorem arr1_out (c : Dev nD) (b : Fin 8) (n : Fin 2048) (o : Fin 256) :
    ((dat1 (F := Ideal) V c).arrAt 5 cfg1.N : S8x2048x256.Idx → EReal) (ix3 b n o)
      = dotRow (fun cc : Fin 256 => ctxV V c b n (laneHead cc) (laneComp cc)) (fun cc => (V c main_v22 : S256x256.Idx → EReal) (ix2 cc o))
        + (V c main_v23 : S1x256.Idx → EReal) (ix2 (0 : Fin 1) o) := by
  rw [r1_final]
  rfl

end Cert.AttnKV

end
-- ==== Proof.HostGlueP.lean ====
/-
  The host operations around the two kernels only move data: they reorder the projection weights and biases.
  This module names the column ↦ channel map of the reordered fused weight and reads the two buffers the second
  stretch of host operations writes — the transposed output-projection weight and its bias as a one-row table —
  at an index.
-/
import proofs.«153646_j81466939670561_2_alg».proof.Proof.Gen.KernelIdeal.Launch
import proofs.«153646_j81466939670561_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.AttnGlue

open Idealize.ShloMosaic Idealize.ShloMosaic.TcCoe Idealize.ShloMosaic.ValueIdx Cert.KernelIdeal Cert.KernelIdeal.Gen Cert.AttnSpec
open Idealize.ShloMosaic.StableHlo

/-- Column `j = s·64 + d` of head `h` in the reordered fused weight is channel `s·256 + h·64 + d`. -/
def colChan (h : Fin 4) (j : Fin 192) : Fin 768 := ⟨(j.val / 64) * 256 + h.val * 64 + j.val % 64, by omega⟩

theorem colChan_val (h : Fin 4) (j : Fin 192) : (colChan h j).val = (j.val / 64) * 256 + h.val * 64 + j.val % 64 := rfl

/-- The first 64 columns of a head are its query channels. -/
theorem colChan_q (h : Fin 4) (d : Fin 64) : colChan h ⟨d.val, by omega⟩ = chan 0 h d := by
  apply Fin.ext
  simp only [colChan, chan, Fin.val_zero]
  omega

/-- The next 64 columns are its key channels. -/
theorem colChan_k (h : Fin 4) (d : Fin 64) : colChan h ⟨64 + d.val, by omega⟩ = chan 1 h d := by
  apply Fin.ext
  simp only [colChan, chan, Fin.val_one]
  omega

/-- The last 64 columns are its value channels. -/
theorem colChan_v (h : Fin 4) (d : Fin 64) : colChan h ⟨128 + d.val, by omega⟩ = chan 2 h d := by
  apply Fin.ext
  have h2 : ((2 : Fin 3) : Nat) = 2 := rfl
  simp only [colChan, chan, h2]
  omega

/-- The output-projection weight handed to the second kernel is the transpose of the argument: entry `(c, o)` is
    the argument's entry `(o, c)` (the conversion to the narrower format is the identity over the extended reals). -/
theorem glue_wp (V : Valuation τ sig (Elt Ideal)) (c o : Fin 256) :
    (StableHlo.after (hostOps1 (F := Ideal)) V (Proc.devRef .tc main_v22) : S256x256.Idx → EReal) (ix2 c o)
      = (V (Proc.devRef .tc main_arg3) : S256x256.Idx → EReal) (ix2 o c) := by
  have e : (StableHlo.after (hostOps1 (F := Ideal)) V (Proc.devRef .tc main_v22) : S256x256.Idx → EReal)
      = truncf (F := Ideal) .bf16 (transpose S256x256 [1, 0] (V (Proc.devRef .tc main_arg3) : FVec Ideal S256x256 .f32) transposes_S256x256_S256x256_1_0) bitsLt_bf16_f32 := by
    simp only [hostOps1]; after_results
  rw [e]
  exact transpose_ix2_apply _ _ c o

/-- The output-projection bias handed to the second kernel is the argument as a one-row table. -/
theorem glue_bp (V : Valuation τ sig (Elt Ideal)) (o : Fin 256) :
    (StableHlo.after (hostOps1 (F := Ideal)) V (Proc.devRef .tc main_v23) : S1x256.Idx → EReal) (ix2 0 o)
      = (V (Proc.devRef .tc main_arg4) : S256.Idx → EReal) (ix1 o) := by
  have e : (StableHlo.after (hostOps1 (F := Ideal)) V (Proc.devRef .tc main_v23) : S1x256.Idx → EReal)
      = shapeCast S1x256 (V (Proc.devRef .tc main_arg4)) shapeCasts_S256_S1x256 := by
    simp only [hostOps1]; after_results; rfl
  rw [e]
  exact shapeCast_a_1a_apply _ _ 0 o

end Cert.AttnGlue

end
-- ==== Proof.HostGlueW.lean ====
/-
  The fused projection weight handed to the first kernel, read at an index. The host operations cut the weight's
  768 rows into the query, key and value thirds, cut each third's rows by head, turn each so that the input channel
  leads, lay the three side by side along the last axis and swap the first two axes. Entry `(h, c, j)` of the
  result is therefore entry `(colChan h j, c)` of the argument.
-/
import proofs.«153646_j81466939670561_2_alg».proof.Proof.HostGlueP

noncomputable section

namespace Cert.AttnGlue

open Idealize.ShloMosaic Idealize.ShloMosaic.TcCoe Idealize.ShloMosaic.ValueIdx Cert.KernelIdeal Cert.KernelIdeal.Gen Cert.AttnSpec
open Idealize.ShloMosaic.StableHlo

section Nary3

variable {Val : EltTy → Type} {x a b y : Ref sig .tc}

/-- An operation over a literal family of three operands: its result with each operand's contents at the operand's
    own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Nary3

/-- What a buffer holds after a list of host operations, one operation at a time: the operation that writes the
    buffer gives its function's value, every other operation leaves the buffer as it was. -/
macro "glue_results" : tactic =>
  `(tactic| (simp only [after_cons, after_nil]
             repeat (first
               | rw [unary_result] | rw [reshape_result] | rw [nary3_result]
               | (rw [unary_result_ne]; rotate_left; decide)
               | (rw [reshape_result_ne]; rotate_left; decide)
               | (rw [nary_result_ne]; rotate_left; decide))))

/-- One third of the fused weight — rows `off … off + 255` — cut by heads and turned so that the input channel leads:
    entry `(c, h, d)` is the weight's entry `(off + h·64 + d, c)`. -/
def wPart (W : FVec Ideal S768x256 .f32) (off : Nat) (hs : S768x256.Slices ![off, 0] S256x256) : FVec Ideal S256x4x64 .f32 :=
  transpose S256x4x64 [2, 0, 1]
    (shapeCast S4x64x256 (extractStridedSlice S256x256 ![off, 0] W hs) shapeCasts_S256x256_S4x64x256)
    transposes_S4x64x256_S256x4x64_2_0_1

theorem wPart_apply (W : FVec Ideal S768x256 .f32) (off : Nat) (hs : S768x256.Slices ![off, 0] S256x256)
    (c : Fin 256) (h : Fin 4) (d : Fin 64) (o : Fin 768) (ho : o.val = off + (h.val * 64 + d.val)) :
    wPart W off hs (ix3 c h d) = W (ix2 o c) := by
  unfold wPart
  refine (transpose_apply _ _ _ (ix3 c h d) (ix3 h d c)
    (fun b => match b with | ⟨0, _⟩ => rfl | ⟨1, _⟩ => rfl | ⟨2, _⟩ => rfl)).trans ?_
  refine (shapeCast_apply _ _ (ix3 h d c) (ix2 (⟨h.val * 64 + d.val, by omega⟩ : Fin 256) c) ?_).trans ?_
  · rw [Shape.rowMajor_val_two, Shape.rowMajor_val_three]
    show (h.val * 64 + d.val) * 256 + c.val = (h.val * 64 + d.val) * 256 + c.val
    rfl
  · exact extractStridedSlice_apply _ _ _ _ (ix2 o c) (fun a => match a with
      | ⟨0, _⟩ => by show o.val = off + (h.val * 64 + d.val); exact ho
      | ⟨1, _⟩ => by show c.val = 0 + c.val; omega)

/-- The whole rearrangement as one term of the weight. -/
def wTerm (W : FVec Ideal S768x256 .f32) : FVec Ideal S4x256x192 .bf16 :=
  truncf (F := Ideal) .bf16
    (transpose S4x256x192 [1, 0, 2]
      (concatenate S256x4x192 2
        [⟨S256x4x64, wPart W 0 slices_S768x256_S256x256_0_0⟩,
         ⟨S256x4x64, wPart W 256 slices_S768x256_S256x256_256_0⟩,
         ⟨S256x4x64, wPart W 512 slices_S768x256_S256x256_512_0⟩]
        concatenates_S256x4x64_S256x4x64_S256x4x64_S256x4x192_d2)
      transposes_S256x4x192_S4x256x192_1_0_2)
    bitsLt_bf16_f32

/-- The buffer handed to the kernel holds that term of the weight argument. -/
theorem after_w (V : Valuation τ sig (Elt Ideal)) :
    (StableHlo.after (hostOps0 (F := Ideal)) V (Proc.devRef .tc main_v11) : S4x256x192.Idx → EReal)
      = wTerm (V (Proc.devRef .tc main_arg1)) := by
  simp only [hostOps0]
  glue_results
  rfl

/-- The term read at an index: the third `j / 64`, the head `h` and the component `j % 64` name the weight's row. -/
theorem wTerm_apply (W : FVec Ideal S768x256 .f32) (h : Fin 4) (c : Fin 256) (j : Fin 192) :
    wTerm W (ix3 h c j) = W (ix2 (colChan h j) c) := by
  unfold wTerm
  rw [truncf_apply]
  refine (transpose_apply _ _ _ (ix3 h c j) (ix3 c h j)
    (fun b => match b with | ⟨0, _⟩ => rfl | ⟨1, _⟩ => rfl | ⟨2, _⟩ => rfl)).trans ?_
  have hj := j.isLt
  by_cases h1 : j.val < 64
  · refine (concatenate_apply_piece (2 : Fin 3) _ _ (ix3 c h j) 0 (by show (0 : Nat) < 3; omega) S256x4x64 _ rfl rfl 0 rfl
      (ix3 c h (⟨j.val, h1⟩ : Fin 64))
      (fun b hb => match b, hb with | ⟨0, _⟩, _ => rfl | ⟨1, _⟩, _ => rfl | ⟨2, _⟩, hb => absurd rfl hb)
      (by show 0 + j.val = j.val; omega)).trans ?_
    exact wPart_apply W 0 _ c h _ (colChan h j) (by rw [colChan_val]; show _ = 0 + (h.val * 64 + j.val); omega)
  · by_cases h2 : j.val < 128
    · refine (concatenate_apply_piece (2 : Fin 3) _ _ (ix3 c h j) 1 (by show (1 : Nat) < 3; omega) S256x4x64 _ rfl rfl 64 rfl
        (ix3 c h (⟨j.val - 64, by omega⟩ : Fin 64))
        (fun b hb => match b, hb with | ⟨0, _⟩, _ => rfl | ⟨1, _⟩, _ => rfl | ⟨2, _⟩, hb => absurd rfl hb)
        (by show 64 + (j.val - 64) = j.val; omega)).trans ?_
      exact wPart_apply W 256 _ c h _ (colChan h j)
        (by rw [colChan_val]; show _ = 256 + (h.val * 64 + (j.val - 64)); omega)
    · refine (concatenate_apply_piece (2 : Fin 3) _ _ (ix3 c h j) 2 (by show (2 : Nat) < 3; omega) S256x4x64 _ rfl rfl 128 rfl
        (ix3 c h (⟨j.val - 128, by omega⟩ : Fin 64))
        (fun b hb => match b, hb with | ⟨0, _⟩, _ => rfl | ⟨1, _⟩, _ => rfl | ⟨2, _⟩, hb => absurd rfl hb)
        (by show 128 + (j.val - 128) = j.val; omega)).trans ?_
      exact wPart_apply W 512 _ c h _ (colChan h j)
        (by rw [colChan_val]; show _ = 512 + (h.val * 64 + (j.val - 128)); omega)

/-- The fused weight handed to the first kernel: entry `(h, c, j)` is the argument's entry `(colChan h j, c)`. -/
theorem glue_w (V : Valuation τ sig (Elt Ideal)) (h : Fin 4) (c : Fin 256) (j : Fin 192) :
    (StableHlo.after (hostOps0 (F := Ideal)) V (Proc.devRef .tc main_v11) : S4x256x192.Idx → EReal) (ix3 h c j)
      = (V (Proc.devRef .tc main_arg1) : S768x256.Idx → EReal) (ix2 (colChan h j) c) :=
  (congrFun (after_w V) (ix3 h c j)).trans (wTerm_apply _ h c j)

end Cert.AttnGlue

end
-- ==== Proof.HostGlueB.lean ====
/-
  The fused projection bias handed to the first kernel, read at an index. The host operations cut the bias's 768
  entries into the query, key and value thirds, cut each third by head, lay the three side by side along the last
  axis and insert a unit axis. Entry `(h, 0, j)` of the result is therefore entry `colChan h j` of the argument.
-/
import proofs.«153646_j81466939670561_2_alg».proof.Proof.HostGlueW

noncomputable section

namespace Cert.AttnGlue

open Idealize.ShloMosaic Idealize.ShloMosaic.TcCoe Idealize.ShloMosaic.ValueIdx Cert.KernelIdeal Cert.KernelIdeal.Gen Cert.AttnSpec
open Idealize.ShloMosaic.StableHlo

/-- One third of the fused bias — entries `off … off + 255` — cut by heads: entry `(h, d)` is the bias's entry
    `off + h·64 + d`. -/
def bPart (B : FVec Ideal S768 .f32) (off : Nat) (hs : S768.Slices ![off] S256) : FVec Ideal S4x64 .f32 :=
  shapeCast S4x64 (extractStridedSlice S256 ![off] B hs) shapeCasts_S256_S4x64

theorem bPart_apply (B : FVec Ideal S768 .f32) (off : Nat) (hs : S768.Slices ![off] S256)
    (h : Fin 4) (d : Fin 64) (o : Fin 768) (ho : o.val = off + (h.val * 64 + d.val)) :
    bPart B off hs (ix2 h d) = B (ix1 o) := by
  unfold bPart
  refine (shapeCast_apply _ _ (ix2 h d) (ix1 (⟨h.val * 64 + d.val, by omega⟩ : Fin 256)) ?_).trans ?_
  · rw [Shape.rowMajor_val_one, Shape.rowMajor_val_two]
    show h.val * 64 + d.val = h.val * 64 + d.val
    rfl
  · exact extractStridedSlice_apply _ _ _ _ (ix1 o) (fun a => match a with
      | ⟨0, _⟩ => by show o.val = off + (h.val * 64 + d.val); exact ho)

/-- The whole rearrangement as one term of the bias. -/
def bTerm (B : FVec Ideal S768 .f32) : FVec Ideal S4x1x192 .f32 :=
  shapeCast S4x1x192
    (concatenate S4x192 1
      [⟨S4x64, bPart B 0 slices_S768_S256_0⟩,
       ⟨S4x64, bPart B 256 slices_S768_S256_256⟩,
       ⟨S4x64, bPart B 512 slices_S768_S256_512⟩]
      concatenates_S4x64_S4x64_S4x64_S4x192_d1)
    shapeCasts_S4x192_S4x1x192

/-- The buffer handed to the kernel holds that term of the bias argument. -/
theorem after_b (V : Valuation τ sig (Elt Ideal)) :
    (StableHlo.after (hostOps0 (F := Ideal)) V (Proc.devRef .tc main_v19) : S4x1x192.Idx → EReal)
      = bTerm (V (Proc.devRef .tc main_arg2)) := by
  simp only [hostOps0]
  glue_results
  rfl

/-- The term read at an index: the third `j / 64`, the head `h` and the component `j % 64` name the bias's entry. -/
theorem bTerm_apply (B : FVec Ideal S768 .f32) (h : Fin 4) (j : Fin 192) :
    bTerm B (ix3 h 0 j) = B (ix1 (colChan h j)) := by
  unfold bTerm
  refine (shapeCast_apply _ _ (ix3 h (0 : Fin 1) j) (ix2 h j) ?_).trans ?_
  · rw [Shape.rowMajor_val_two, Shape.rowMajor_val_three]
    show h.val * 192 + j.val = (h.val * 1 + 0) * 192 + j.val
    omega
  have hj := j.isLt
  by_cases h1 : j.val < 64
  · refine (concatenate_apply_piece (1 : Fin 2) _ _ (ix2 h j) 0 (by show (0 : Nat) < 3; omega) S4x64 _ rfl rfl 0 rfl
      (ix2 h (⟨j.val, h1⟩ : Fin 64))
      (fun b hb => match b, hb with | ⟨0, _⟩, _ => rfl | ⟨1, _⟩, hb => absurd rfl hb)
      (by show 0 + j.val = j.val; omega)).trans ?_
    exact bPart_apply B 0 _ h _ (colChan h j) (by rw [colChan_val]; show _ = 0 + (h.val * 64 + j.val); omega)
  · by_cases h2 : j.val < 128
    · refine (concatenate_apply_piece (1 : Fin 2) _ _ (ix2 h j) 1 (by show (1 : Nat) < 3; omega) S4x64 _ rfl rfl 64 rfl
        (ix2 h (⟨j.val - 64, by omega⟩ : Fin 64))
        (fun b hb => match b, hb with | ⟨0, _⟩, _ => rfl | ⟨1, _⟩, hb => absurd rfl hb)
        (by show 64 + (j.val - 64) = j.val; omega)).trans ?_
      exact bPart_apply B 256 _ h _ (colChan h j)
        (by rw [colChan_val]; show _ = 256 + (h.val * 64 + (j.val - 64)); omega)
    · refine (concatenate_apply_piece (1 : Fin 2) _ _ (ix2 h j) 2 (by show (2 : Nat) < 3; omega) S4x64 _ rfl rfl 128 rfl
        (ix2 h (⟨j.val - 128, by omega⟩ : Fin 64))
        (fun b hb => match b, hb with | ⟨0, _⟩, _ => rfl | ⟨1, _⟩, hb => absurd rfl hb)
        (by show 128 + (j.val - 128) = j.val; omega)).trans ?_
      exact bPart_apply B 512 _ h _ (colChan h j)
        (by rw [colChan_val]; show _ = 512 + (h.val * 64 + (j.val - 128)); omega)

/-- The fused bias handed to the first kernel: entry `(h, 0, j)` is the argument's entry `colChan h j`. -/
theorem glue_b (V : Valuation τ sig (Elt Ideal)) (h : Fin 4) (j : Fin 192) :
    (StableHlo.after (hostOps0 (F := Ideal)) V (Proc.devRef .tc main_v19) : S4x1x192.Idx → EReal) (ix3 h 0 j)
      = (V (Proc.devRef .tc main_arg2) : S768.Idx → EReal) (ix1 (colChan h j)) :=
  (congrFun (after_b V) (ix3 h 0 j)).trans (bTerm_apply _ h j)

end Cert.AttnGlue

end
-- ==== Proof.HostGlue.lean ====
/-
  The host operations of the kernel program read at an index: the four buffers the kernels take from them are
  rearrangements of the projection weights and biases (the column ↦ channel map is `colChan`).
-/
import proofs.«153646_j81466939670561_2_alg».proof.Proof.HostGlueP
import proofs.«153646_j81466939670561_2_alg».proof.Proof.HostGlueW
import proofs.«153646_j81466939670561_2_alg».proof.Proof.HostGlueB
-- ==== Proof.KValue.lean ====
/-
  The kernel program's result is the specification's function of the arguments.

  Walk the run backwards.  The result array is what the attention kernel's write-backs leave: at (b, n, o) the merged
  heads' row of token n times row o of the output weight, plus the bias, the heads' rows being the attention of the
  query, key and value tables the kernel is entered with.  Those tables are what the projection kernel's write-backs
  left: at (b, h, n, d) row n of batch b times column s·64 + d of head h's rearranged weight block, plus the rearranged
  bias.  The rearranged weight at (h, c, s·64 + d) is the fused weight at (s·256 + h·64 + d, c), the rearranged bias
  likewise, the output weight is transposed and its bias reshaped, and no operation before a region changes what an
  earlier one left.  Substituting gives the specification term by term; no sum is rearranged.
-/
import proofs.«153646_j81466939670561_2_alg».proof.Proof.KI.Run
import proofs.«153646_j81466939670561_2_alg».proof.Proof.KV0
import proofs.«153646_j81466939670561_2_alg».proof.Proof.KV1
import proofs.«153646_j81466939670561_2_alg».proof.Proof.HostGlue
import proofs.«153646_j81466939670561_2_alg».proof.Proof.Spec

noncomputable section

namespace Cert.AttnKV

open Idealize.ShloMosaic Idealize.ShloMosaic.TcCoe Idealize.ShloMosaic.ValueIdx Idealize.SL.Sem
open Cert.KernelIdeal Cert.KernelIdeal.Gen Cert.KernelIdeal.Hand Cert.AttnSpec Cert.AttnGlue

variable (m : (ℓ : Loc nD τ sig) → Buf (Elt Ideal) ℓ) (ρ : Dev nD → PrngReg) (c : Dev nD)

/-- The five argument arrays at launch, as functions of their indices. -/
abbrev aX : S8x2048x256.Idx → EReal := m ((c.tc : Thread nD τ).loc main_arg0)
abbrev aW : S768x256.Idx → EReal := m ((c.tc : Thread nD τ).loc main_arg1)
abbrev aB : S768.Idx → EReal := m ((c.tc : Thread nD τ).loc main_arg2)
abbrev aP : S256x256.Idx → EReal := m ((c.tc : Thread nD τ).loc main_arg3)
abbrev aQ : S256.Idx → EReal := m ((c.tc : Thread nD τ).loc main_arg4)

/-! ## What the projection kernel is entered with -/

theorem V1_x : (V1 m ρ c main_arg0 : S8x2048x256.Idx → EReal) = aX m c :=
  StableHlo.after_of_writes_sub hostOps0 _ hostOps0_writes (by decide)
theorem V1_w (h : Fin 4) (cc : Fin 256) (j : Fin 192) :
    (V1 m ρ c main_v11 : S4x256x192.Idx → EReal) (ix3 h cc j) = aW m c (ix2 (colChan h j) cc) :=
  glue_w (W0 m ρ c) h cc j
theorem V1_b (h : Fin 4) (j : Fin 192) :
    (V1 m ρ c main_v19 : S4x1x192.Idx → EReal) (ix3 h 0 j) = aB m c (ix1 (colChan h j)) :=
  glue_b (W0 m ρ c) h j

/-- The projected slab is the fused projection at the column's channel. -/
theorem slab_eq (b : Fin 8) (h : Fin 4) (n : Fin 2048) (j : Fin 192) :
    slab (V1 m ρ) c b h n j = proj (aX m c) (aW m c) (aB m c) b n (colChan h j) := by
  unfold slab proj
  rw [V1_x, V1_b]
  refine congrArg (· + _) ?_
  unfold dotRow
  exact Finset.sum_congr rfl fun cc _ => by dsimp only; rw [V1_w]

/-! ## What the attention kernel is entered with -/

theorem V3_of_W2 (r : Ref sig .tc) (hr : r ∉ hostOps1_W) : V3 m ρ c r = W2 m ρ c (Proc.devRef .tc r) :=
  StableHlo.after_of_writes_sub hostOps1 _ hostOps1_writes hr

theorem V3_q (b : Fin 8) (h : Fin 4) (n : Fin 2048) (d : Fin 64) :
    (V3 m ρ c main_v20_0 : S8x4x2048x64.Idx → EReal) (ix4 b h n d) = part (aX m c) (aW m c) (aB m c) 0 b h n d := by
  rw [V3_of_W2 m ρ c main_v20_0 (by decide)]
  refine (congrFun (W2_arr m ρ c 3) _).trans ?_
  rw [arr0_q, slab_eq, colChan_q]; rfl
theorem V3_k (b : Fin 8) (h : Fin 4) (n : Fin 2048) (d : Fin 64) :
    (V3 m ρ c main_v20_1 : S8x4x2048x64.Idx → EReal) (ix4 b h n d) = part (aX m c) (aW m c) (aB m c) 1 b h n d := by
  rw [V3_of_W2 m ρ c main_v20_1 (by decide)]
  refine (congrFun (W2_arr m ρ c 4) _).trans ?_
  rw [arr0_k, slab_eq, colChan_k]; rfl
theorem V3_v (b : Fin 8) (h : Fin 4) (n : Fin 2048) (d : Fin 64) :
    (V3 m ρ c main_v20_2 : S8x4x2048x64.Idx → EReal) (ix4 b h n d) = part (aX m c) (aW m c) (aB m c) 2 b h n d := by
  rw [V3_of_W2 m ρ c main_v20_2 (by decide)]
  refine (congrFun (W2_arr m ρ c 5) _).trans ?_
  rw [arr0_v, slab_eq, colChan_v]; rfl

/-- An argument array is still as launched when the attention kernel is entered. -/
theorem W2_arg3 : (W2 m ρ c (Proc.devRef .tc main_arg3) : S256x256.Idx → EReal) = aP m c :=
  (W2_of_ne m ρ c main_arg3 (by decide)).trans (StableHlo.after_of_writes_sub hostOps0 _ hostOps0_writes (by decide))
theorem W2_arg4 : (W2 m ρ c (Proc.devRef .tc main_arg4) : S256.Idx → EReal) = aQ m c :=
  (W2_of_ne m ρ c main_arg4 (by decide)).trans (StableHlo.after_of_writes_sub hostOps0 _ hostOps0_writes (by decide))

theorem V3_wp (cc o : Fin 256) : (V3 m ρ c main_v22 : S256x256.Idx → EReal) (ix2 cc o) = aP m c (ix2 o cc) := by
  refine (glue_wp (W2 m ρ c) cc o).trans ?_
  rw [W2_arg3]
theorem V3_bp (o : Fin 256) : (V3 m ρ c main_v23 : S1x256.Idx → EReal) (ix2 0 o) = aQ m c (ix1 o) := by
  refine (glue_bp (W2 m ρ c) o).trans ?_
  rw [W2_arg4]

/-- The attention output the kernel computes from its entry contents is the specification's. -/
theorem ctxV_eq (b : Fin 8) (n : Fin 2048) (h : Fin 4) (d : Fin 64) :
    ctxV (V3 m ρ) c b n h d = ctx (aX m c) (aW m c) (aB m c) b n h d := by
  unfold ctxV ctx
  have hq : (fun d' => (V3 m ρ c main_v20_0 : S8x4x2048x64.Idx → EReal) (ix4 b h n d')) = part (aX m c) (aW m c) (aB m c) 0 b h n :=
    funext fun d' => V3_q m ρ c b h n d'
  have hk : (fun mm d' => (V3 m ρ c main_v20_1 : S8x4x2048x64.Idx → EReal) (ix4 b h mm d')) = part (aX m c) (aW m c) (aB m c) 1 b h :=
    funext fun mm => funext fun d' => V3_k m ρ c b h mm d'
  have hv : (fun mm d' => (V3 m ρ c main_v20_2 : S8x4x2048x64.Idx → EReal) (ix4 b h mm d')) = part (aX m c) (aW m c) (aB m c) 2 b h :=
    funext fun mm => funext fun d' => V3_v m ρ c b h mm d'
  rw [hq, hk, hv]

/-- The result array after the run is the specification's function of the argument arrays. -/
theorem kernel_value :
    ((dat1 (F := Ideal) (V3 m ρ) c).arrAt 5 cfg1.N : S8x2048x256.Idx → EReal)
      = G (aX m c) (aW m c) (aB m c) (aP m c) (aQ m c) := by
  funext i
  obtain ⟨b, n, o, rfl⟩ : ∃ (b : Fin 8) (n : Fin 2048) (o : Fin 256), i = ix3 b n o := ⟨i 0, i 1, i 2, eq_ix3 i⟩
  rw [arr1_out, G_ix3]
  unfold out ctxRow
  rw [V3_bp]
  refine congrArg (· + _) ?_
  unfold dotRow
  exact Finset.sum_congr rfl fun cc _ => by dsimp only; rw [ctxV_eq, V3_wp]

end Cert.AttnKV

end
-- ==== Proof.RefProj.lean ====
/-
  The fused projection of the reference, and its query, key and value tables, read index by index.

  The first four operations compute, at (b, n, o), the row x[b, n, :] times the row W[o, :] plus bq[o]; the
  reshape to [8, 2048, 3, 4, 64], the transpose to [3, 8, 4, 2048, 64], the slice of part s and the reshape to
  [8, 4, 2048, 64] read that array at channel s·256 + h·64 + d.
-/
import proofs.«153646_j81466939670561_2_alg».proof.Proof.Gen.ReferenceIdeal.Read
import proofs.«153646_j81466939670561_2_alg».proof.Proof.Spec
import Idealize.ShloMosaic.PureOps.Ideal.Laws
import Idealize.ShloMosaic.Lib.ValueIdx
import Idealize.ShloMosaic.Lib.Pipeline.Value

noncomputable section

namespace Cert.AttnRef

open Idealize.ShloMosaic Idealize.ShloMosaic.ValueIdx Cert.ReferenceIdeal Cert.ReferenceIdeal.Read Cert.AttnSpec

variable (x : (⟨3, ![8, 2048, 256]⟩ : Shape).Idx → EReal) (W : (⟨2, ![768, 256]⟩ : Shape).Idx → EReal)
  (bq : (⟨1, ![768]⟩ : Shape).Idx → EReal)

/-- The projection stage at (b, n, o) is the specification's `proj`. -/
theorem proj_stage (b : Fin 8) (n : Fin 2048) (o : Fin 768) :
    val_main_v3 (F := Ideal) x W bq (ix3 b n o) = proj x W bq b n o := by
  rw [val_main_v3_apply, val_main_v0_apply, val_main_v2_apply, val_main_v1_apply]
  have el : ∀ k : Fin 256, lidx_main_v0 (ix3 b n o) k = ix3 b n k := fun k => funext fun a => Fin.ext (by
    match a with | ⟨0, _⟩ => rfl | ⟨1, _⟩ => rfl | ⟨2, _⟩ => rfl)
  have er : ∀ k : Fin 256, ridx_main_v0 (ix3 b n o) k = ix2 o k := fun k => funext fun a => Fin.ext (by
    match a with | ⟨0, _⟩ => rfl | ⟨1, _⟩ => rfl)
  have eb : idx_main_v1 (idx_main_v2 (ix3 b n o)) = ix1 o := funext fun a => Fin.ext (by
    match a with | ⟨0, _⟩ => rfl)
  rw [eb]
  simp only [el, er]
  rfl

/-- The reshape [8, 2048, 768] → [8, 2048, 3, 4, 64] reads channel s·256 + h·64 + d. -/
theorem idx4_eq (b : Fin 8) (n : Fin 2048) (s : Fin 3) (h : Fin 4) (d : Fin 64) :
    idx_main_v4 (ix5 b n s h d) = ix3 b n (chan s h d) := by
  have hb := b.isLt; have hn := n.isLt; have hs := s.isLt; have hh := h.isLt; have hd := d.isLt
  refine funext fun a => Fin.ext ?_
  match a with
  | ⟨0, _⟩ => show ((((b.val * 2048 + n.val) * 3 + s.val) * 4 + h.val) * 64 + d.val) / 1572864 = b.val; omega
  | ⟨1, _⟩ => show ((((b.val * 2048 + n.val) * 3 + s.val) * 4 + h.val) * 64 + d.val) / 768 % 2048 = n.val; omega
  | ⟨2, _⟩ => show ((((b.val * 2048 + n.val) * 3 + s.val) * 4 + h.val) * 64 + d.val) % 768 = s.val * 256 + h.val * 64 + d.val; omega

/-- The transpose [2, 0, 3, 1, 4] reads (b, n, s, h, d) at (s, b, h, n, d). -/
theorem idx5_eq (s : Fin 3) (b : Fin 8) (h : Fin 4) (n : Fin 2048) (d : Fin 64) :
    idx_main_v5 (ix5 s b h n d) = ix5 b n s h d := funext fun a => Fin.ext (by
  match a with | ⟨0, _⟩ => rfl | ⟨1, _⟩ => rfl | ⟨2, _⟩ => rfl | ⟨3, _⟩ => rfl | ⟨4, _⟩ => rfl)

/-- The transposed array at (s, b, h, n, d) is part s of the projection. -/
theorem v5_stage (s : Fin 3) (b : Fin 8) (h : Fin 4) (n : Fin 2048) (d : Fin 64) :
    val_main_v5 (F := Ideal) x W bq (ix5 s b h n d) = part x W bq s b h n d := by
  rw [val_main_v5_apply, idx5_eq, val_main_v4_apply, idx4_eq, proj_stage]
  rfl

/-- The reshape [1, 8, 4, 2048, 64] → [8, 4, 2048, 64] drops the unit axis. -/
theorem idx7_eq (b : Fin 8) (h : Fin 4) (n : Fin 2048) (d : Fin 64) :
    idx_main_v7 (ix4 b h n d) = ix5 (0 : Fin 1) b h n d := by
  have hb := b.isLt; have hn := n.isLt; have hh := h.isLt; have hd := d.isLt
  refine funext fun a => Fin.ext ?_
  match a with
  | ⟨0, _⟩ => rfl
  | ⟨1, _⟩ => show (((b.val * 4 + h.val) * 2048 + n.val) * 64 + d.val) / 524288 % 8 = b.val; omega
  | ⟨2, _⟩ => show (((b.val * 4 + h.val) * 2048 + n.val) * 64 + d.val) / 131072 % 4 = h.val; omega
  | ⟨3, _⟩ => show (((b.val * 4 + h.val) * 2048 + n.val) * 64 + d.val) / 64 % 2048 = n.val; omega
  | ⟨4, _⟩ => show (((b.val * 4 + h.val) * 2048 + n.val) * 64 + d.val) % 64 = d.val; omega

theorem idx9_eq (b : Fin 8) (h : Fin 4) (n : Fin 2048) (d : Fin 64) :
    idx_main_v9 (ix4 b h n d) = ix5 (0 : Fin 1) b h n d := idx7_eq b h n d

theorem idx11_eq (b : Fin 8) (h : Fin 4) (n : Fin 2048) (d : Fin 64) :
    idx_main_v11 (ix4 b h n d) = ix5 (0 : Fin 1) b h n d := idx7_eq b h n d

/-- The three slices read parts 0, 1, 2. -/
theorem idx6_eq (b : Fin 8) (h : Fin 4) (n : Fin 2048) (d : Fin 64) :
    idx_main_v6 (ix5 (0 : Fin 1) b h n d) = ix5 (0 : Fin 3) b h n d := funext fun a => Fin.ext (by
  match a with | ⟨0, _⟩ => rfl | ⟨1, _⟩ => rfl | ⟨2, _⟩ => rfl | ⟨3, _⟩ => rfl | ⟨4, _⟩ => rfl)

theorem idx8_eq (b : Fin 8) (h : Fin 4) (n : Fin 2048) (d : Fin 64) :
    idx_main_v8 (ix5 (0 : Fin 1) b h n d) = ix5 (1 : Fin 3) b h n d := funext fun a => Fin.ext (by
  match a with | ⟨0, _⟩ => rfl | ⟨1, _⟩ => rfl | ⟨2, _⟩ => rfl | ⟨3, _⟩ => rfl | ⟨4, _⟩ => rfl)

theorem idx10_eq (b : Fin 8) (h : Fin 4) (n : Fin 2048) (d : Fin 64) :
    idx_main_v10 (ix5 (0 : Fin 1) b h n d) = ix5 (2 : Fin 3) b h n d := funext fun a => Fin.ext (by
  match a with | ⟨0, _⟩ => rfl | ⟨1, _⟩ => rfl | ⟨2, _⟩ => rfl | ⟨3, _⟩ => rfl | ⟨4, _⟩ => rfl)

/-- The query table at (b, h, n, d). -/
theorem query_stage (b : Fin 8) (h : Fin 4) (n : Fin 2048) (d : Fin 64) :
    val_main_v7 (F := Ideal) x W bq (ix4 b h n d) = part x W bq 0 b h n d := by
  rw [val_main_v7_apply, idx7_eq, val_main_v6_apply, idx6_eq, v5_stage]

/-- The key table at (b, h, n, d). -/
theorem key_stage (b : Fin 8) (h : Fin 4) (n : Fin 2048) (d : Fin 64) :
    val_main_v9 (F := Ideal) x W bq (ix4 b h n d) = part x W bq 1 b h n d := by
  rw [val_main_v9_apply, idx9_eq, val_main_v8_apply, idx8_eq, v5_stage]

/-- The value table at (b, h, n, d). -/
theorem value_stage (b : Fin 8) (h : Fin 4) (n : Fin 2048) (d : Fin 64) :
    val_main_v11 (F := Ideal) x W bq (ix4 b h n d) = part x W bq 2 b h n d := by
  rw [val_main_v11_apply, idx11_eq, val_main_v10_apply, idx10_eq, v5_stage]

end Cert.AttnRef

end
-- ==== Proof.RefScore.lean ====
/-
  The reference's softmax, read index by index.

  The scores at (b, h, n, m) are the query row n times the key row m, scaled by 1/8; the row maximum is the fold of
  max from −∞ over the key positions (and its maximum with −∞ again, which changes nothing); the shifted
  exponentials, their sum from 0, and the quotient follow operation by operation.
-/
import proofs.«153646_j81466939670561_2_alg».proof.Proof.RefProj
import Idealize.ShloMosaic.PureOps.Reduce

noncomputable section

namespace Cert.AttnRef

open Idealize.ShloMosaic Idealize.ShloMosaic.ValueIdx Cert.ReferenceIdeal Cert.ReferenceIdeal.Gen Cert.ReferenceIdeal.Read Cert.AttnSpec

variable (x : (⟨3, ![8, 2048, 256]⟩ : Shape).Idx → EReal) (W : (⟨2, ![768, 256]⟩ : Shape).Idx → EReal)
  (bq : (⟨1, ![768]⟩ : Shape).Idx → EReal)

/-- The scaled scores at (b, h, n, m). -/
theorem score_stage (b : Fin 8) (h : Fin 4) (n m : Fin 2048) :
    val_main_v14 (F := Ideal) x W bq (ix4 b h n m)
      = scoreRow (part x W bq 0 b h n) (part x W bq 1 b h) m := by
  rw [val_main_v14_apply, val_main_v12_apply, val_main_v13_apply, val_main_cst_apply]
  have el : ∀ k : Fin 64, lidx_main_v12 (ix4 b h n m) k = ix4 b h n k := fun k => funext fun a => Fin.ext (by
    match a with | ⟨0, _⟩ => rfl | ⟨1, _⟩ => rfl | ⟨2, _⟩ => rfl | ⟨3, _⟩ => rfl)
  have er : ∀ k : Fin 64, ridx_main_v12 (ix4 b h n m) k = ix4 b h m k := fun k => funext fun a => Fin.ext (by
    match a with | ⟨0, _⟩ => rfl | ⟨1, _⟩ => rfl | ⟨2, _⟩ => rfl | ⟨3, _⟩ => rfl)
  simp only [el, er, query_stage, key_stage]
  rfl

/-- The max-reduce over the key positions at (b, h, n): the fold of max from −∞. -/
theorem reduce_max_stage (b : Fin 8) (h : Fin 4) (n : Fin 2048) :
    val_main_v15 (F := Ideal) x W bq (ix3 b h n)
      = rowMax (part x W bq 0 b h n) (part x W bq 1 b h) := by
  unfold val_main_v15
  refine (Host.reduce_eq_fold_single FloatOps.maximumf _ _ reducesTo_S8x4x2048x2048_S8x4x2048_d3 (by decide) h_S_
    (ix3 b h n)).trans ?_
  unfold rowMax
  refine Finset.fold_congr (fun k _ => ?_)
  have ek : (by decide : S8x4x2048x2048.Reduces [3] S8x4x2048).lift (ix3 b h n) k = ix4 b h n k :=
    funext fun a => Fin.ext (by
      match a with | ⟨0, _⟩ => rfl | ⟨1, _⟩ => rfl | ⟨2, _⟩ => rfl | ⟨3, _⟩ => rfl)
  show val_main_v14 (F := Ideal) x W bq _ = _
  rw [ek]
  exact score_stage x W bq b h n k

/-- The row maximum at (b, h, n): the maximum with −∞ of a fold that starts from −∞ is that fold. -/
theorem max_stage (b : Fin 8) (h : Fin 4) (n : Fin 2048) :
    val_main_v17 (F := Ideal) x W bq (ix3 b h n)
      = rowMax (part x W bq 0 b h n) (part x W bq 1 b h) := by
  rw [val_main_v17_apply, val_main_v16_apply, val_main_cst_1_apply, reduce_max_stage]
  exact max_eq_right ((Finset.le_fold_max _).2 (Or.inl le_rfl))

/-- The shifted exponentials at (b, h, n, m). -/
theorem exp_stage (b : Fin 8) (h : Fin 4) (n m : Fin 2048) :
    val_main_v21 (F := Ideal) x W bq (ix4 b h n m)
      = expRow (part x W bq 0 b h n) (part x W bq 1 b h) m := by
  rw [val_main_v21_apply, val_main_v20_apply, val_main_v19_apply, val_main_v18_apply]
  have e : idx_main_v18 (idx_main_v19 (ix4 b h n m)) = ix3 b h n := funext fun a => Fin.ext (by
    match a with | ⟨0, _⟩ => rfl | ⟨1, _⟩ => rfl | ⟨2, _⟩ => rfl)
  rw [e, score_stage, max_stage]
  rfl

/-- The sum of the exponentials at (b, h, n). -/
theorem sum_stage (b : Fin 8) (h : Fin 4) (n : Fin 2048) :
    val_main_v22 (F := Ideal) x W bq (ix3 b h n)
      = expSum (part x W bq 0 b h n) (part x W bq 1 b h) := by
  rw [val_main_v22_apply, val_main_cst_2_apply]
  have e : ∀ k : Fin 2048, idx_main_v22 (ix3 b h n) k = ix4 b h n k := fun k => funext fun a => Fin.ext (by
    match a with | ⟨0, _⟩ => rfl | ⟨1, _⟩ => rfl | ⟨2, _⟩ => rfl | ⟨3, _⟩ => rfl)
  simp only [e, exp_stage]
  rw [Ideal.ofBits_def, Ideal.ofBits_zero_f32, zero_add]
  rfl

/-- The softmax weights at (b, h, n, m). -/
theorem weight_stage (b : Fin 8) (h : Fin 4) (n m : Fin 2048) :
    val_main_v25 (F := Ideal) x W bq (ix4 b h n m)
      = Ideal.div (expRow (part x W bq 0 b h n) (part x W bq 1 b h) m)
          (expSum (part x W bq 0 b h n) (part x W bq 1 b h)) := by
  rw [val_main_v25_apply, val_main_v24_apply, val_main_v23_apply]
  have e : idx_main_v23 (idx_main_v24 (ix4 b h n m)) = ix3 b h n := funext fun a => Fin.ext (by
    match a with | ⟨0, _⟩ => rfl | ⟨1, _⟩ => rfl | ⟨2, _⟩ => rfl)
  rw [e, exp_stage, sum_stage]
  rfl

end Cert.AttnRef

end
-- ==== Proof.RefOut.lean ====
/-
  The reference's attention output, the merge of the heads and the output projection, read index by index;
  and the whole result as the specification's function of the five arguments.
-/
import proofs.«153646_j81466939670561_2_alg».proof.Proof.RefScore

noncomputable section

namespace Cert.AttnRef

open Idealize.ShloMosaic Idealize.ShloMosaic.ValueIdx Cert.ReferenceIdeal Cert.ReferenceIdeal.Gen Cert.ReferenceIdeal.Read Cert.AttnSpec

variable (x : (⟨3, ![8, 2048, 256]⟩ : Shape).Idx → EReal) (W : (⟨2, ![768, 256]⟩ : Shape).Idx → EReal)
  (bq : (⟨1, ![768]⟩ : Shape).Idx → EReal) (Wp : (⟨2, ![256, 256]⟩ : Shape).Idx → EReal)
  (bp : (⟨1, ![256]⟩ : Shape).Idx → EReal)

/-- The weights times the values at (b, h, n, d): head h's attention output for token n. -/
theorem ctx_stage (b : Fin 8) (h : Fin 4) (n : Fin 2048) (d : Fin 64) :
    val_main_v26 (F := Ideal) x W bq (ix4 b h n d) = ctx x W bq b n h d := by
  rw [val_main_v26_apply]
  have el : ∀ k : Fin 2048, lidx_main_v26 (ix4 b h n d) k = ix4 b h n k := fun k => funext fun a => Fin.ext (by
    match a with | ⟨0, _⟩ => rfl | ⟨1, _⟩ => rfl | ⟨2, _⟩ => rfl | ⟨3, _⟩ => rfl)
  have er : ∀ k : Fin 2048, ridx_main_v26 (ix4 b h n d) k = ix4 b h k d := fun k => funext fun a => Fin.ext (by
    match a with | ⟨0, _⟩ => rfl | ⟨1, _⟩ => rfl | ⟨2, _⟩ => rfl | ⟨3, _⟩ => rfl)
  simp only [el, er, weight_stage, value_stage]
  rfl

/-- The reshape [8, 2048, 4, 64] → [8, 2048, 256] reads lane c at head c / 64, component c % 64. -/
theorem idx28_eq (b : Fin 8) (n : Fin 2048) (c : Fin 256) :
    idx_main_v28 (ix3 b n c) = ix4 b n (laneHead c) (laneComp c) := by
  have hb := b.isLt; have hn := n.isLt; have hc := c.isLt
  refine funext fun a => Fin.ext ?_
  match a with
  | ⟨0, _⟩ => show ((b.val * 2048 + n.val) * 256 + c.val) / 524288 = b.val; omega
  | ⟨1, _⟩ => show ((b.val * 2048 + n.val) * 256 + c.val) / 256 % 2048 = n.val; omega
  | ⟨2, _⟩ => show ((b.val * 2048 + n.val) * 256 + c.val) / 64 % 4 = c.val / 64; omega
  | ⟨3, _⟩ => show ((b.val * 2048 + n.val) * 256 + c.val) % 64 = c.val % 64; omega

/-- The transpose [0, 2, 1, 3] exchanges the token and the head. -/
theorem idx27_eq (b : Fin 8) (n : Fin 2048) (h : Fin 4) (d : Fin 64) :
    idx_main_v27 (ix4 b n h d) = ix4 b h n d := funext fun a => Fin.ext (by
  match a with | ⟨0, _⟩ => rfl | ⟨1, _⟩ => rfl | ⟨2, _⟩ => rfl | ⟨3, _⟩ => rfl)

/-- The merged heads at (b, n, c). -/
theorem ctxRow_stage (b : Fin 8) (n : Fin 2048) (c : Fin 256) :
    val_main_v28 (F := Ideal) x W bq (ix3 b n c) = ctxRow x W bq b n c := by
  rw [val_main_v28_apply, idx28_eq, val_main_v27_apply, idx27_eq, ctx_stage]
  rfl

/-- The output projection at (b, n, o). -/
theorem out_stage (b : Fin 8) (n : Fin 2048) (o : Fin 256) :
    val_main_v32 (F := Ideal) x W bq Wp bp (ix3 b n o) = out x W bq Wp bp b n o := by
  rw [val_main_v32_apply, val_main_v29_apply, val_main_v31_apply, val_main_v30_apply]
  have el : ∀ k : Fin 256, lidx_main_v29 (ix3 b n o) k = ix3 b n k := fun k => funext fun a => Fin.ext (by
    match a with | ⟨0, _⟩ => rfl | ⟨1, _⟩ => rfl | ⟨2, _⟩ => rfl)
  have er : ∀ k : Fin 256, ridx_main_v29 (ix3 b n o) k = ix2 o k := fun k => funext fun a => Fin.ext (by
    match a with | ⟨0, _⟩ => rfl | ⟨1, _⟩ => rfl)
  have eb : idx_main_v30 (idx_main_v31 (ix3 b n o)) = ix1 o := funext fun a => Fin.ext (by
    match a with | ⟨0, _⟩ => rfl)
  rw [eb]
  simp only [el, er, ctxRow_stage]
  rfl

/-- The last stage is the specification's function of the five arguments. -/
theorem stage_eq_G : val_main_v32 (F := Ideal) x W bq Wp bp = G x W bq Wp bp := by
  funext i
  obtain ⟨b, n, o, rfl⟩ : ∃ (b : Fin 8) (n : Fin 2048) (o : Fin 256), i = ix3 b n o := ⟨i 0, i 1, i 2, eq_ix3 i⟩
  exact out_stage x W bq Wp bp b n o

end Cert.AttnRef

end
-- ==== Proof.RefValue.lean ====
/-
  The reference's result, read back index by index, is the specification's function of the arguments.
-/
import proofs.«153646_j81466939670561_2_alg».proof.Proof.RefOut

noncomputable section

namespace Cert.AttnRef

open Idealize.ShloMosaic Idealize.ShloMosaic.ValueIdx Idealize.ShloMosaic.TcCoe Idealize.SL.Sem

/-- The reference's result buffer, as a function of the launch memory's five argument arrays, is the
    specification. -/
theorem ref_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v32 (F := Ideal) m c
      = Cert.AttnSpec.G (m ((c.tc : Thread Cert.ReferenceIdeal.nD Cert.ReferenceIdeal.τ).loc Cert.ReferenceIdeal.main_arg0))
                        (m ((c.tc : Thread _ _).loc Cert.ReferenceIdeal.main_arg1)) (m ((c.tc : Thread _ _).loc Cert.ReferenceIdeal.main_arg2))
                        (m ((c.tc : Thread _ _).loc Cert.ReferenceIdeal.main_arg3)) (m ((c.tc : Thread _ _).loc Cert.ReferenceIdeal.main_arg4)) :=
  (Cert.ReferenceIdeal.Read.val_main_v32_eq (F := Ideal) m c).trans (stage_eq_G _ _ _ _ _)

end Cert.AttnRef

end
-- ==== Proof.lean ====
/-
  The certificate of a fused multi-head self-attention layer against its plain reference.

  The kernel program projects the tokens to queries, keys and values head by head in one pallas region (over
  weights the host has rearranged head-major), then, in a second region, forms each tile's attention head by head
  into a scratch table and applies the output projection.  The reference does the same with whole-array einsums and
  a softmax.  Over the extended reals, where a change of float format is the identity, both compute

      out[b, n, o] = (∑_c ctx[b, n, c] · Wp[o, c]) + bp[o],
      ctx[b, n, h·64 + d] = ∑_m softmax_m((∑_d' q[n, d'] · k[m, d']) / 8) · v[m, d],

  with q, k, v the fused projection (∑_c x[b, n, c] · W[o, c]) + bq[o] at the channels of head h — the same sums over
  the same index sets, so no algebraic law is needed and the precondition is not used.

  * The three frames: each kernel region's body runs on whole staging buffers leaving its inputs in place (the word-level
    and the idealized program have the same text, so one proof, generic in the float instance, serves both); the host
    stretches and the write-backs touch no argument.  The reference has no kernel: its frame is its run.
  * The ideal pass rewrote nothing, so the preservation claim is trivial.
  * The value claim: the kernel program's result array is the specification's function of the arguments
    (blocks to arrays for both regions, the host's rearrangements read at an index), and so is the reference's.
-/
import proofs.«153646_j81466939670561_2_alg».proof.Defs
import proofs.«153646_j81466939670561_2_alg».proof.Proof.Gen.Kernel
import proofs.«153646_j81466939670561_2_alg».proof.Proof.Gen.KernelIdeal
import proofs.«153646_j81466939670561_2_alg».proof.Proof.Gen.ReferenceIdeal
import proofs.«153646_j81466939670561_2_alg».proof.Proof.Gen.Pre_finite_inputs
import proofs.«153646_j81466939670561_2_alg».proof.Proof.Gen.ReferenceIdeal.Run
import proofs.«153646_j81466939670561_2_alg».proof.Proof.KB.Run
import proofs.«153646_j81466939670561_2_alg».proof.Proof.KI.Run
import proofs.«153646_j81466939670561_2_alg».proof.Proof.KValue
import proofs.«153646_j81466939670561_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run, with the result dropped, is its frame. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the specification's function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.AttnSpec.G (Cert.AttnKV.aX m c) (Cert.AttnKV.aW m c) (Cert.AttnKV.aB m c) (Cert.AttnKV.aP m c) (Cert.AttnKV.aQ m c), ?_, ?_⟩
  · exact (θ_run Cert.KernelIdeal.defs _ _).mono (fun r h c => ⟨(h c).1.trans (Cert.AttnKV.kernel_value m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.AttnRef.ref_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
